-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_arg9 : FVec F S128 .f32) (main_arg10 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x1 .f32) (main_arg8 : FVec F S1 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x64 .f32) (main_arg3 : FVec F S320x128 .f32) (main_arg4 : FVec F S128 .f32) (main_arg5 : FVec F S128x128 .f32) (main_arg6 : FVec F S128 .f32) (main_arg7 : FVec F S128x1 .f32) (main_arg8 : FVec F S1 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S1x2 : Shape := ⟨2, ![1, 2]⟩
abbrev S4000x128 : Shape := ⟨2, ![4000, 128]⟩
abbrev S4000x64 : Shape := ⟨2, ![4000, 64]⟩
abbrev S4000x320 : Shape := ⟨2, ![4000, 320]⟩
abbrev S4000x1 : Shape := ⟨2, ![4000, 1]⟩
abbrev S8000x128 : Shape := ⟨2, ![8000, 128]⟩
abbrev S8000x1 : Shape := ⟨2, ![8000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 54
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S1x128, .f32⟩
  | .hbm, ⟨34, _⟩ => ⟨S1x128, .f32⟩
  | .hbm, ⟨35, _⟩ => ⟨S1x1, .f32⟩
  | .hbm, ⟨36, _⟩ => ⟨S800000x128, .f32⟩
  | .hbm, ⟨37, _⟩ => ⟨S1x2, .f32⟩
  | .hbm, ⟨38, _⟩ => ⟨S1x1, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S320x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S4000x128, .f32⟩
  | .local _ .vmem, ⟨13, _⟩ => ⟨S4000x128, .f32⟩
  | .local _ .vmem, ⟨14, _⟩ => ⟨S1x2, .f32⟩
  | .local _ .vmem, ⟨15, _⟩ => ⟨S1x1, .f32⟩
  | .local _ .vmem, ⟨16, _⟩ => ⟨S1x1, .f32⟩
  | .local _ .vmem, ⟨17, _⟩ => ⟨S8000x128, .f32⟩
  | .local _ .vmem, ⟨18, _⟩ => ⟨S8000x128, .f32⟩
  | .local _ .vmem, ⟨19, _⟩ => ⟨S1x2, .f32⟩
  | .local _ .vmem, ⟨20, _⟩ => ⟨S128x1, .f32⟩
  | .local _ .vmem, ⟨21, _⟩ => ⟨S1x1, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x64_S4000x64_0_0 : ∀ a, (![0, 0] : Fin 2 → Nat) a + S4000x64.size a ≤ S4000x64.size a
  h_S4000x64 : 0 < S4000x64.numel
  concatenates_S4000x128_S4000x128_S4000x64_S4000x320_d1 : Shape.Concatenates [S4000x128, S4000x128, S4000x64] S4000x320 1
  inb_S320x128_S320x128_0_0 : ∀ a, (![0, 0] : Fin 2 → Nat) a + S320x128.size a ≤ S320x128.size a
  h_S320x128 : 0 < S320x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  broadcasts_S1x1_S4000x1 : S1x1.Broadcasts S4000x1
  reduces_S4000x1_S1 : S4000x1.Reduces [0] S1
  concatenates_S1x1_S1x1_S1x2_d1 : Shape.Concatenates [S1x1, S1x1] S1x2 1
  inb_S1x2_S1x2_0_0 : ∀ a, (![0, 0] : Fin 2 → Nat) a + S1x2.size a ≤ S1x2.size a
  h_S1x2 : 0 < S1x2.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x1_S8000x1 : S1x1.Broadcasts S8000x1
  shapeCasts_S1x2_S1x2 : S1x2.ShapeCasts S1x2
  slices_S1x2_o0_0_S1x1 : S1x2.Slices ![0, 0] S1x1
  slices_S1x2_o0_1_S1x1 : S1x2.Slices ![0, 1] S1x1
  broadcasts_S8000x1_S8000x128 : S8000x1.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x320_S320x128_S4000x128_1_0_0_1_n_n_wf : DotDims.WF S4000x320 S320x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  dot_S8000x128_S128x1_S8000x1_1_0_0_1_n_n_wf : DotDims.WF S8000x128 S128x1 S8000x1 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .f32 = 32 ∨ (Rect.block (s := S320x128) S320x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S800000x128.size a
  hwx0_9 : ∀ i : grid0.Coords, EltTy.bits .f32 = 32 ∨ (Rect.block (s := S800000x128) S4000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S800000x128.size a
  hwx1_4 : ∀ i : grid1.Coords, EltTy.bits .f32 = 32 ∨ (Rect.block (s := S800000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x320_S320x128_S4000x128_1_0_0_1_n_n : DotDims S4000x320 S320x128 S4000x128 where
  lhsContracting := [1]
  rhsContracting := [0]
  lhsNonContracting := [0]
  rhsNonContracting := [1]
  lhsBatch := []
  rhsBatch := []
  wf := dot_S4000x320_S320x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S1x2.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v21_0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S320x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S800000x320, .f32⟩
  | 35 => ⟨S800000x128, .f32⟩
  | 36 => ⟨S1x128, .f32⟩
  | 37 => ⟨S800000x128, .f32⟩
  | 38 => ⟨S800000x128, .f32⟩
  | 39 => ⟨S_, .f32⟩
  | 40 => ⟨S800000x128, .f32⟩
  | 41 => ⟨S800000x128, .f32⟩
  | 42 => ⟨S800000x128, .f32⟩
  | 43 => ⟨S1x128, .f32⟩
  | 44 => ⟨S800000x128, .f32⟩
  | 45 => ⟨S800000x128, .f32⟩
  | 46 => ⟨S800000x1, .f32⟩
  | 47 => ⟨S1x1, .f32⟩
  | 48 => ⟨S800000x1, .f32⟩
  | 49 => ⟨S800000x1, .f32⟩
  | 50 => ⟨S_, .f32⟩
  | 51 => ⟨S_, .f32⟩
  | 52 => ⟨S800000x1, .f32⟩
  | 53 => ⟨S800000x1, .i1⟩
  | 54 => ⟨S_, .f32⟩
  | 55 => ⟨S800000x1, .f32⟩
  | 56 => ⟨S800000x1, .f32⟩
  | 57 => ⟨S800000x1, .f32⟩
  | 58 => ⟨S_, .f32⟩
  | 59 => ⟨S1, .f32⟩
  | 60 => ⟨S_, .f32⟩
  | 61 => ⟨S1, .f32⟩
  | 62 => ⟨S1, .f32⟩
  | 63 => ⟨S1x1, .f32⟩
  | 64 => ⟨S800000x1, .f32⟩
  | 65 => ⟨S800000x1, .f32⟩
  | 66 => ⟨S800000x1, .f32⟩
  | 67 => ⟨S_, .f32⟩
  | 68 => ⟨S1, .f32⟩
  | 69 => ⟨S1x1, .f32⟩
  | 70 => ⟨S800000x1, .f32⟩
  | 71 => ⟨S800000x1, .f32⟩
  | 72 => ⟨S_, .f32⟩
  | 73 => ⟨S50000x128, .f32⟩
  | 74 => ⟨S800000x128, .f32⟩
  | 75 => ⟨S800000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S_, .i32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S50000, .f32⟩
  | 107 => ⟨S50000x1, .f32⟩
  | 108 => ⟨S50000x1, .f32⟩
  | 109 => ⟨S50000x1, .f32⟩
  | 110 => ⟨S_, .f32⟩
  | 111 => ⟨S_, .i1⟩
  | 112 => ⟨S_, .f32⟩
  | 113 => ⟨S_, .f32⟩
  | 114 => ⟨S50000x1, .f32⟩
  | 115 => ⟨S50000x1, .f32⟩
  | 116 => ⟨S50000x128, .f32⟩
  | 117 => ⟨S50000x128, .f32⟩
  | 118 => ⟨S_, .f32⟩
  | 119 => ⟨S50000x1, .f32⟩
  | 120 => ⟨S50000x1, .f32⟩
  | 121 => ⟨S50000x1, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_c_11 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_cst_3 : Ref sig .tc := ⟨.hbm, 110, rfl⟩
abbrev main_call2_v13 : Ref sig .tc := ⟨.hbm, 111, rfl⟩
abbrev main_call2_cst_4 : Ref sig .tc := ⟨.hbm, 112, rfl⟩
abbrev main_call2_call0_v0 : Ref sig .tc := ⟨.hbm, 113, rfl⟩
abbrev main_call2_call0_v1 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_12 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  reducesTo_S800000x1_S1_d0 : S800000x1.ReducesTo [0] S1
  h_S_ : 0 < S_.numel
  bcast_S_S1 : S_.BroadcastsInDim S1 (![] : Fin 0 → Fin S1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.Reg0.Base.lean ====
import proofs.«137429_j68822555951393_1_alg».proof.Proof.Gen.Kernel.Launch
import proofs.«137429_j68822555951393_1_alg».proof.Proof.Gen.Kernel.Skeleton
import proofs.«137429_j68822555951393_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 (the message kernel, 200 points of 4000 edges): what its two cases and the proof data share

Everything is stated at a PARAMETER `V`: the TensorCore's buffer contents when the region is entered. -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data over `V`'s arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data over `V`'s arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved), for any proof data over `V`'s arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    window's block index has not moved), for any proof data over `V`'s arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's one branch: is this the first point? -/

/-- The condition of the body's `scf.if`, from the grid coordinate (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 200 = 0 :=
  (by decide +kernel : ∀ t : Fin grid0.N, cond0_0 (grid0.coords t) ↔ t.val % 200 = 0)

/-! ## The two scratch cells and the rest of the scoped buffers -/

/-- The scratch operands: whole 1×1 scoped buffers of the kernel's own (the running maximum, the running sum). -/
abbrev scM0_0 : Memref sig .tc .vmem S1x1 .f32 := Memref.whole cc0_scratch0
abbrev scM0_1 : Memref sig .tc .vmem S1x1 .f32 := Memref.whole cc0_scratch1

/-- The scoped buffers region 0 never touches (the later regions' staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The class invariant with the two scratch cells split off as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## Whole-shape accesses at offset zero -/

theorem hz2 : (![0, 0] : Fin 2 → Nat) = fun _ => 0 := funext fun a => by fin_cases a <;> rfl

end Cert.Kernel.Hand

end
-- ==== Proof.K.Reg0.Run.lean ====
import proofs.«137429_j68822555951393_1_alg».proof.Proof.K.Reg0.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel body's run, in its two cases -/

/-- A buffer whose LAST store was a whole-shape store at offset zero reads that store's payload, whatever came before. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- The kernel body at the FIRST point (the branch taken), on whole staging memrefs — the inputs' at read contents `x·`, the two outputs' at
    anything, the two scratch cells' at anything (the body first stores `k0_pay8` and `k0_pay9` into them) — runs to the continuation holding the inputs' as they were, the messages' block at
    `k0_pay10` of blocks 0–6, the statistics pair at `k0_pay7`, and the two scratch cells at `k0_pay5` / `k0_pay6`, each over
    the score vector `k0_pay11` of blocks 0–7, the mask block 8 and the carried pair (`k0_pay8`, `k0_pay9`) it has just stored:
    every store is a whole-shape store at offset zero, so each buffer ends at its last store's payload. -/
theorem sound_kernel0_A (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x64 .f32) (harg3 : arg3.IsWhole) (arg4 : Memref sig .tc .vmem S320x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S1x2 .f32) (harg11 : arg11.IsWhole) (arg12 : Memref sig .tc .vmem S1x1 .f32) (harg12 : arg12.IsWhole) (arg13 : Memref sig .tc .vmem S1x1 .f32) (harg13 : arg13.IsWhole) (hc0 : cond0_0 i)
    (x0 : Vec F S4000x128 .f32) (x1 : Vec F S4000x128 .f32) (x2 : Vec F S4000x64 .f32) (x3 : Vec F S320x128 .f32) (x4 : Vec F S1x128 .f32) (x5 : Vec F S128x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay10 x0 x1 x2 x3 x4 x5 x6) ∗ owns (c : Thread nD τ) arg11 fullShare (k0_pay7 (k0_pay11 x0 x1 x2 x3 x4 x5 x6 x7) x8 k0_pay8 k0_pay9) ∗ owns (c : Thread nD τ) arg12 fullShare (k0_pay5 (k0_pay11 x0 x1 x2 x3 x4 x5 x6 x7) x8 k0_pay8) ∗ owns (c : Thread nD τ) arg13 fullShare (k0_pay6 (k0_pay11 x0 x1 x2 x3 x4 x5 x6 x7) x8 k0_pay8 k0_pay9)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13) K := by
  simp only [cc0__message_kernel_eq_skeleton]; unfold cc0__message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
  subst hf0; subst hf1; subst hf2; subst hf3; subst hf4; subst hf5; subst hf6; subst hf7; subst hf8
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ hz2 _ _ _).trans ?_
    simp only [View.readAt_eq_ld, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [H10]
  · iexists _; isplitr
    swap; · iexact H10
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [HS0]
  · iexists _; isplitr
    swap; · iexact HS0
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  iexists _; isplitr
  swap; · iexact HS1
  ipureintro
  refine (read_writes_whole _ _ hz2 _ _ _).trans ?_
  sl_unfold_run_names
  simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]

set_option maxHeartbeats 1000000 in
/-- The kernel body at a LATER point (the branch not taken), on whole staging memrefs — the inputs' at read contents `x·`, the two outputs' at
    anything, the two scratch cells' at the pair `xs0`, `xs1` the point before left — runs to the continuation holding the inputs' as they were, the messages' block at
    `k0_pay10` of blocks 0–6, the statistics pair at `k0_pay7`, and the two scratch cells at `k0_pay5` / `k0_pay6`, each over
    the score vector `k0_pay11` of blocks 0–7, the mask block 8 and the carried pair (`xs0`, `xs1`):
    every store is a whole-shape store at offset zero, so each buffer ends at its last store's payload. -/
theorem sound_kernel0_B (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x64 .f32) (harg3 : arg3.IsWhole) (arg4 : Memref sig .tc .vmem S320x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S1x2 .f32) (harg11 : arg11.IsWhole) (arg12 : Memref sig .tc .vmem S1x1 .f32) (harg12 : arg12.IsWhole) (arg13 : Memref sig .tc .vmem S1x1 .f32) (harg13 : arg13.IsWhole) (hc0 : ¬cond0_0 i)
    (x0 : Vec F S4000x128 .f32) (x1 : Vec F S4000x128 .f32) (x2 : Vec F S4000x64 .f32) (x3 : Vec F S320x128 .f32) (x4 : Vec F S1x128 .f32) (x5 : Vec F S128x128 .f32) (x6 : Vec F S1x128 .f32) (x7 : Vec F S128x1 .f32) (x8 : Vec F S1x1 .f32) (xs0 : Vec F S1x1 .f32) (xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay10 x0 x1 x2 x3 x4 x5 x6) ∗ owns (c : Thread nD τ) arg11 fullShare (k0_pay7 (k0_pay11 x0 x1 x2 x3 x4 x5 x6 x7) x8 xs0 xs1) ∗ owns (c : Thread nD τ) arg12 fullShare (k0_pay5 (k0_pay11 x0 x1 x2 x3 x4 x5 x6 x7) x8 xs0) ∗ owns (c : Thread nD τ) arg13 fullShare (k0_pay6 (k0_pay11 x0 x1 x2 x3 x4 x5 x6 x7) x8 xs0 xs1)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13) K := by
  simp only [cc0__message_kernel_eq_skeleton]; unfold cc0__message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  subst hf0; subst hf1; subst hf2; subst hf3; subst hf4; subst hf5; subst hf6; subst hf7; subst hf8; subst hfs0; subst hfs1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ hz2 _ _ _).trans ?_
    simp only [View.readAt_eq_ld, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [H10]
  · iexists _; isplitr
    swap; · iexact H10
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [HS0]
  · iexists _; isplitr
    swap; · iexact HS0
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  iexists _; isplitr
  swap; · iexact HS1
  ipureintro
  refine (read_writes_whole _ _ hz2 _ _ _).trans ?_
  sl_unfold_run_names
  simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]

end Cert.Kernel.Hand

end
-- ==== Proof.K.Reg0.lean ====
import proofs.«137429_j68822555951393_1_alg».proof.Proof.K.Reg0.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 of @main: the message kernel over its 200 points, at the entry contents `V`

The body keeps an online softmax's running maximum and running sum in two 1×1 scratch cells, which it CARRIES from
each point to the next: the first point starts them at (`k0_pay8`, `k0_pay9`) = (−∞, 0); every point replaces the pair
by (`k0_pay5`, `k0_pay6`) of its score vector, its mask block and the pair it found. The messages' block (window 9) is
stored whole and written back at every point; the statistics pair (window 10) is stored whole at every point and
written back after the last. -/

section Region0
variable (V : (c : Dev nD) → (b : Ref sig .tc) → Buf (Elt F) ((c : Thread nD τ).loc b))

/-! ## What the points compute -/

/-- The score vector of point `t` (4000 edges): `k0_pay11` of the blocks of windows 0–7 there. -/
def sc0 (c : Dev nD) (t : Fin cfg0.N) : FVec F S4000x1 .f32 :=
  k0_pay11 (iblk0 V c 0 t) (iblk0 V c 1 t) (iblk0 V c 2 t) (iblk0 V c 3 t) (iblk0 V c 4 t) (iblk0 V c 5 t) (iblk0 V c 6 t) (iblk0 V c 7 t)

/-- THE CARRIED PAIR (running maximum, running sum) as the scratch cells hold it BEFORE point `n`: what the first
    point stores before reading them, then point by point what the body leaves. -/
def carry0 (c : Dev nD) : (n : ℕ) → n ≤ cfg0.N → FVec F S1x1 .f32 × FVec F S1x1 .f32
  | 0, _ => (k0_pay8, k0_pay9)
  | n + 1, hn =>
    (k0_pay5 (sc0 V c ⟨n, Nat.lt_of_succ_le hn⟩) (iblk0 V c 8 ⟨n, Nat.lt_of_succ_le hn⟩) (carry0 c n (Nat.le_of_succ_le hn)).1,
     k0_pay6 (sc0 V c ⟨n, Nat.lt_of_succ_le hn⟩) (iblk0 V c 8 ⟨n, Nat.lt_of_succ_le hn⟩) (carry0 c n (Nat.le_of_succ_le hn)).1 (carry0 c n (Nat.le_of_succ_le hn)).2)

theorem carry0_zero (c : Dev nD) (h : 0 ≤ cfg0.N) : carry0 V c 0 h = (k0_pay8, k0_pay9) := rfl

theorem carry0_succ (c : Dev nD) (n : ℕ) (hn : n + 1 ≤ cfg0.N) :
    carry0 V c (n + 1) hn
      = (k0_pay5 (sc0 V c ⟨n, Nat.lt_of_succ_le hn⟩) (iblk0 V c 8 ⟨n, Nat.lt_of_succ_le hn⟩) (carry0 V c n (Nat.le_of_succ_le hn)).1,
         k0_pay6 (sc0 V c ⟨n, Nat.lt_of_succ_le hn⟩) (iblk0 V c 8 ⟨n, Nat.lt_of_succ_le hn⟩) (carry0 V c n (Nat.le_of_succ_le hn)).1 (carry0 V c n (Nat.le_of_succ_le hn)).2) := rfl

/-- The pair after point `t`, from the pair before it. -/
theorem carry0_next (c : Dev nD) (t : Fin cfg0.N) :
    carry0 V c (t.val + 1) t.isLt
      = (k0_pay5 (sc0 V c t) (iblk0 V c 8 t) (carry0 V c t.val (Nat.le_of_lt t.isLt)).1,
         k0_pay6 (sc0 V c t) (iblk0 V c 8 t) (carry0 V c t.val (Nat.le_of_lt t.isLt)).1 (carry0 V c t.val (Nat.le_of_lt t.isLt)).2) := rfl

/-- Before the first point: the pair the first point itself stores. -/
theorem carry0_of_eq_zero (c : Dev nD) (n : ℕ) (h : n ≤ cfg0.N) (hz : n = 0) : carry0 V c n h = (k0_pay8, k0_pay9) := by
  subst hz; rfl

/-! ## The region invariant -/

/-- Before the first point the class invariant (every scoped buffer at anything); before point `n + 1` the two scratch
    cells at the carried pair, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (carry0 V c (n + 1) hn).1 ∗ owns (c : Thread nD τ) scM0_1 fullShare (carry0 V c (n + 1) hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n + 1 ≤ cfg0.N) :
    PhiS0 V c (n + 1) hn = iprop(iprop(owns (c : Thread nD τ) scM0_0 fullShare (carry0 V c (n + 1) hn).1 ∗ owns (c : Thread nD τ) scM0_1 fullShare (carry0 V c (n + 1) hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (carry0 V c n h).1 ∗ owns (c : Thread nD τ) scM0_1 fullShare (carry0 V c n h).2 ∗ rest0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block, the messages' at `k0_pay10` of blocks 0–6, the statistics' at `k0_pay7` of the score
    vector, the mask block and the pair carried INTO the point; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay10 (iblk0 V c 0 t) (iblk0 V c 1 t) (iblk0 V c 2 t) (iblk0 V c 3 t) (iblk0 V c 4 t) (iblk0 V c 5 t) (iblk0 V c 6 t)
    | ⟨10, _⟩ => k0_pay7 (sc0 V c t) (iblk0 V c 8 t) (carry0 V c t.val (Nat.le_of_lt t.isLt)).1 (carry0 V c t.val (Nat.le_of_lt t.isLt)).2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = k0_pay10 (iblk0 V c 0 t) (iblk0 V c 1 t) (iblk0 V c 2 t) (iblk0 V c 3 t) (iblk0 V c 4 t) (iblk0 V c 5 t) (iblk0 V c 6 t) := by dsimp only [dat0]
theorem after0_10 (c : Dev nD) (t : Fin cfg0.N) :
    (dat0 V c).after 10 t = k0_pay7 (sc0 V c t) (iblk0 V c 8 t) (carry0 V c t.val (Nat.le_of_lt t.isLt)).1 (carry0 V c t.val (Nat.le_of_lt t.isLt)).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks; the closed form of the branch condition says whether
    the point is the first; the invariant hands the body the two scratch cells — at anything at the first point, at the
    carried pair afterwards — and takes them back at the pair carried on; the other scoped buffers, the generator
    register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ, carry0_next]
  rw [after0_0, after0_1, after0_2, after0_3, after0_4, after0_5, after0_6, after0_7, after0_8, after0_9, after0_10]
  rw [PhiS0_castSucc V c t]
  unfold sc0
  have hN : t.val < 200 := lt_of_lt_of_eq t.isLt (show cfg0.N = 200 from N_0)
  by_cases h0 : t.val % 200 = 0
  · have hz : t.val = 0 := by omega
    rw [PhiS0_zero V c _ _ hz, PhiA0_eq, carry0_of_eq_zero V c t.val _ hz]
    dsimp only
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    rw [PhiS0_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_B c Set.univ (grid0.coords t) _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (carry0 V c t.val (Nat.le_of_lt t.isLt)).1 (carry0 V c t.val (Nat.le_of_lt t.isLt)).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the carried pair's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Region0

end Cert.Kernel.Hand

end
-- ==== Proof.K.Reg1.lean ====
/- Region 1 of @main, the weighting kernel on its 100 grid points of 8000 edges, stated at a parameter `V`: the contents
   of the TensorCore's buffers when the region is entered. Per window its block at a point; the body's triple (four
   loads of whole staging buffers, one store of the weighted messages through the whole output buffer); the proof data
   of the pipeline; and the body obligation at every point. Generic in the float model. -/
import proofs.«137429_j68822555951393_1_alg».proof.Proof.Gen.Kernel.Launch
import proofs.«137429_j68822555951393_1_alg».proof.Proof.Gen.Kernel.Skeleton
import proofs.«137429_j68822555951393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! # REGION 1: the weighting kernel, at the entry contents `V`

## The windows' blocks -/

/-- Window `w`'s block at grid point `t`: what the window's block rectangle reads of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

abbrev r1_0 : Rect S8000x128 := Rect.unit (s := S8000x128) ![0, 0] S8000x128.size inb_S8000x128_S8000x128_0_0
abbrev r1_1 : Rect S1x2 := Rect.unit (s := S1x2) ![0, 0] S1x2.size inb_S1x2_S1x2_0_0
abbrev r1_2 : Rect S128x1 := Rect.unit (s := S128x1) ![0, 0] S128x1.size inb_S128x1_S128x1_0_0
abbrev r1_3 : Rect S1x1 := Rect.unit (s := S1x1) ![0, 0] S1x1.size inb_S1x1_S1x1_0_0

/-! ## What the body leaves in the output window's buffer -/

/-- The output window's staging buffer after the body, as a function of the four input blocks: the body's single store,
    through the whole buffer, of the stored value computed from what the four loads read. -/
def out1_4 (x0 : Vec F S8000x128 .f32) (x1 : Vec F S1x2 .f32) (x2 : Vec F S128x1 .f32) (x3 : Vec F S1x1 .f32) : Vec F S8000x128 .f32 :=
  View.canon [⟨r1_0, k1_pay1 (View.ld x0 r1_0) (View.ld x2 r1_2) (View.ld x3 r1_3) (View.ld x1 r1_1)⟩]

/-- That one store covers the buffer. -/
theorem cover1_4 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

/-! ## The body's triple -/

set_option maxHeartbeats 1000000 in
/-- The kernel body on whole staging buffers, the four inputs' holding `x0 … x3` and the output's holding anything: it runs
    to its end, leaves the inputs' buffers as they were and the output's at `out1_4 x0 x1 x2 x3`. (The body also loads the
    output's buffer before storing into it; the loaded value is not used.) -/
theorem sound_kernel1 (c : Dev nD) (E : Set ℕ) (i : grid1.Coords) (arg1 : Memref sig .tc .vmem S8000x128 .f32) (harg1 : arg1.IsWhole) (arg2 : Memref sig .tc .vmem S1x2 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S8000x128 .f32) (harg5 : arg5.IsWhole)
    (x0 : Vec F S8000x128 .f32) (x1 : Vec F S1x2 .f32) (x2 : Vec F S128x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__weight_kernel i arg1 harg1 arg2 harg2 arg3 harg3 arg4 harg4 arg5 harg5) K := by
  simp only [cc1__weight_kernel_eq_skeleton]; unfold cc1__weight_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t` each
    input's buffer still at its block and the output's at `out1_4` of the four input blocks; the invariant is the one that
    only carries the scoped buffers and the generator register along, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at the first and after the last point is the class invariant itself. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of @main, the residual-and-normalisation kernel on its 10 grid points of 5000 nodes, stated at a parameter
   `V`: the contents of the TensorCore's buffers when the region is entered. Per window its block at a point; the body's
   triple (four loads of whole staging buffers, one store of the normalised rows through the whole output buffer); the
   proof data of the pipeline; and the body obligation at every point. Generic in the float model. -/
import proofs.«137429_j68822555951393_1_alg».proof.Proof.Gen.Kernel.Launch
import proofs.«137429_j68822555951393_1_alg».proof.Proof.Gen.Kernel.Skeleton
import proofs.«137429_j68822555951393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! # REGION 2: the residual-and-normalisation kernel, at the entry contents `V`

## The windows' blocks -/

/-- Window `w`'s block at grid point `t`: what the window's block rectangle reads of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole of a staging buffer -/

abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0

/-! ## What the body leaves in the output window's buffer -/

/-- The output window's staging buffer after the body, as a function of the four input blocks: the body's single store,
    through the whole buffer, of the stored value computed from what the four loads read. -/
def out2_4 (x0 : Vec F S5000x128 .f32) (x1 : Vec F S5000x128 .f32) (x2 : Vec F S1x128 .f32) (x3 : Vec F S1x128 .f32) : Vec F S5000x128 .f32 :=
  View.canon [⟨r2_0, k2_pay1 (View.ld x0 r2_0) (View.ld x1 r2_1) (View.ld x2 r2_2) (View.ld x3 r2_3)⟩]

/-- That one store covers the buffer. -/
theorem cover2_4 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging buffers, the four inputs' holding `x0 … x3` and the output's holding anything: it runs
    to its end, leaves the inputs' buffers as they were and the output's at `out2_4 x0 x1 x2 x3`. (The body also loads the
    output's buffer before storing into it; the loaded value is not used.) -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__finalize_kernel i arg1 harg1 arg2 harg2 arg3 harg3 arg4 harg4 arg5 harg5) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of this pipeline on core `c`: the arrays as the region finds them; after the body at point `t` each
    input's buffer still at its block and the output's at `out2_4` of the four input blocks; the invariant is the one that
    only carries the scoped buffers and the generator register along, untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at the first and after the last point is the class invariant itself. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of @main: three kernel regions — the message network with its running softmax statistics, the weighting
  pass, the residual with its layer normalisation — among three stretches of host operations (the two gathers and
  the reshapes of the biases; one reshape; the scatter-add and the reshapes of the scale and shift).

  The buffers' contents are followed from the launch memory through every stretch (the host operations applied in
  order) and every region (its windows' arrays at what the write-backs leave, everything else untouched). Each
  region is entered with every unscoped buffer of the core at the contents reached so far, and left with them at
  the next contents; so the run ends with every unscoped buffer at the last contents, `Mem6`. Two readings of that
  are stated: no stretch and no region changes an argument array, and the result array holds what the last
  region's write-backs leave of the contents it was entered with.
-/
import proofs.«137429_j68822555951393_1_alg».proof.Proof.K.Reg0
import proofs.«137429_j68822555951393_1_alg».proof.Proof.K.Reg1
import proofs.«137429_j68822555951393_1_alg».proof.Proof.K.Reg2
import proofs.«137429_j68822555951393_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Mem0 : Dev nD → Valuation τ sig (Elt F) := fun c b => (s₀ m ρ).mem ((c : Dev nD), b)
/-- After the first stretch (the gathers): what region 0 is entered with. -/
abbrev Mem1 : Dev nD → Valuation τ sig (Elt F) := fun c => StableHlo.after hostOps0 (Mem0 m ρ c)
abbrev Ent1 : (c : Dev nD) → (b : Ref sig .tc) → Buf (Elt F) ((c : Thread nD τ).loc b) := fun c b => Mem1 m ρ c b

/-- After region 0: its windows' arrays at what the write-backs leave (an input's array as entered, an output's with
    every written-back block folded in), every other buffer as entered. -/
def Mem2 (c : Dev nD) : Valuation τ sig (Elt F) :=
  Pipeline.withArrays spec0 c (Mem1 m ρ c) fun w => (dat0 (Ent1 m ρ) c).arrAt w cfg0.N
theorem Mem2_arr (c : Dev nD) (w : Fin cfg0.W) :
    Mem2 m ρ c (Proc.devRef .tc (Pipeline.arrRef spec0 w)) = (dat0 (Ent1 m ρ) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m ρ c (Proc.devRef .tc b) = Mem1 m ρ c (Proc.devRef .tc b) := by
  unfold Mem2; exact Pipeline.withArrays_of_ne spec0 c _ _ b hb
/-- The same read at the TensorCore's references. -/
abbrev Ext2 : (c : Dev nD) → (b : Ref sig .tc) → Buf (Elt F) ((c : Thread nD τ).loc b) := fun c b => Mem2 m ρ c b
theorem hF0 (c : Dev nD) (w : Fin cfg0.W) : (dat0 (Ent1 m ρ) c).arrAt w cfg0.N = Ext2 m ρ c (Pipeline.arrRef spec0 w) :=
  (Mem2_arr m ρ c w).symm
theorem hrest0 (c : Dev nD) : ∀ b, b ∉ Finset.univ.image (Pipeline.arrRef spec0) → Ext2 m ρ c b = Ent1 m ρ c b :=
  fun b hb => Mem2_of_ne m ρ c b fun w e => hb (Finset.mem_image.mpr ⟨w, Finset.mem_univ _, e⟩)
/-- The output windows of region 0 are the only ones whose arrays it may change. -/
theorem outWindows0 : ∀ w : Fin cfg0.W, ¬ (cfg0.win w).isOut = false → Pipeline.arrRef spec0 w = main_v21_0 ∨ Pipeline.arrRef spec0 w = main_v21_1 := by decide
/-- A buffer that is no output array of region 0 holds after it what it held before: it is no window's array at
    all, or an input window's, which no write-back touches. -/
theorem Mem2_keep (c : Dev nD) (b : Ref sig .tc) (h0 : b ≠ main_v21_0) (h1 : b ≠ main_v21_1) :
    Mem2 m ρ c (Proc.devRef .tc b) = Mem1 m ρ c (Proc.devRef .tc b) := by
  by_cases h : ∃ w, Pipeline.arrRef spec0 w = b
  · obtain ⟨w, rfl⟩ := h
    have hin : (cfg0.win w).isOut = false := by
      by_contra hc
      rcases outWindows0 w hc with e | e
      · exact h0 e
      · exact h1 e
    exact (Mem2_arr m ρ c w).trans (((dat0 (Ent1 m ρ) c).arrAt_in w hin _).trans (A_eq0 (Ent1 m ρ) c w))
  · exact Mem2_of_ne m ρ c b fun w e => h ⟨w, e⟩

/-- After the second stretch: what region 1 is entered with. -/
abbrev Mem3 : Dev nD → Valuation τ sig (Elt F) := fun c => StableHlo.after hostOps1 (Mem2 m ρ c)
abbrev Ent3 : (c : Dev nD) → (b : Ref sig .tc) → Buf (Elt F) ((c : Thread nD τ).loc b) := fun c b => Mem3 m ρ c b

/-- After region 1: its windows' arrays at what the write-backs leave (an input's array as entered, an output's with
    every written-back block folded in), every other buffer as entered. -/
def Mem4 (c : Dev nD) : Valuation τ sig (Elt F) :=
  Pipeline.withArrays spec1 c (Mem3 m ρ c) fun w => (dat1 (Ent3 m ρ) c).arrAt w cfg1.N
theorem Mem4_arr (c : Dev nD) (w : Fin cfg1.W) :
    Mem4 m ρ c (Proc.devRef .tc (Pipeline.arrRef spec1 w)) = (dat1 (Ent3 m ρ) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m ρ c (Proc.devRef .tc b) = Mem3 m ρ c (Proc.devRef .tc b) := by
  unfold Mem4; exact Pipeline.withArrays_of_ne spec1 c _ _ b hb
/-- The same read at the TensorCore's references. -/
abbrev Ext4 : (c : Dev nD) → (b : Ref sig .tc) → Buf (Elt F) ((c : Thread nD τ).loc b) := fun c b => Mem4 m ρ c b
theorem hF1 (c : Dev nD) (w : Fin cfg1.W) : (dat1 (Ent3 m ρ) c).arrAt w cfg1.N = Ext4 m ρ c (Pipeline.arrRef spec1 w) :=
  (Mem4_arr m ρ c w).symm
theorem hrest1 (c : Dev nD) : ∀ b, b ∉ Finset.univ.image (Pipeline.arrRef spec1) → Ext4 m ρ c b = Ent3 m ρ c b :=
  fun b hb => Mem4_of_ne m ρ c b fun w e => hb (Finset.mem_image.mpr ⟨w, Finset.mem_univ _, e⟩)
/-- The output windows of region 1 are the only ones whose arrays it may change. -/
theorem outWindows1 : ∀ w : Fin cfg1.W, ¬ (cfg1.win w).isOut = false → Pipeline.arrRef spec1 w = main_v23 := by decide
/-- A buffer that is no output array of region 1 holds after it what it held before: it is no window's array at
    all, or an input window's, which no write-back touches. -/
theorem Mem4_keep (c : Dev nD) (b : Ref sig .tc) (h0 : b ≠ main_v23) :
    Mem4 m ρ c (Proc.devRef .tc b) = Mem3 m ρ c (Proc.devRef .tc b) := by
  by_cases h : ∃ w, Pipeline.arrRef spec1 w = b
  · obtain ⟨w, rfl⟩ := h
    have hin : (cfg1.win w).isOut = false := by
      by_contra hc
      exact h0 (outWindows1 w hc)
    exact (Mem4_arr m ρ c w).trans (((dat1 (Ent3 m ρ) c).arrAt_in w hin _).trans (A_eq1 (Ent3 m ρ) c w))
  · exact Mem4_of_ne m ρ c b fun w e => h ⟨w, e⟩

/-- After the third stretch (the scatter-add): what region 2 is entered with. -/
abbrev Mem5 : Dev nD → Valuation τ sig (Elt F) := fun c => StableHlo.after hostOps2 (Mem4 m ρ c)
abbrev Ent5 : (c : Dev nD) → (b : Ref sig .tc) → Buf (Elt F) ((c : Thread nD τ).loc b) := fun c b => Mem5 m ρ c b

/-- After region 2: its windows' arrays at what the write-backs leave (an input's array as entered, an output's with
    every written-back block folded in), every other buffer as entered. -/
def Mem6 (c : Dev nD) : Valuation τ sig (Elt F) :=
  Pipeline.withArrays spec2 c (Mem5 m ρ c) fun w => (dat2 (Ent5 m ρ) c).arrAt w cfg2.N
theorem Mem6_arr (c : Dev nD) (w : Fin cfg2.W) :
    Mem6 m ρ c (Proc.devRef .tc (Pipeline.arrRef spec2 w)) = (dat2 (Ent5 m ρ) c).arrAt w cfg2.N := by
  unfold Mem6; exact Pipeline.withArrays_arr spec2 launch2.win.arr_inj c _ _ w
theorem Mem6_of_ne (c : Dev nD) (b : Ref sig .tc) (hb : ∀ w, Pipeline.arrRef spec2 w ≠ b) :
    Mem6 m ρ c (Proc.devRef .tc b) = Mem5 m ρ c (Proc.devRef .tc b) := by
  unfold Mem6; exact Pipeline.withArrays_of_ne spec2 c _ _ b hb
/-- The same read at the TensorCore's references. -/
abbrev Ext6 : (c : Dev nD) → (b : Ref sig .tc) → Buf (Elt F) ((c : Thread nD τ).loc b) := fun c b => Mem6 m ρ c b
theorem hF2 (c : Dev nD) (w : Fin cfg2.W) : (dat2 (Ent5 m ρ) c).arrAt w cfg2.N = Ext6 m ρ c (Pipeline.arrRef spec2 w) :=
  (Mem6_arr m ρ c w).symm
theorem hrest2 (c : Dev nD) : ∀ b, b ∉ Finset.univ.image (Pipeline.arrRef spec2) → Ext6 m ρ c b = Ent5 m ρ c b :=
  fun b hb => Mem6_of_ne m ρ c b fun w e => hb (Finset.mem_image.mpr ⟨w, Finset.mem_univ _, e⟩)
/-- The output windows of region 2 are the only ones whose arrays it may change. -/
theorem outWindows2 : ∀ w : Fin cfg2.W, ¬ (cfg2.win w).isOut = false → Pipeline.arrRef spec2 w = main_v34 := by decide
/-- A buffer that is no output array of region 2 holds after it what it held before: it is no window's array at
    all, or an input window's, which no write-back touches. -/
theorem Mem6_keep (c : Dev nD) (b : Ref sig .tc) (h0 : b ≠ main_v34) :
    Mem6 m ρ c (Proc.devRef .tc b) = Mem5 m ρ c (Proc.devRef .tc b) := by
  by_cases h : ∃ w, Pipeline.arrRef spec2 w = b
  · obtain ⟨w, rfl⟩ := h
    have hin : (cfg2.win w).isOut = false := by
      by_contra hc
      exact h0 (outWindows2 w hc)
    exact (Mem6_arr m ρ c w).trans (((dat2 (Ent5 m ρ) c).arrAt_in w hin _).trans (A_eq2 (Ent5 m ρ) c w))
  · exact Mem6_of_ne m ρ c b fun w e => h ⟨w, e⟩

/-! ## What reaches the end unchanged -/

/-- A buffer no host operation writes and no region has for an output array holds at the end what it held at launch. -/
theorem Mem6_of (c : Dev nD) (b : Ref sig .tc) (g0 : b ∉ hostOps0_W) (g1 : b ∉ hostOps1_W) (g2 : b ∉ hostOps2_W)
    (ha : b ≠ main_v21_0) (hb : b ≠ main_v21_1) (hc : b ≠ main_v23) (hd : b ≠ main_v34) :
    Mem6 m ρ c (Proc.devRef .tc b) = m ((c : Thread nD τ).loc b) :=
  calc Mem6 m ρ c (Proc.devRef .tc b)
    _ = Mem5 m ρ c (Proc.devRef .tc b) := Mem6_keep m ρ c b hd
    _ = Mem4 m ρ c (Proc.devRef .tc b) := StableHlo.after_of_writes_sub hostOps2 _ hostOps2_writes g2
    _ = Mem3 m ρ c (Proc.devRef .tc b) := Mem4_keep m ρ c b hc
    _ = Mem2 m ρ c (Proc.devRef .tc b) := StableHlo.after_of_writes_sub hostOps1 _ hostOps1_writes g1
    _ = Mem1 m ρ c (Proc.devRef .tc b) := Mem2_keep m ρ c b ha hb
    _ = Mem0 m ρ c (Proc.devRef .tc b) := StableHlo.after_of_writes_sub hostOps0 _ hostOps0_writes g0
    _ = m ((c : Thread nD τ).loc b) := rfl

/-- The result array at the end is what the last region's write-backs leave. -/
theorem Mem6_result (c : Dev nD) : Mem6 m ρ c (Proc.devRef .tc main_v34) = (dat2 (Ent5 m ρ) c).arrAt 4 cfg2.N :=
  Mem6_arr m ρ c 4

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (Ent1 m ρ) c
  | ⟨1, _⟩ => fun c => dat1 (Ent3 m ρ) c
  | ⟨2, _⟩ => fun c => dat2 (Ent5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (Mem6 m ρ c) ∗ ∃ r, prngReg c r)

/-! ## The regions as segments -/

/-- Entering a region's invariant: the generator register and the scoped buffers no window stages, the tables
    (there are none) dropped, in the order the invariant lists them. -/
theorem regroup_in (A B C : sProp 𝕄) : iprop(A ∗ B ∗ C) ⊢ iprop(C ∗ A) := by
  iintro ⟨Hp, -, Hr⟩
  isplitl [Hr]; · iexact Hr
  iexact Hp
/-- Leaving it: the same two back, beside no semaphore of the kernel's own. -/
theorem regroup_out (A C : sProp 𝕄) : iprop(C ∗ A) ⊢ iprop(A ∗ BI.emp ∗ C) := by
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- Region 0 over the thread state: entered from every unscoped buffer at `Mem1`, left at `Mem2`. Its windows'
    arrays are split out of the unscoped buffers and put back at what the write-backs leave; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent1 m ρ) c).loose
  hwaits := Pipeline.hwaits_of_owed_zero _ _ _ _ L lv 0 fun _ _ => rfl
  pre c := iprop(StableHlo.held (c : Thread nD τ) (Pipeline.ucRefs τ sig) (Mem1 m ρ c) ∗ R c)
  post c := iprop(StableHlo.held (c : Thread nD τ) (Pipeline.ucRefs τ sig) (Mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin0 (Ent1 m ρ) c)
  hout c := by
    rw [Pipeline.ownSems0_none]
    exact (hout0 (Ent1 m ρ) c).trans (regroup_out _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent1 m ρ c) (Ext2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `Mem3`, left at `Mem4`. Its windows'
    arrays are split out of the unscoped buffers and put back at what the write-backs leave; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent3 m ρ) c).loose
  hwaits := Pipeline.hwaits_of_owed_zero _ _ _ _ L lv 1 fun _ _ => rfl
  pre c := iprop(StableHlo.held (c : Thread nD τ) (Pipeline.ucRefs τ sig) (Mem3 m ρ c) ∗ R c)
  post c := iprop(StableHlo.held (c : Thread nD τ) (Pipeline.ucRefs τ sig) (Mem4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin1 (Ent3 m ρ) c)
  hout c := by
    rw [Pipeline.ownSems0_none]
    exact (hout1 (Ent3 m ρ) c).trans (regroup_out _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent3 m ρ c) (Ext4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `Mem5`, left at `Mem6`. Its windows'
    arrays are split out of the unscoped buffers and put back at what the write-backs leave; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent5 m ρ) c).loose
  hwaits := Pipeline.hwaits_of_owed_zero _ _ _ _ L lv 2 fun _ _ => rfl
  pre c := iprop(StableHlo.held (c : Thread nD τ) (Pipeline.ucRefs τ sig) (Mem5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ent5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin2 (Ent5 m ρ) c)
  hout c := by
    rw [Pipeline.ownSems0_none]
    exact (hout2 (Ent5 m ρ) c).trans (regroup_out _ _)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent5 m ρ c) (Ext6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) adm (pdats m ρ) () defs₀ 𝒱₀ L lv) :=
  [ .host (hseg hostOps0 hostOps0_sub hostOps0_fresh (Mem0 m ρ)),
    .region (reg0 m ρ),
    .host (hseg hostOps1 hostOps1_sub hostOps1_fresh (Mem2 m ρ)),
    .region (reg1 m ρ),
    .host (hseg hostOps2 hostOps2_sub hostOps2_fresh (Mem4 m ρ)),
    .region (reg2 m ρ) ]
/-- @main is the run of the segments. -/
theorem main_run (c : Dev nD) : main (F := F) c = Pipeline.Seg.run (segsK m ρ) := (main_chain c).trans (by chain_rfl)

set_option backward.isDefEq.respectTransparency.types false in
/-- From any memory with zero counters every weakly fair execution of @main on the TensorCores terminates, nothing
    faulting, and in every final state each unscoped buffer of each core holds the last contents `Mem6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Mem6 m ρ c b) :=
  Pipeline.θ_run_regions_kit (pcfgs (F := F)) adm (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Mem0 m ρ c)
        from Pipeline.unscopedBufs_held c (Mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Mem6 m ρ c) s')
      isplitl [Hh] <;> iassumption)
    (hQ := fun s h => h)

/-- THE RUN WITH ITS RESULT: every weakly fair execution of @main terminates, nothing faulting; the result array
    ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v34) = (dat2 (Ent5 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v34 (by decide))).trans (Mem6_result m ρ c),
     (h c _ (mem_uc main_arg0 (by decide))).trans (Mem6_of m ρ c main_arg0 (by decide) (by decide) (by decide) (by decide) (by decide) (by decide) (by decide)),
     (h c _ (mem_uc main_arg1 (by decide))).trans (Mem6_of m ρ c main_arg1 (by decide) (by decide) (by decide) (by decide) (by decide) (by decide) (by decide)),
     (h c _ (mem_uc main_arg2 (by decide))).trans (Mem6_of m ρ c main_arg2 (by decide) (by decide) (by decide) (by decide) (by decide) (by decide) (by decide)),
     (h c _ (mem_uc main_arg3 (by decide))).trans (Mem6_of m ρ c main_arg3 (by decide) (by decide) (by decide) (by decide) (by decide) (by decide) (by decide)),
     (h c _ (mem_uc main_arg4 (by decide))).trans (Mem6_of m ρ c main_arg4 (by decide) (by decide) (by decide) (by decide) (by decide) (by decide) (by decide)),
     (h c _ (mem_uc main_arg5 (by decide))).trans (Mem6_of m ρ c main_arg5 (by decide) (by decide) (by decide) (by decide) (by decide) (by decide) (by decide)),
     (h c _ (mem_uc main_arg6 (by decide))).trans (Mem6_of m ρ c main_arg6 (by decide) (by decide) (by decide) (by decide) (by decide) (by decide) (by decide)),
     (h c _ (mem_uc main_arg7 (by decide))).trans (Mem6_of m ρ c main_arg7 (by decide) (by decide) (by decide) (by decide) (by decide) (by decide) (by decide)),
     (h c _ (mem_uc main_arg8 (by decide))).trans (Mem6_of m ρ c main_arg8 (by decide) (by decide) (by decide) (by decide) (by decide) (by decide) (by decide)),
     (h c _ (mem_uc main_arg9 (by decide))).trans (Mem6_of m ρ c main_arg9 (by decide) (by decide) (by decide) (by decide) (by decide) (by decide) (by decide)),
     (h c _ (mem_uc main_arg10 (by decide))).trans (Mem6_of m ρ c main_arg10 (by decide) (by decide) (by decide) (by decide) (by decide) (by decide) (by decide))⟩)
    (run_all m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Hand

end
-- ==== Proof.KI.Reg0.Base.lean ====
import proofs.«137429_j68822555951393_1_alg».proof.Proof.Gen.KernelIdeal.Launch
import proofs.«137429_j68822555951393_1_alg».proof.Proof.Gen.KernelIdeal.Skeleton
import proofs.«137429_j68822555951393_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 (the message kernel, 200 points of 4000 edges): what its two cases and the proof data share

Everything is stated at a PARAMETER `V`: the TensorCore's buffer contents when the region is entered. -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched
    window's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched
    window's block index has not moved), for any proof data over `V`'s arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched
    window's block index has not moved), for any proof data over `V`'s arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched
    window's block index has not moved), for any proof data over `V`'s arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched
    window's block index has not moved), for any proof data over `V`'s arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched
    window's block index has not moved), for any proof data over `V`'s arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an unfetched
    window's block index has not moved), for any proof data over `V`'s arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an unfetched
    window's block index has not moved), for any proof data over `V`'s arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an unfetched
    window's block index has not moved), for any proof data over `V`'s arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's one branch: is this the first point? -/

/-- The condition of the body's `scf.if`, from the grid coordinate (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 200 = 0 :=
  (by decide +kernel : ∀ t : Fin grid0.N, cond0_0 (grid0.coords t) ↔ t.val % 200 = 0)

/-! ## The two scratch cells and the rest of the scoped buffers -/

/-- The scratch operands: whole 1×1 scoped buffers of the kernel's own (the running maximum, the running sum). -/
abbrev scM0_0 : Memref sig .tc .vmem S1x1 .f32 := Memref.whole cc0_scratch0
abbrev scM0_1 : Memref sig .tc .vmem S1x1 .f32 := Memref.whole cc0_scratch1

/-- The scoped buffers region 0 never touches (the later regions' staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The class invariant with the two scratch cells split off as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## Whole-shape accesses at offset zero -/

theorem hz2 : (![0, 0] : Fin 2 → Nat) = fun _ => 0 := funext fun a => by fin_cases a <;> rfl

end Cert.KernelIdeal.Hand

end
-- ==== Proof.KI.Reg0.Run.lean ====
import proofs.«137429_j68822555951393_1_alg».proof.Proof.KI.Reg0.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel body's run, in its two cases -/

/-- A buffer whose LAST store was a whole-shape store at offset zero reads that store's payload, whatever came before. -/
theorem read_writes_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- The kernel body at the FIRST point (the branch taken), on whole staging memrefs — the inputs' at read contents `x·`, the two outputs' at
    anything, the two scratch cells' at anything (the body first stores `k0_pay8` and `k0_pay9` into them) — runs to the continuation holding the inputs' as they were, the messages' block at
    `k0_pay10` of blocks 0–6, the statistics pair at `k0_pay7`, and the two scratch cells at `k0_pay5` / `k0_pay6`, each over
    the score vector `k0_pay11` of blocks 0–7, the mask block 8 and the carried pair (`k0_pay8`, `k0_pay9`) it has just stored:
    every store is a whole-shape store at offset zero, so each buffer ends at its last store's payload. -/
theorem sound_kernel0_A (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x64 .f32) (harg3 : arg3.IsWhole) (arg4 : Memref sig .tc .vmem S320x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S1x2 .f32) (harg11 : arg11.IsWhole) (arg12 : Memref sig .tc .vmem S1x1 .f32) (harg12 : arg12.IsWhole) (arg13 : Memref sig .tc .vmem S1x1 .f32) (harg13 : arg13.IsWhole) (hc0 : cond0_0 i)
    (x0 : Vec F S4000x128 .f32) (x1 : Vec F S4000x128 .f32) (x2 : Vec F S4000x64 .f32) (x3 : Vec F S320x128 .f32) (x4 : Vec F S1x128 .f32) (x5 : Vec F S128x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay10 x0 x1 x2 x3 x4 x5 x6) ∗ owns (c : Thread nD τ) arg11 fullShare (k0_pay7 (k0_pay11 x0 x1 x2 x3 x4 x5 x6 x7) x8 k0_pay8 k0_pay9) ∗ owns (c : Thread nD τ) arg12 fullShare (k0_pay5 (k0_pay11 x0 x1 x2 x3 x4 x5 x6 x7) x8 k0_pay8) ∗ owns (c : Thread nD τ) arg13 fullShare (k0_pay6 (k0_pay11 x0 x1 x2 x3 x4 x5 x6 x7) x8 k0_pay8 k0_pay9)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13) K := by
  simp only [cc0__message_kernel_eq_skeleton]; unfold cc0__message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, Hk⟩
  subst hf0; subst hf1; subst hf2; subst hf3; subst hf4; subst hf5; subst hf6; subst hf7; subst hf8
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ hz2 _ _ _).trans ?_
    simp only [View.readAt_eq_ld, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [H10]
  · iexists _; isplitr
    swap; · iexact H10
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [HS0]
  · iexists _; isplitr
    swap; · iexact HS0
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  iexists _; isplitr
  swap; · iexact HS1
  ipureintro
  refine (read_writes_whole _ _ hz2 _ _ _).trans ?_
  sl_unfold_run_names
  simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]

set_option maxHeartbeats 1000000 in
/-- The kernel body at a LATER point (the branch not taken), on whole staging memrefs — the inputs' at read contents `x·`, the two outputs' at
    anything, the two scratch cells' at the pair `xs0`, `xs1` the point before left — runs to the continuation holding the inputs' as they were, the messages' block at
    `k0_pay10` of blocks 0–6, the statistics pair at `k0_pay7`, and the two scratch cells at `k0_pay5` / `k0_pay6`, each over
    the score vector `k0_pay11` of blocks 0–7, the mask block 8 and the carried pair (`xs0`, `xs1`):
    every store is a whole-shape store at offset zero, so each buffer ends at its last store's payload. -/
theorem sound_kernel0_B (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x64 .f32) (harg3 : arg3.IsWhole) (arg4 : Memref sig .tc .vmem S320x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S4000x128 .f32) (harg10 : arg10.IsWhole) (arg11 : Memref sig .tc .vmem S1x2 .f32) (harg11 : arg11.IsWhole) (arg12 : Memref sig .tc .vmem S1x1 .f32) (harg12 : arg12.IsWhole) (arg13 : Memref sig .tc .vmem S1x1 .f32) (harg13 : arg13.IsWhole) (hc0 : ¬cond0_0 i)
    (x0 : Vec F S4000x128 .f32) (x1 : Vec F S4000x128 .f32) (x2 : Vec F S4000x64 .f32) (x3 : Vec F S320x128 .f32) (x4 : Vec F S1x128 .f32) (x5 : Vec F S128x128 .f32) (x6 : Vec F S1x128 .f32) (x7 : Vec F S128x1 .f32) (x8 : Vec F S1x1 .f32) (xs0 : Vec F S1x1 .f32) (xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay10 x0 x1 x2 x3 x4 x5 x6) ∗ owns (c : Thread nD τ) arg11 fullShare (k0_pay7 (k0_pay11 x0 x1 x2 x3 x4 x5 x6 x7) x8 xs0 xs1) ∗ owns (c : Thread nD τ) arg12 fullShare (k0_pay5 (k0_pay11 x0 x1 x2 x3 x4 x5 x6 x7) x8 xs0) ∗ owns (c : Thread nD τ) arg13 fullShare (k0_pay6 (k0_pay11 x0 x1 x2 x3 x4 x5 x6 x7) x8 xs0 xs1)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13) K := by
  simp only [cc0__message_kernel_eq_skeleton]; unfold cc0__message_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  subst hf0; subst hf1; subst hf2; subst hf3; subst hf4; subst hf5; subst hf6; subst hf7; subst hf8; subst hfs0; subst hfs1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ hz2 _ _ _).trans ?_
    simp only [View.readAt_eq_ld, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [H10]
  · iexists _; isplitr
    swap; · iexact H10
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  isplitl [HS0]
  · iexists _; isplitr
    swap; · iexact HS0
    ipureintro
    refine (read_writes_whole _ _ hz2 _ _ _).trans ?_
    sl_unfold_run_names
    simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]
  iexists _; isplitr
  swap; · iexact HS1
  ipureintro
  refine (read_writes_whole _ _ hz2 _ _ _).trans ?_
  sl_unfold_run_names
  simp only [View.readAt_eq_ld, View.readCov_unit_zero (S := S1x1) _ hz2, View.ld_unit_zero (S := S4000x128) hz2, View.ld_unit_zero (S := S4000x64) hz2, View.ld_unit_zero (S := S320x128) hz2, View.ld_unit_zero (S := S1x128) hz2, View.ld_unit_zero (S := S128x128) hz2, View.ld_unit_zero (S := S128x1) hz2, View.ld_unit_zero (S := S1x1) hz2, View.ld_unit_zero (S := S1x2) hz2]

end Cert.KernelIdeal.Hand

end
-- ==== Proof.KI.Reg0.lean ====
import proofs.«137429_j68822555951393_1_alg».proof.Proof.KI.Reg0.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 of @main: the message kernel over its 200 points, at the entry contents `V`

The body keeps an online softmax's running maximum and running sum in two 1×1 scratch cells, which it CARRIES from
each point to the next: the first point starts them at (`k0_pay8`, `k0_pay9`) = (−∞, 0); every point replaces the pair
by (`k0_pay5`, `k0_pay6`) of its score vector, its mask block and the pair it found. The messages' block (window 9) is
stored whole and written back at every point; the statistics pair (window 10) is stored whole at every point and
written back after the last. -/

section Region0
variable (V : (c : Dev nD) → (b : Ref sig .tc) → Buf (Elt F) ((c : Thread nD τ).loc b))

/-! ## What the points compute -/

/-- The score vector of point `t` (4000 edges): `k0_pay11` of the blocks of windows 0–7 there. -/
def sc0 (c : Dev nD) (t : Fin cfg0.N) : FVec F S4000x1 .f32 :=
  k0_pay11 (iblk0 V c 0 t) (iblk0 V c 1 t) (iblk0 V c 2 t) (iblk0 V c 3 t) (iblk0 V c 4 t) (iblk0 V c 5 t) (iblk0 V c 6 t) (iblk0 V c 7 t)

/-- THE CARRIED PAIR (running maximum, running sum) as the scratch cells hold it BEFORE point `n`: what the first
    point stores before reading them, then point by point what the body leaves. -/
def carry0 (c : Dev nD) : (n : ℕ) → n ≤ cfg0.N → FVec F S1x1 .f32 × FVec F S1x1 .f32
  | 0, _ => (k0_pay8, k0_pay9)
  | n + 1, hn =>
    (k0_pay5 (sc0 V c ⟨n, Nat.lt_of_succ_le hn⟩) (iblk0 V c 8 ⟨n, Nat.lt_of_succ_le hn⟩) (carry0 c n (Nat.le_of_succ_le hn)).1,
     k0_pay6 (sc0 V c ⟨n, Nat.lt_of_succ_le hn⟩) (iblk0 V c 8 ⟨n, Nat.lt_of_succ_le hn⟩) (carry0 c n (Nat.le_of_succ_le hn)).1 (carry0 c n (Nat.le_of_succ_le hn)).2)

theorem carry0_zero (c : Dev nD) (h : 0 ≤ cfg0.N) : carry0 V c 0 h = (k0_pay8, k0_pay9) := rfl

theorem carry0_succ (c : Dev nD) (n : ℕ) (hn : n + 1 ≤ cfg0.N) :
    carry0 V c (n + 1) hn
      = (k0_pay5 (sc0 V c ⟨n, Nat.lt_of_succ_le hn⟩) (iblk0 V c 8 ⟨n, Nat.lt_of_succ_le hn⟩) (carry0 V c n (Nat.le_of_succ_le hn)).1,
         k0_pay6 (sc0 V c ⟨n, Nat.lt_of_succ_le hn⟩) (iblk0 V c 8 ⟨n, Nat.lt_of_succ_le hn⟩) (carry0 V c n (Nat.le_of_succ_le hn)).1 (carry0 V c n (Nat.le_of_succ_le hn)).2) := rfl

/-- The pair after point `t`, from the pair before it. -/
theorem carry0_next (c : Dev nD) (t : Fin cfg0.N) :
    carry0 V c (t.val + 1) t.isLt
      = (k0_pay5 (sc0 V c t) (iblk0 V c 8 t) (carry0 V c t.val (Nat.le_of_lt t.isLt)).1,
         k0_pay6 (sc0 V c t) (iblk0 V c 8 t) (carry0 V c t.val (Nat.le_of_lt t.isLt)).1 (carry0 V c t.val (Nat.le_of_lt t.isLt)).2) := rfl

/-- Before the first point: the pair the first point itself stores. -/
theorem carry0_of_eq_zero (c : Dev nD) (n : ℕ) (h : n ≤ cfg0.N) (hz : n = 0) : carry0 V c n h = (k0_pay8, k0_pay9) := by
  subst hz; rfl

/-! ## The region invariant -/

/-- Before the first point the class invariant (every scoped buffer at anything); before point `n + 1` the two scratch
    cells at the carried pair, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (carry0 V c (n + 1) hn).1 ∗ owns (c : Thread nD τ) scM0_1 fullShare (carry0 V c (n + 1) hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n + 1 ≤ cfg0.N) :
    PhiS0 V c (n + 1) hn = iprop(iprop(owns (c : Thread nD τ) scM0_0 fullShare (carry0 V c (n + 1) hn).1 ∗ owns (c : Thread nD τ) scM0_1 fullShare (carry0 V c (n + 1) hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (carry0 V c n h).1 ∗ owns (c : Thread nD τ) scM0_1 fullShare (carry0 V c n h).2 ∗ rest0 (F := F) c) ∗ (∃ r, prngReg c r)) := by
  cases n with
  | zero => exact absurd rfl hz
  | succ n => rfl

/-! ## The pipeline's proof data -/

/-- The proof data of region 0 on core `c`: the arrays as the region finds them; after the body at point `t` each
    input's buffer at its block, the messages' at `k0_pay10` of blocks 0–6, the statistics' at `k0_pay7` of the score
    vector, the mask block and the pair carried INTO the point; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => k0_pay10 (iblk0 V c 0 t) (iblk0 V c 1 t) (iblk0 V c 2 t) (iblk0 V c 3 t) (iblk0 V c 4 t) (iblk0 V c 5 t) (iblk0 V c 6 t)
    | ⟨10, _⟩ => k0_pay7 (sc0 V c t) (iblk0 V c 8 t) (carry0 V c t.val (Nat.le_of_lt t.isLt)).1 (carry0 V c t.val (Nat.le_of_lt t.isLt)).2
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = k0_pay10 (iblk0 V c 0 t) (iblk0 V c 1 t) (iblk0 V c 2 t) (iblk0 V c 3 t) (iblk0 V c 4 t) (iblk0 V c 5 t) (iblk0 V c 6 t) := by dsimp only [dat0]
theorem after0_10 (c : Dev nD) (t : Fin cfg0.N) :
    (dat0 V c).after 10 t = k0_pay7 (sc0 V c t) (iblk0 V c 8 t) (carry0 V c t.val (Nat.le_of_lt t.isLt)).1 (carry0 V c t.val (Nat.le_of_lt t.isLt)).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks; the closed form of the branch condition says whether
    the point is the first; the invariant hands the body the two scratch cells — at anything at the first point, at the
    carried pair afterwards — and takes them back at the pair carried on; the other scoped buffers, the generator
    register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ, carry0_next]
  rw [after0_0, after0_1, after0_2, after0_3, after0_4, after0_5, after0_6, after0_7, after0_8, after0_9, after0_10]
  rw [PhiS0_castSucc V c t]
  unfold sc0
  have hN : t.val < 200 := lt_of_lt_of_eq t.isLt (show cfg0.N = 200 from N_0)
  by_cases h0 : t.val % 200 = 0
  · have hz : t.val = 0 := by omega
    rw [PhiS0_zero V c _ _ hz, PhiA0_eq, carry0_of_eq_zero V c t.val _ hz]
    dsimp only
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hz : t.val ≠ 0 := fun h => h0 (by rw [h])
    rw [PhiS0_pos V c _ _ hz]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_B c Set.univ (grid0.coords t) _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (carry0 V c t.val (Nat.le_of_lt t.isLt)).1 (carry0 V c t.val (Nat.le_of_lt t.isLt)).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the carried pair's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Region0

end Cert.KernelIdeal.Hand

end
-- ==== Proof.KI.Reg1.lean ====
/- Region 1 of @main, the weighting kernel on its 100 grid points of 8000 edges, stated at a parameter `V`: the contents
   of the TensorCore's buffers when the region is entered. Per window its block at a point; the body's triple (four
   loads of whole staging buffers, one store of the weighted messages through the whole output buffer); the proof data
   of the pipeline; and the body obligation at every point. Generic in the float model. -/
import proofs.«137429_j68822555951393_1_alg».proof.Proof.Gen.KernelIdeal.Launch
import proofs.«137429_j68822555951393_1_alg».proof.Proof.Gen.KernelIdeal.Skeleton
import proofs.«137429_j68822555951393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! # REGION 1: the weighting kernel, at the entry contents `V`

## The windows' blocks -/

/-- Window `w`'s block at grid point `t`: what the window's block rectangle reads of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole of a staging buffer -/

abbrev r1_0 : Rect S8000x128 := Rect.unit (s := S8000x128) ![0, 0] S8000x128.size inb_S8000x128_S8000x128_0_0
abbrev r1_1 : Rect S1x2 := Rect.unit (s := S1x2) ![0, 0] S1x2.size inb_S1x2_S1x2_0_0
abbrev r1_2 : Rect S128x1 := Rect.unit (s := S128x1) ![0, 0] S128x1.size inb_S128x1_S128x1_0_0
abbrev r1_3 : Rect S1x1 := Rect.unit (s := S1x1) ![0, 0] S1x1.size inb_S1x1_S1x1_0_0

/-! ## What the body leaves in the output window's buffer -/

/-- The output window's staging buffer after the body, as a function of the four input blocks: the body's single store,
    through the whole buffer, of the stored value computed from what the four loads read. -/
def out1_4 (x0 : Vec F S8000x128 .f32) (x1 : Vec F S1x2 .f32) (x2 : Vec F S128x1 .f32) (x3 : Vec F S1x1 .f32) : Vec F S8000x128 .f32 :=
  View.canon [⟨r1_0, k1_pay1 (View.ld x0 r1_0) (View.ld x2 r1_2) (View.ld x3 r1_3) (View.ld x1 r1_1)⟩]

/-- That one store covers the buffer. -/
theorem cover1_4 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

/-! ## The body's triple -/

set_option maxHeartbeats 1000000 in
/-- The kernel body on whole staging buffers, the four inputs' holding `x0 … x3` and the output's holding anything: it runs
    to its end, leaves the inputs' buffers as they were and the output's at `out1_4 x0 x1 x2 x3`. (The body also loads the
    output's buffer before storing into it; the loaded value is not used.) -/
theorem sound_kernel1 (c : Dev nD) (E : Set ℕ) (i : grid1.Coords) (arg1 : Memref sig .tc .vmem S8000x128 .f32) (harg1 : arg1.IsWhole) (arg2 : Memref sig .tc .vmem S1x2 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S8000x128 .f32) (harg5 : arg5.IsWhole)
    (x0 : Vec F S8000x128 .f32) (x1 : Vec F S1x2 .f32) (x2 : Vec F S128x1 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__weight_kernel i arg1 harg1 arg2 harg2 arg3 harg3 arg4 harg4 arg5 harg5) K := by
  simp only [cc1__weight_kernel_eq_skeleton]; unfold cc1__weight_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t` each
    input's buffer still at its block and the output's at `out1_4` of the four input blocks; the invariant is the one that
    only carries the scoped buffers and the generator register along, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The invariant at the first and after the last point is the class invariant itself. -/
theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of @main, the residual-and-normalisation kernel on its 10 grid points of 5000 nodes, stated at a parameter
   `V`: the contents of the TensorCore's buffers when the region is entered. Per window its block at a point; the body's
   triple (four loads of whole staging buffers, one store of the normalised rows through the whole output buffer); the
   proof data of the pipeline; and the body obligation at every point. Generic in the float model. -/
import proofs.«137429_j68822555951393_1_alg».proof.Proof.Gen.KernelIdeal.Launch
import proofs.«137429_j68822555951393_1_alg».proof.Proof.Gen.KernelIdeal.Skeleton
import proofs.«137429_j68822555951393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered: everything below is stated at this parameter
variable (V : (c : Dev nD) → (b : Ref sig .tc) → Buf (Elt F) ((c : Thread nD τ).loc b))

/-! # REGION 2: the residual-and-normalisation kernel, at the entry contents `V`

## The windows' blocks -/

/-- Window `w`'s block at grid point `t`: what the window's block rectangle reads of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its current staging buffer holds the window's block, whether the pipeline
    copied it in at that point or not. Where it did not, the block index has not moved since the last copy, the body leaves
    the buffer as it found it, and so the buffer still holds the same block. For any proof data with array `V`'s (`hA`)
    whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole of a staging buffer -/

abbrev r2_0 : Rect S5000x128 := Rect.unit (s := S5000x128) ![0, 0] S5000x128.size inb_S5000x128_S5000x128_0_0
abbrev r2_1 : Rect S5000x128 := Rect.unit (s := S5000x128) ![0, 0] S5000x128.size inb_S5000x128_S5000x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0

/-! ## What the body leaves in the output window's buffer -/

/-- The output window's staging buffer after the body, as a function of the four input blocks: the body's single store,
    through the whole buffer, of the stored value computed from what the four loads read. -/
def out2_4 (x0 : Vec F S5000x128 .f32) (x1 : Vec F S5000x128 .f32) (x2 : Vec F S1x128 .f32) (x3 : Vec F S1x128 .f32) : Vec F S5000x128 .f32 :=
  View.canon [⟨r2_0, k2_pay1 (View.ld x0 r2_0) (View.ld x1 r2_1) (View.ld x2 r2_2) (View.ld x3 r2_3)⟩]

/-- That one store covers the buffer. -/
theorem cover2_4 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging buffers, the four inputs' holding `x0 … x3` and the output's holding anything: it runs
    to its end, leaves the inputs' buffers as they were and the output's at `out2_4 x0 x1 x2 x3`. (The body also loads the
    output's buffer before storing into it; the loaded value is not used.) -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__finalize_kernel i arg1 harg1 arg2 harg2 arg3 harg3 arg4 harg4 arg5 harg5) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of this pipeline on core `c`: the arrays as the region finds them; after the body at point `t` each
    input's buffer still at its block and the output's at `out2_4` of the four input blocks; the invariant is the one that
    only carries the scoped buffers and the generator register along, untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at the first and after the last point is the class invariant itself. -/
theorem hin2 (c : Dev nD) : (Pipeline.ΦA spec2 c : sProp 𝕄) ⊢ (dat2 V c).Φ 0 := .rfl
theorem hout2 (c : Dev nD) : (dat2 V c).Φ (Fin.last cfg2.N) ⊢ (Pipeline.ΦA spec2 c : sProp 𝕄) := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of @main: three kernel regions — the message network with its running softmax statistics, the weighting
  pass, the residual with its layer normalisation — among three stretches of host operations (the two gathers and
  the reshapes of the biases; one reshape; the scatter-add and the reshapes of the scale and shift).

  The buffers' contents are followed from the launch memory through every stretch (the host operations applied in
  order) and every region (its windows' arrays at what the write-backs leave, everything else untouched). Each
  region is entered with every unscoped buffer of the core at the contents reached so far, and left with them at
  the next contents; so the run ends with every unscoped buffer at the last contents, `Mem6`. Two readings of that
  are stated: no stretch and no region changes an argument array, and the result array holds what the last
  region's write-backs leave of the contents it was entered with.
-/
import proofs.«137429_j68822555951393_1_alg».proof.Proof.KI.Reg0
import proofs.«137429_j68822555951393_1_alg».proof.Proof.KI.Reg1
import proofs.«137429_j68822555951393_1_alg».proof.Proof.KI.Reg2
import proofs.«137429_j68822555951393_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Mem0 : Dev nD → Valuation τ sig (Elt F) := fun c b => (s₀ m ρ).mem ((c : Dev nD), b)
/-- After the first stretch (the gathers): what region 0 is entered with. -/
abbrev Mem1 : Dev nD → Valuation τ sig (Elt F) := fun c => StableHlo.after hostOps0 (Mem0 m ρ c)
abbrev Ent1 : (c : Dev nD) → (b : Ref sig .tc) → Buf (Elt F) ((c : Thread nD τ).loc b) := fun c b => Mem1 m ρ c b

/-- After region 0: its windows' arrays at what the write-backs leave (an input's array as entered, an output's with
    every written-back block folded in), every other buffer as entered. -/
def Mem2 (c : Dev nD) : Valuation τ sig (Elt F) :=
  Pipeline.withArrays spec0 c (Mem1 m ρ c) fun w => (dat0 (Ent1 m ρ) c).arrAt w cfg0.N
theorem Mem2_arr (c : Dev nD) (w : Fin cfg0.W) :
    Mem2 m ρ c (Proc.devRef .tc (Pipeline.arrRef spec0 w)) = (dat0 (Ent1 m ρ) c).arrAt w cfg0.N := by
  unfold Mem2; exact Pipeline.withArrays_arr spec0 launch0.win.arr_inj c _ _ w
theorem Mem2_of_ne (c : Dev nD) (b : Ref sig .tc) (hb : ∀ w, Pipeline.arrRef spec0 w ≠ b) :
    Mem2 m ρ c (Proc.devRef .tc b) = Mem1 m ρ c (Proc.devRef .tc b) := by
  unfold Mem2; exact Pipeline.withArrays_of_ne spec0 c _ _ b hb
/-- The same read at the TensorCore's references. -/
abbrev Ext2 : (c : Dev nD) → (b : Ref sig .tc) → Buf (Elt F) ((c : Thread nD τ).loc b) := fun c b => Mem2 m ρ c b
theorem hF0 (c : Dev nD) (w : Fin cfg0.W) : (dat0 (Ent1 m ρ) c).arrAt w cfg0.N = Ext2 m ρ c (Pipeline.arrRef spec0 w) :=
  (Mem2_arr m ρ c w).symm
theorem hrest0 (c : Dev nD) : ∀ b, b ∉ Finset.univ.image (Pipeline.arrRef spec0) → Ext2 m ρ c b = Ent1 m ρ c b :=
  fun b hb => Mem2_of_ne m ρ c b fun w e => hb (Finset.mem_image.mpr ⟨w, Finset.mem_univ _, e⟩)
/-- The output windows of region 0 are the only ones whose arrays it may change. -/
theorem outWindows0 : ∀ w : Fin cfg0.W, ¬ (cfg0.win w).isOut = false → Pipeline.arrRef spec0 w = main_v21_0 ∨ Pipeline.arrRef spec0 w = main_v21_1 := by decide
/-- A buffer that is no output array of region 0 holds after it what it held before: it is no window's array at
    all, or an input window's, which no write-back touches. -/
theorem Mem2_keep (c : Dev nD) (b : Ref sig .tc) (h0 : b ≠ main_v21_0) (h1 : b ≠ main_v21_1) :
    Mem2 m ρ c (Proc.devRef .tc b) = Mem1 m ρ c (Proc.devRef .tc b) := by
  by_cases h : ∃ w, Pipeline.arrRef spec0 w = b
  · obtain ⟨w, rfl⟩ := h
    have hin : (cfg0.win w).isOut = false := by
      by_contra hc
      rcases outWindows0 w hc with e | e
      · exact h0 e
      · exact h1 e
    exact (Mem2_arr m ρ c w).trans (((dat0 (Ent1 m ρ) c).arrAt_in w hin _).trans (A_eq0 (Ent1 m ρ) c w))
  · exact Mem2_of_ne m ρ c b fun w e => h ⟨w, e⟩

/-- After the second stretch: what region 1 is entered with. -/
abbrev Mem3 : Dev nD → Valuation τ sig (Elt F) := fun c => StableHlo.after hostOps1 (Mem2 m ρ c)
abbrev Ent3 : (c : Dev nD) → (b : Ref sig .tc) → Buf (Elt F) ((c : Thread nD τ).loc b) := fun c b => Mem3 m ρ c b

/-- After region 1: its windows' arrays at what the write-backs leave (an input's array as entered, an output's with
    every written-back block folded in), every other buffer as entered. -/
def Mem4 (c : Dev nD) : Valuation τ sig (Elt F) :=
  Pipeline.withArrays spec1 c (Mem3 m ρ c) fun w => (dat1 (Ent3 m ρ) c).arrAt w cfg1.N
theorem Mem4_arr (c : Dev nD) (w : Fin cfg1.W) :
    Mem4 m ρ c (Proc.devRef .tc (Pipeline.arrRef spec1 w)) = (dat1 (Ent3 m ρ) c).arrAt w cfg1.N := by
  unfold Mem4; exact Pipeline.withArrays_arr spec1 launch1.win.arr_inj c _ _ w
theorem Mem4_of_ne (c : Dev nD) (b : Ref sig .tc) (hb : ∀ w, Pipeline.arrRef spec1 w ≠ b) :
    Mem4 m ρ c (Proc.devRef .tc b) = Mem3 m ρ c (Proc.devRef .tc b) := by
  unfold Mem4; exact Pipeline.withArrays_of_ne spec1 c _ _ b hb
/-- The same read at the TensorCore's references. -/
abbrev Ext4 : (c : Dev nD) → (b : Ref sig .tc) → Buf (Elt F) ((c : Thread nD τ).loc b) := fun c b => Mem4 m ρ c b
theorem hF1 (c : Dev nD) (w : Fin cfg1.W) : (dat1 (Ent3 m ρ) c).arrAt w cfg1.N = Ext4 m ρ c (Pipeline.arrRef spec1 w) :=
  (Mem4_arr m ρ c w).symm
theorem hrest1 (c : Dev nD) : ∀ b, b ∉ Finset.univ.image (Pipeline.arrRef spec1) → Ext4 m ρ c b = Ent3 m ρ c b :=
  fun b hb => Mem4_of_ne m ρ c b fun w e => hb (Finset.mem_image.mpr ⟨w, Finset.mem_univ _, e⟩)
/-- The output windows of region 1 are the only ones whose arrays it may change. -/
theorem outWindows1 : ∀ w : Fin cfg1.W, ¬ (cfg1.win w).isOut = false → Pipeline.arrRef spec1 w = main_v23 := by decide
/-- A buffer that is no output array of region 1 holds after it what it held before: it is no window's array at
    all, or an input window's, which no write-back touches. -/
theorem Mem4_keep (c : Dev nD) (b : Ref sig .tc) (h0 : b ≠ main_v23) :
    Mem4 m ρ c (Proc.devRef .tc b) = Mem3 m ρ c (Proc.devRef .tc b) := by
  by_cases h : ∃ w, Pipeline.arrRef spec1 w = b
  · obtain ⟨w, rfl⟩ := h
    have hin : (cfg1.win w).isOut = false := by
      by_contra hc
      exact h0 (outWindows1 w hc)
    exact (Mem4_arr m ρ c w).trans (((dat1 (Ent3 m ρ) c).arrAt_in w hin _).trans (A_eq1 (Ent3 m ρ) c w))
  · exact Mem4_of_ne m ρ c b fun w e => h ⟨w, e⟩

/-- After the third stretch (the scatter-add): what region 2 is entered with. -/
abbrev Mem5 : Dev nD → Valuation τ sig (Elt F) := fun c => StableHlo.after hostOps2 (Mem4 m ρ c)
abbrev Ent5 : (c : Dev nD) → (b : Ref sig .tc) → Buf (Elt F) ((c : Thread nD τ).loc b) := fun c b => Mem5 m ρ c b

/-- After region 2: its windows' arrays at what the write-backs leave (an input's array as entered, an output's with
    every written-back block folded in), every other buffer as entered. -/
def Mem6 (c : Dev nD) : Valuation τ sig (Elt F) :=
  Pipeline.withArrays spec2 c (Mem5 m ρ c) fun w => (dat2 (Ent5 m ρ) c).arrAt w cfg2.N
theorem Mem6_arr (c : Dev nD) (w : Fin cfg2.W) :
    Mem6 m ρ c (Proc.devRef .tc (Pipeline.arrRef spec2 w)) = (dat2 (Ent5 m ρ) c).arrAt w cfg2.N := by
  unfold Mem6; exact Pipeline.withArrays_arr spec2 launch2.win.arr_inj c _ _ w
theorem Mem6_of_ne (c : Dev nD) (b : Ref sig .tc) (hb : ∀ w, Pipeline.arrRef spec2 w ≠ b) :
    Mem6 m ρ c (Proc.devRef .tc b) = Mem5 m ρ c (Proc.devRef .tc b) := by
  unfold Mem6; exact Pipeline.withArrays_of_ne spec2 c _ _ b hb
/-- The same read at the TensorCore's references. -/
abbrev Ext6 : (c : Dev nD) → (b : Ref sig .tc) → Buf (Elt F) ((c : Thread nD τ).loc b) := fun c b => Mem6 m ρ c b
theorem hF2 (c : Dev nD) (w : Fin cfg2.W) : (dat2 (Ent5 m ρ) c).arrAt w cfg2.N = Ext6 m ρ c (Pipeline.arrRef spec2 w) :=
  (Mem6_arr m ρ c w).symm
theorem hrest2 (c : Dev nD) : ∀ b, b ∉ Finset.univ.image (Pipeline.arrRef spec2) → Ext6 m ρ c b = Ent5 m ρ c b :=
  fun b hb => Mem6_of_ne m ρ c b fun w e => hb (Finset.mem_image.mpr ⟨w, Finset.mem_univ _, e⟩)
/-- The output windows of region 2 are the only ones whose arrays it may change. -/
theorem outWindows2 : ∀ w : Fin cfg2.W, ¬ (cfg2.win w).isOut = false → Pipeline.arrRef spec2 w = main_v34 := by decide
/-- A buffer that is no output array of region 2 holds after it what it held before: it is no window's array at
    all, or an input window's, which no write-back touches. -/
theorem Mem6_keep (c : Dev nD) (b : Ref sig .tc) (h0 : b ≠ main_v34) :
    Mem6 m ρ c (Proc.devRef .tc b) = Mem5 m ρ c (Proc.devRef .tc b) := by
  by_cases h : ∃ w, Pipeline.arrRef spec2 w = b
  · obtain ⟨w, rfl⟩ := h
    have hin : (cfg2.win w).isOut = false := by
      by_contra hc
      exact h0 (outWindows2 w hc)
    exact (Mem6_arr m ρ c w).trans (((dat2 (Ent5 m ρ) c).arrAt_in w hin _).trans (A_eq2 (Ent5 m ρ) c w))
  · exact Mem6_of_ne m ρ c b fun w e => h ⟨w, e⟩

/-! ## What reaches the end unchanged -/

/-- A buffer no host operation writes and no region has for an output array holds at the end what it held at launch. -/
theorem Mem6_of (c : Dev nD) (b : Ref sig .tc) (g0 : b ∉ hostOps0_W) (g1 : b ∉ hostOps1_W) (g2 : b ∉ hostOps2_W)
    (ha : b ≠ main_v21_0) (hb : b ≠ main_v21_1) (hc : b ≠ main_v23) (hd : b ≠ main_v34) :
    Mem6 m ρ c (Proc.devRef .tc b) = m ((c : Thread nD τ).loc b) :=
  calc Mem6 m ρ c (Proc.devRef .tc b)
    _ = Mem5 m ρ c (Proc.devRef .tc b) := Mem6_keep m ρ c b hd
    _ = Mem4 m ρ c (Proc.devRef .tc b) := StableHlo.after_of_writes_sub hostOps2 _ hostOps2_writes g2
    _ = Mem3 m ρ c (Proc.devRef .tc b) := Mem4_keep m ρ c b hc
    _ = Mem2 m ρ c (Proc.devRef .tc b) := StableHlo.after_of_writes_sub hostOps1 _ hostOps1_writes g1
    _ = Mem1 m ρ c (Proc.devRef .tc b) := Mem2_keep m ρ c b ha hb
    _ = Mem0 m ρ c (Proc.devRef .tc b) := StableHlo.after_of_writes_sub hostOps0 _ hostOps0_writes g0
    _ = m ((c : Thread nD τ).loc b) := rfl

/-- The result array at the end is what the last region's write-backs leave. -/
theorem Mem6_result (c : Dev nD) : Mem6 m ρ c (Proc.devRef .tc main_v34) = (dat2 (Ent5 m ρ) c).arrAt 4 cfg2.N :=
  Mem6_arr m ρ c 4

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (Ent1 m ρ) c
  | ⟨1, _⟩ => fun c => dat1 (Ent3 m ρ) c
  | ⟨2, _⟩ => fun c => dat2 (Ent5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (Mem6 m ρ c) ∗ ∃ r, prngReg c r)

/-! ## The regions as segments -/

/-- Entering a region's invariant: the generator register and the scoped buffers no window stages, the tables
    (there are none) dropped, in the order the invariant lists them. -/
theorem regroup_in (A B C : sProp 𝕄) : iprop(A ∗ B ∗ C) ⊢ iprop(C ∗ A) := by
  iintro ⟨Hp, -, Hr⟩
  isplitl [Hr]; · iexact Hr
  iexact Hp
/-- Leaving it: the same two back, beside no semaphore of the kernel's own. -/
theorem regroup_out (A C : sProp 𝕄) : iprop(C ∗ A) ⊢ iprop(A ∗ BI.emp ∗ C) := by
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- Region 0 over the thread state: entered from every unscoped buffer at `Mem1`, left at `Mem2`. Its windows'
    arrays are split out of the unscoped buffers and put back at what the write-backs leave; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent1 m ρ) c).loose
  hwaits := Pipeline.hwaits_of_owed_zero _ _ _ _ L lv 0 fun _ _ => rfl
  pre c := iprop(StableHlo.held (c : Thread nD τ) (Pipeline.ucRefs τ sig) (Mem1 m ρ c) ∗ R c)
  post c := iprop(StableHlo.held (c : Thread nD τ) (Pipeline.ucRefs τ sig) (Mem2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin0 (Ent1 m ρ) c)
  hout c := by
    rw [Pipeline.ownSems0_none]
    exact (hout0 (Ent1 m ρ) c).trans (regroup_out _ _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent1 m ρ c) (Ext2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `Mem3`, left at `Mem4`. Its windows'
    arrays are split out of the unscoped buffers and put back at what the write-backs leave; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent3 m ρ) c).loose
  hwaits := Pipeline.hwaits_of_owed_zero _ _ _ _ L lv 1 fun _ _ => rfl
  pre c := iprop(StableHlo.held (c : Thread nD τ) (Pipeline.ucRefs τ sig) (Mem3 m ρ c) ∗ R c)
  post c := iprop(StableHlo.held (c : Thread nD τ) (Pipeline.ucRefs τ sig) (Mem4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin1 (Ent3 m ρ) c)
  hout c := by
    rw [Pipeline.ownSems0_none]
    exact (hout1 (Ent3 m ρ) c).trans (regroup_out _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent3 m ρ c) (Ext4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `Mem5`, left at `Mem6`. Its windows'
    arrays are split out of the unscoped buffers and put back at what the write-backs leave; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent5 m ρ) c).loose
  hwaits := Pipeline.hwaits_of_owed_zero _ _ _ _ L lv 2 fun _ _ => rfl
  pre c := iprop(StableHlo.held (c : Thread nD τ) (Pipeline.ucRefs τ sig) (Mem5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ent5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (regroup_in _ _ _).trans (hin2 (Ent5 m ρ) c)
  hout c := by
    rw [Pipeline.ownSems0_none]
    exact (hout2 (Ent5 m ρ) c).trans (regroup_out _ _)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent5 m ρ c) (Ext6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) adm (pdats m ρ) () defs₀ 𝒱₀ L lv) :=
  [ .host (hseg hostOps0 hostOps0_sub hostOps0_fresh (Mem0 m ρ)),
    .region (reg0 m ρ),
    .host (hseg hostOps1 hostOps1_sub hostOps1_fresh (Mem2 m ρ)),
    .region (reg1 m ρ),
    .host (hseg hostOps2 hostOps2_sub hostOps2_fresh (Mem4 m ρ)),
    .region (reg2 m ρ) ]
/-- @main is the run of the segments. -/
theorem main_run (c : Dev nD) : main (F := F) c = Pipeline.Seg.run (segsK m ρ) := (main_chain c).trans (by chain_rfl)

set_option backward.isDefEq.respectTransparency.types false in
/-- From any memory with zero counters every weakly fair execution of @main on the TensorCores terminates, nothing
    faulting, and in every final state each unscoped buffer of each core holds the last contents `Mem6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Mem6 m ρ c b) :=
  Pipeline.θ_run_regions_kit (pcfgs (F := F)) adm (pdats m ρ) () cellOf_inj emb₁ defs₀ 𝒱₀ L lv m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Mem0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Mem0 m ρ c)
        from Pipeline.unscopedBufs_held c (Mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Mem6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Mem6 m ρ c) s')
      isplitl [Hh] <;> iassumption)
    (hQ := fun s h => h)

/-- THE RUN WITH ITS RESULT: every weakly fair execution of @main terminates, nothing faulting; the result array
    ends at what the last region's write-backs leave, and every argument array as launched. -/
theorem run_result : θ_run defs (onTc (τ := τ) (main (F := F))) ⟨m, fun _ => 0, ρ⟩ (fun r => ∀ c : Dev nD,
      r.2.mem ((c.tc : Thread nD τ).loc main_v34) = (dat2 (Ent5 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v34 (by decide))).trans (Mem6_result m ρ c),
     (h c _ (mem_uc main_arg0 (by decide))).trans (Mem6_of m ρ c main_arg0 (by decide) (by decide) (by decide) (by decide) (by decide) (by decide) (by decide)),
     (h c _ (mem_uc main_arg1 (by decide))).trans (Mem6_of m ρ c main_arg1 (by decide) (by decide) (by decide) (by decide) (by decide) (by decide) (by decide)),
     (h c _ (mem_uc main_arg2 (by decide))).trans (Mem6_of m ρ c main_arg2 (by decide) (by decide) (by decide) (by decide) (by decide) (by decide) (by decide)),
     (h c _ (mem_uc main_arg3 (by decide))).trans (Mem6_of m ρ c main_arg3 (by decide) (by decide) (by decide) (by decide) (by decide) (by decide) (by decide)),
     (h c _ (mem_uc main_arg4 (by decide))).trans (Mem6_of m ρ c main_arg4 (by decide) (by decide) (by decide) (by decide) (by decide) (by decide) (by decide)),
     (h c _ (mem_uc main_arg5 (by decide))).trans (Mem6_of m ρ c main_arg5 (by decide) (by decide) (by decide) (by decide) (by decide) (by decide) (by decide)),
     (h c _ (mem_uc main_arg6 (by decide))).trans (Mem6_of m ρ c main_arg6 (by decide) (by decide) (by decide) (by decide) (by decide) (by decide) (by decide)),
     (h c _ (mem_uc main_arg7 (by decide))).trans (Mem6_of m ρ c main_arg7 (by decide) (by decide) (by decide) (by decide) (by decide) (by decide) (by decide)),
     (h c _ (mem_uc main_arg8 (by decide))).trans (Mem6_of m ρ c main_arg8 (by decide) (by decide) (by decide) (by decide) (by decide) (by decide) (by decide)),
     (h c _ (mem_uc main_arg9 (by decide))).trans (Mem6_of m ρ c main_arg9 (by decide) (by decide) (by decide) (by decide) (by decide) (by decide) (by decide)),
     (h c _ (mem_uc main_arg10 (by decide))).trans (Mem6_of m ρ c main_arg10 (by decide) (by decide) (by decide) (by decide) (by decide) (by decide) (by decide))⟩)
    (run_all m ρ)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Hand

end
-- ==== Proof.Ref.Ops.lean ====
/-
  The reference's @main as the list of its 119 host operations — its 89 own lines and, at the three calls, the
  operations of @relu, @leaky_relu (with its @_where) and @_var (with its @_where_0) over the buffers each call
  names — cut into twelve consecutive stretches at the stages of the computation, so that what each stretch
  leaves in its result buffers can be read off separately (Run.lean). The program is those stretches in order.
-/
import proofs.«137429_j68822555951393_1_alg».proof.ReferenceIdeal
import proofs.«137429_j68822555951393_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each as a vector: %0 … %3. -/
abbrev w0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The first row's indices brought into range (a negative index wraps once), as a column, and the node rows gathered at them: %c … %10. -/
abbrev w1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The same for the second row: %c_1 … %17. -/
abbrev w2 : List (HloOp τ sig (Elt F)) :=
  [ StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The message input (the gathered second-row features, the difference of the two gathers, the edge features, side by side) through the first layer and its relu: %18 … %24. -/
abbrev w3 : List (HloOp τ sig (Elt F)) :=
  [ StableHlo.binary main_v10 main_v17 main_v18 (subf : (⟨S800000x128, .f32⟩ : BufTy).Contents (Elt F) → (⟨S800000x128, .f32⟩ : BufTy).Contents (Elt F) → (⟨S800000x128, .f32⟩ : BufTy).Contents (Elt F)),
    StableHlo.nary ![main_v17, main_v18, main_arg2] main_v19 (fun u => concatenate S800000x320 1 [⟨S800000x128, u 0⟩, ⟨S800000x128, u 1⟩, ⟨S800000x64, u 2⟩] concatenates_S800000x128_S800000x128_S800000x64_S800000x320_d1),
    StableHlo.binary main_v19 main_arg3 main_v20 ((fun l r => Host.dotGeneral dot_S800000x320_S320x128_S800000x128_1_0_0_1_n_n none l r) : (⟨S800000x320, .f32⟩ : BufTy).Contents (Elt F) → (⟨S320x128, .f32⟩ : BufTy).Contents (Elt F) → (⟨S800000x128, .f32⟩ : BufTy).Contents (Elt F)),
    StableHlo.unary main_arg4 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S800000x128 ![0, 1] bcast_S1x128_S800000x128_0_1 : (⟨S1x128, .f32⟩ : BufTy).Contents (Elt F) → (⟨S800000x128, .f32⟩ : BufTy).Contents (Elt F)),
    StableHlo.binary main_v20 main_v22 main_v23 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v23 : StableHlo.TRef sig ⟨S800000x128, .f32⟩) main_call0.v0 main_call0.v1 maximumf ]

/-- The second layer: the messages, %25 … %28. -/
abbrev w4 : List (HloOp τ sig (Elt F)) :=
  [ StableHlo.binary main_v24 main_arg5 main_v25 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg6 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S800000x128 ![0, 1] bcast_S1x128_S800000x128_0_1 : (⟨S1x128, .f32⟩ : BufTy).Contents (Elt F) → (⟨S800000x128, .f32⟩ : BufTy).Contents (Elt F)),
    StableHlo.binary main_v25 main_v27 main_v28 (addf : (⟨S800000x128, .f32⟩ : BufTy).Contents (Elt F) → (⟨S800000x128, .f32⟩ : BufTy).Contents (Elt F) → (⟨S800000x128, .f32⟩ : BufTy).Contents (Elt F)) ]

/-- The attention score: the messages against the score vector, plus its bias, through the leaky relu (slope 0.2): %29 … %33. -/
abbrev w5 : List (HloOp τ sig (Elt F)) :=
  [ StableHlo.binary main_v28 main_arg7 main_v29 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg8 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S800000x1 ![0, 1] bcast_S1x1_S800000x1_0_1 : (⟨S1x1, .f32⟩ : BufTy).Contents (Elt F) → (⟨S800000x1, .f32⟩ : BufTy).Contents (Elt F)),
    StableHlo.binary main_v29 main_v31 main_v32 (addf : (⟨S800000x1, .f32⟩ : BufTy).Contents (Elt F) → (⟨S800000x1, .f32⟩ : BufTy).Contents (Elt F) → (⟨S800000x1, .f32⟩ : BufTy).Contents (Elt F)),
    StableHlo.nullary main_cst (constant S_ .f32 0x3E4CCCCD#32),
    StableHlo.TRef.nullary main_call1.cst (constant S_ .f32 0x00000000#32),
    StableHlo.TRef.unary main_call1.cst main_call1.v0 (broadcastInDim S800000x1 ![] bcast_S_S800000x1),
    StableHlo.TRef.binary (.of main_v32 : StableHlo.TRef sig ⟨S800000x1, .f32⟩) main_call1.v0 main_call1.v1 (cmpf .oge),
    StableHlo.TRef.unary (.of main_cst : StableHlo.TRef sig ⟨S_, .f32⟩) main_call1.v2 id,
    StableHlo.TRef.unary main_call1.v2 main_call1.v3 (broadcastInDim S800000x1 ![] bcast_S_S800000x1),
    StableHlo.TRef.binary main_call1.v3 (.of main_v32 : StableHlo.TRef sig ⟨S800000x1, .f32⟩) main_call1.v4 mulf,
    StableHlo.TRef.ternary main_call1.v1 (.of main_v32 : StableHlo.TRef sig ⟨S800000x1, .f32⟩) main_call1.v4 main_call1.call0.v0 select ]

/-- The maximum of the scores over all edges, the exponentials of the scores less it, and their sum: %cst_3 … %41. -/
abbrev w6 : List (HloOp τ sig (Elt F)) :=
  [ StableHlo.nullary main_cst_3 (constant S_ .f32 0xFF800000#32),
    StableHlo.binary main_v33 main_cst_3 main_v34 ((fun x v => Host.reduce FloatOps.maximumf x v reducesTo_S800000x1_S1_d0 h_S_) : (⟨S800000x1, .f32⟩ : BufTy).Contents (Elt F) → (⟨S_, .f32⟩ : BufTy).Contents (Elt F) → (⟨S1, .f32⟩ : BufTy).Contents (Elt F)),
    StableHlo.nullary main_cst_4 (constant S_ .f32 0xFF800000#32),
    StableHlo.unary main_cst_4 main_v35 (broadcastInDim S1 ![] bcast_S_S1 : (⟨S_, .f32⟩ : BufTy).Contents (Elt F) → (⟨S1, .f32⟩ : BufTy).Contents (Elt F)),
    StableHlo.binary main_v35 main_v34 main_v36 (maximumf : (⟨S1, .f32⟩ : BufTy).Contents (Elt F) → (⟨S1, .f32⟩ : BufTy).Contents (Elt F) → (⟨S1, .f32⟩ : BufTy).Contents (Elt F)),
    StableHlo.unary main_v36 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S800000x1 ![0, 1] bcast_S1x1_S800000x1_0_1 : (⟨S1x1, .f32⟩ : BufTy).Contents (Elt F) → (⟨S800000x1, .f32⟩ : BufTy).Contents (Elt F)),
    StableHlo.binary main_v33 main_v38 main_v39 (subf : (⟨S800000x1, .f32⟩ : BufTy).Contents (Elt F) → (⟨S800000x1, .f32⟩ : BufTy).Contents (Elt F) → (⟨S800000x1, .f32⟩ : BufTy).Contents (Elt F)),
    StableHlo.unary main_v39 main_v40 (Host.exp : (⟨S800000x1, .f32⟩ : BufTy).Contents (Elt F) → (⟨S800000x1, .f32⟩ : BufTy).Contents (Elt F)),
    StableHlo.nullary main_cst_5 (constant S_ .f32 0x00000000#32),
    StableHlo.binary main_v40 main_cst_5 main_v41 ((fun x v => Host.reduceAdd x v reducesTo_S800000x1_S1_d0 h_S_) : (⟨S800000x1, .f32⟩ : BufTy).Contents (Elt F) → (⟨S_, .f32⟩ : BufTy).Contents (Elt F) → (⟨S1, .f32⟩ : BufTy).Contents (Elt F)) ]

/-- The normalized weights, the weighted messages, the zero array the scatter starts from, and the sign test of the second row (the first three lines of the scatter's index): %42 … %49. -/
abbrev w7 : List (HloOp τ sig (Elt F)) :=
  [ StableHlo.unary main_v41 main_v42 (broadcastInDim S1x1 ![1] bcast_S1_S1x1_1 : (⟨S1, .f32⟩ : BufTy).Contents (Elt F) → (⟨S1x1, .f32⟩ : BufTy).Contents (Elt F)),
    StableHlo.unary main_v42 main_v43 (broadcastInDim S800000x1 ![0, 1] bcast_S1x1_S800000x1_0_1 : (⟨S1x1, .f32⟩ : BufTy).Contents (Elt F) → (⟨S800000x1, .f32⟩ : BufTy).Contents (Elt F)),
    StableHlo.binary main_v40 main_v43 main_v44 (Host.divf : (⟨S800000x1, .f32⟩ : BufTy).Contents (Elt F) → (⟨S800000x1, .f32⟩ : BufTy).Contents (Elt F) → (⟨S800000x1, .f32⟩ : BufTy).Contents (Elt F)),
    StableHlo.nullary main_cst_6 (constant S_ .f32 0x00000000#32),
    StableHlo.unary main_cst_6 main_v45 (broadcastInDim S50000x128 ![] bcast_S_S50000x128 : (⟨S_, .f32⟩ : BufTy).Contents (Elt F) → (⟨S50000x128, .f32⟩ : BufTy).Contents (Elt F)),
    StableHlo.unary main_v44 main_v46 (broadcastInDim S800000x128 ![0, 1] bcast_S800000x1_S800000x128_0_1 : (⟨S800000x1, .f32⟩ : BufTy).Contents (Elt F) → (⟨S800000x128, .f32⟩ : BufTy).Contents (Elt F)),
    StableHlo.binary main_v28 main_v46 main_v47 (mulf : (⟨S800000x128, .f32⟩ : BufTy).Contents (Elt F) → (⟨S800000x128, .f32⟩ : BufTy).Contents (Elt F) → (⟨S800000x128, .f32⟩ : BufTy).Contents (Elt F)),
    StableHlo.nullary main_c_7 (constantI S_ 32 0#32),
    StableHlo.unary main_c_7 main_v48 (broadcastInDim S800000 ![] bcast_S_S800000 : (⟨S_, .i32⟩ : BufTy).Contents (Elt F) → (⟨S800000, .i32⟩ : BufTy).Contents (Elt F)),
    StableHlo.binary main_v3 main_v48 main_v49 (cmpi .slt : (⟨S800000, .i32⟩ : BufTy).Contents (Elt F) → (⟨S800000, .i32⟩ : BufTy).Contents (Elt F) → (⟨S800000, .i1⟩ : BufTy).Contents (Elt F)) ]

/-- The scatter's index (the second row brought into range again), the weighted messages summed into their target rows, and the residual sum with the node features: %c_8 … %55. -/
abbrev w8 : List (HloOp τ sig (Elt F)) :=
  [ StableHlo.nullary main_c_8 (constantI S_ 32 50000#32),
    StableHlo.unary main_c_8 main_v50 (broadcastInDim S800000 ![] bcast_S_S800000 : (⟨S_, .i32⟩ : BufTy).Contents (Elt F) → (⟨S800000, .i32⟩ : BufTy).Contents (Elt F)),
    StableHlo.binary main_v3 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.ternary main_v45 main_v53 main_v47 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v54 main_v55 (addf : (⟨S50000x128, .f32⟩ : BufTy).Contents (Elt F) → (⟨S50000x128, .f32⟩ : BufTy).Contents (Elt F) → (⟨S50000x128, .f32⟩ : BufTy).Contents (Elt F)) ]

/-- The mean over the 128 features of each row: %cst_9 … %59. -/
abbrev w9 : List (HloOp τ sig (Elt F)) :=
  [ StableHlo.nullary main_cst_9 (constant S_ .f32 0x00000000#32),
    StableHlo.binary main_v55 main_cst_9 main_v56 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v56 main_v57 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43000000#32),
    StableHlo.unary main_cst_10 main_v58 (broadcastInDim S50000x1 ![] bcast_S_S50000x1 : (⟨S_, .f32⟩ : BufTy).Contents (Elt F) → (⟨S50000x1, .f32⟩ : BufTy).Contents (Elt F)),
    StableHlo.binary main_v57 main_v58 main_v59 (Host.divf : (⟨S50000x1, .f32⟩ : BufTy).Contents (Elt F) → (⟨S50000x1, .f32⟩ : BufTy).Contents (Elt F) → (⟨S50000x1, .f32⟩ : BufTy).Contents (Elt F)) ]

/-- The variance over the 128 features of each row, as the outlined function computes it (ddof 0: the divisor is 128 − 0, and the guard on it being positive): %c_11 … %60. -/
abbrev w10 : List (HloOp τ sig (Elt F)) :=
  [ StableHlo.nullary main_c_11 (constantI S_ 32 0#32),
    StableHlo.TRef.nullary main_call2.cst (constant S_ .f32 0x00000000#32),
    StableHlo.TRef.binary (.of main_v55 : StableHlo.TRef sig ⟨S50000x128, .f32⟩) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary (.of main_v55 : StableHlo.TRef sig ⟨S50000x128, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b) ]

/-- The normalization by mean and variance (ε = 1e-5), the scale and the shift: %61 … %73. -/
abbrev w11 : List (HloOp τ sig (Elt F)) :=
  [ StableHlo.unary main_v59 main_v61 (broadcastInDim S50000x128 ![0, 1] bcast_S50000x1_S50000x128_0_1 : (⟨S50000x1, .f32⟩ : BufTy).Contents (Elt F) → (⟨S50000x128, .f32⟩ : BufTy).Contents (Elt F)),
    StableHlo.binary main_v55 main_v61 main_v62 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v63 (broadcastInDim S50000x1 ![] bcast_S_S50000x1 : (⟨S_, .f32⟩ : BufTy).Contents (Elt F) → (⟨S50000x1, .f32⟩ : BufTy).Contents (Elt F)),
    StableHlo.binary main_v60 main_v63 main_v64 (addf : (⟨S50000x1, .f32⟩ : BufTy).Contents (Elt F) → (⟨S50000x1, .f32⟩ : BufTy).Contents (Elt F) → (⟨S50000x1, .f32⟩ : BufTy).Contents (Elt F)),
    StableHlo.unary main_v64 main_v65 (Host.sqrt : (⟨S50000x1, .f32⟩ : BufTy).Contents (Elt F) → (⟨S50000x1, .f32⟩ : BufTy).Contents (Elt F)),
    StableHlo.unary main_v65 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v62 main_v66 main_v67 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg10 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)) ]

/-- The operations of @main's first window (its statements 1 … 60). -/
abbrev opsP0 : List (HloOp τ sig (Elt F)) := w0 ++ (w1 ++ (w2 ++ (w3 ++ (w4 ++ (w5 ++ (w6 ++ (w7)))))))

/-- The operations of @main's second window (its statements 61 … 90). -/
abbrev opsP1 : List (HloOp τ sig (Elt F)) := w8 ++ (w9 ++ (w10 ++ (w11)))

/-- @main's operations, in order. -/
abbrev ops : List (HloOp τ sig (Elt F)) := opsP0 ++ opsP1

/-! ## The program is that list

Each window of @main, with the three functions unfolded at their calls, is the straight line of its operations:
both sides are one chain of `hlo` steps once the sequencing is reassociated. -/

set_option maxRecDepth 8192 in
set_option maxHeartbeats 4000000 in
theorem main_part0_eq (c : Dev nD) : main_part0 (F := F) c = seq opsP0 := by
  simp only [main_part0, fn_relu.body, fn_leaky_relu.body, fn_where.body, opsP0, w0, w1, w2, w3, w4, w5, w6, w7,
    List.cons_append, List.nil_append, seq, bind_assoc, pure_bind]
  -- the window's last statement is an operation, the line's last step the return after it: equal by computation
  rfl

set_option maxRecDepth 8192 in
set_option maxHeartbeats 4000000 in
theorem main_part1_eq (c : Dev nD) : main_part1 (F := F) c = seq opsP1 := by
  simp only [main_part1, fn_var.body, fn_where_0.body, opsP1, w8, w9, w10, w11,
    List.cons_append, List.nil_append, seq, bind_assoc, pure_bind]

/-- @main runs its two windows in order, and two lines run in order are their concatenation run as one. -/
theorem main_eq (c : Dev nD) : main (F := F) c = seq ops := by
  show (main_part0 (F := F) c >>= fun _ => main_part1 (F := F) c) = seq (opsP0 ++ opsP1)
  rw [seq_append, main_part0_eq, main_part1_eq]

/-! ## The side conditions of the run

No TensorCore buffer and no semaphore of this signature is scoped; every operation touches TensorCore references
only, and none allocates. -/

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨unary_bufs_sub .., reshape_bufs_sub .., unary_bufs_sub .., reshape_bufs_sub ..⟩
theorem w0_fresh : (w0 : List (HloOp τ sig (Elt F))).Forall fun op => op.fresh = ∅ :=
  ⟨rfl, rfl, rfl, rfl⟩

theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem w1_fresh : (w1 : List (HloOp τ sig (Elt F))).Forall fun op => op.fresh = ∅ :=
  ⟨rfl, rfl, rfl, rfl, rfl, rfl, rfl, rfl, rfl⟩

theorem w2_sub : (w2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem w2_fresh : (w2 : List (HloOp τ sig (Elt F))).Forall fun op => op.fresh = ∅ :=
  ⟨rfl, rfl, rfl, rfl, rfl, rfl, rfl, rfl, rfl⟩

theorem w3_sub : (w3 : List (HloOp τ sig (Elt F))).Forall fun op => op.bufs ⊆ tcRefs τ sig :=
  ⟨binary_bufs_sub .., nary_bufs_sub .., binary_bufs_sub .., unary_bufs_sub .., unary_bufs_sub .., binary_bufs_sub .., nullary_bufs_sub .., unary_bufs_sub .., binary_bufs_sub ..⟩
theorem w3_fresh : (w3 : List (HloOp τ sig (Elt F))).Forall fun op => op.fresh = ∅ :=
  ⟨rfl, rfl, rfl, rfl, rfl, rfl, rfl, rfl, rfl⟩

theorem w4_sub : (w4 : List (HloOp τ sig (Elt F))).Forall fun op => op.bufs ⊆ tcRefs τ sig :=
  ⟨binary_bufs_sub .., unary_bufs_sub .., unary_bufs_sub .., binary_bufs_sub ..⟩
theorem w4_fresh : (w4 : List (HloOp τ sig (Elt F))).Forall fun op => op.fresh = ∅ :=
  ⟨rfl, rfl, rfl, rfl⟩

theorem w5_sub : (w5 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem w5_fresh : (w5 : List (HloOp τ sig (Elt F))).Forall fun op => op.fresh = ∅ :=
  ⟨rfl, rfl, rfl, rfl, rfl, rfl, rfl, rfl, rfl, rfl, rfl, rfl⟩

theorem w6_sub : (w6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩
theorem w6_fresh : (w6 : List (HloOp τ sig (Elt F))).Forall fun op => op.fresh = ∅ :=
  ⟨rfl, rfl, rfl, rfl, rfl, rfl, rfl, rfl, rfl, rfl, rfl⟩

theorem w7_sub : (w7 : List (HloOp τ sig (Elt F))).Forall fun op => op.bufs ⊆ tcRefs τ sig :=
  ⟨unary_bufs_sub .., unary_bufs_sub .., binary_bufs_sub .., nullary_bufs_sub .., unary_bufs_sub .., unary_bufs_sub .., binary_bufs_sub .., nullary_bufs_sub .., unary_bufs_sub .., binary_bufs_sub ..⟩
theorem w7_fresh : (w7 : List (HloOp τ sig (Elt F))).Forall fun op => op.fresh = ∅ :=
  ⟨rfl, rfl, rfl, rfl, rfl, rfl, rfl, rfl, rfl, rfl⟩

theorem w8_sub : (w8 : List (HloOp τ sig (Elt F))).Forall fun op => op.bufs ⊆ tcRefs τ sig :=
  ⟨nullary_bufs_sub .., unary_bufs_sub .., binary_bufs_sub .., ternary_bufs_sub .., unary_bufs_sub .., ternary_bufs_sub .., binary_bufs_sub ..⟩
theorem w8_fresh : (w8 : List (HloOp τ sig (Elt F))).Forall fun op => op.fresh = ∅ :=
  ⟨rfl, rfl, rfl, rfl, rfl, rfl, rfl⟩

theorem w9_sub : (w9 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem w9_fresh : (w9 : List (HloOp τ sig (Elt F))).Forall fun op => op.fresh = ∅ :=
  ⟨rfl, rfl, rfl, rfl, rfl, rfl⟩

theorem w10_sub : (w10 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem w11_sub : (w11 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem w11_fresh : (w11 : List (HloOp τ sig (Elt F))).Forall fun op => op.fresh = ∅ :=
  ⟨rfl, rfl, rfl, rfl, rfl, rfl, rfl, rfl, rfl, rfl, rfl, rfl, rfl, rfl⟩

/-- A member of the whole list is a member of one of the twelve stretches. -/
theorem mem_ops {op : HloOp τ sig (Elt F)} (h : op ∈ (ops : List (HloOp τ sig (Elt F)))) :
    op ∈ (w0 : List (HloOp τ sig (Elt F))) ∨ op ∈ (w1 : List (HloOp τ sig (Elt F))) ∨ op ∈ (w2 : List (HloOp τ sig (Elt F)))
    ∨ op ∈ (w3 : List (HloOp τ sig (Elt F))) ∨ op ∈ (w4 : List (HloOp τ sig (Elt F))) ∨ op ∈ (w5 : List (HloOp τ sig (Elt F)))
    ∨ op ∈ (w6 : List (HloOp τ sig (Elt F))) ∨ op ∈ (w7 : List (HloOp τ sig (Elt F))) ∨ op ∈ (w8 : List (HloOp τ sig (Elt F)))
    ∨ op ∈ (w9 : List (HloOp τ sig (Elt F))) ∨ op ∈ (w10 : List (HloOp τ sig (Elt F))) ∨ op ∈ (w11 : List (HloOp τ sig (Elt F))) := by
  simp only [ops, opsP0, opsP1, List.mem_append] at h
  rcases h with (h | h | h | h | h | h | h | h) | (h | h | h | h)
  · exact .inl h
  · exact .inr (.inl h)
  · exact .inr (.inr (.inl h))
  · exact .inr (.inr (.inr (.inl h)))
  · exact .inr (.inr (.inr (.inr (.inl h))))
  · exact .inr (.inr (.inr (.inr (.inr (.inl h)))))
  · exact .inr (.inr (.inr (.inr (.inr (.inr (.inl h))))))
  · exact .inr (.inr (.inr (.inr (.inr (.inr (.inr (.inl h)))))))
  · exact .inr (.inr (.inr (.inr (.inr (.inr (.inr (.inr (.inl h))))))))
  · exact .inr (.inr (.inr (.inr (.inr (.inr (.inr (.inr (.inr (.inl h)))))))))
  · exact .inr (.inr (.inr (.inr (.inr (.inr (.inr (.inr (.inr (.inr (.inl h))))))))))
  · exact .inr (.inr (.inr (.inr (.inr (.inr (.inr (.inr (.inr (.inr (.inr h))))))))))

theorem ops_sub : (ops : List (HloOp τ sig (Elt F))).Forall fun op => op.bufs ⊆ tcRefs τ sig :=
  List.forall_iff_forall_mem.mpr fun op h => by
    rcases mem_ops h with h | h | h | h | h | h | h | h | h | h | h | h
    exacts [List.forall_iff_forall_mem.mp w0_sub op h,
      List.forall_iff_forall_mem.mp w1_sub op h,
      List.forall_iff_forall_mem.mp w2_sub op h,
      List.forall_iff_forall_mem.mp w3_sub op h,
      List.forall_iff_forall_mem.mp w4_sub op h,
      List.forall_iff_forall_mem.mp w5_sub op h,
      List.forall_iff_forall_mem.mp w6_sub op h,
      List.forall_iff_forall_mem.mp w7_sub op h,
      List.forall_iff_forall_mem.mp w8_sub op h,
      List.forall_iff_forall_mem.mp w9_sub op h,
      List.forall_iff_forall_mem.mp w10_sub op h,
      List.forall_iff_forall_mem.mp w11_sub op h]

theorem ops_fresh : ∀ op ∈ (ops : List (HloOp τ sig (Elt F))), op.fresh = ∅ := fun op h => by
  rcases mem_ops h with h | h | h | h | h | h | h | h | h | h | h | h
  exacts [List.forall_iff_forall_mem.mp w0_fresh op h,
    List.forall_iff_forall_mem.mp w1_fresh op h,
    List.forall_iff_forall_mem.mp w2_fresh op h,
    List.forall_iff_forall_mem.mp w3_fresh op h,
    List.forall_iff_forall_mem.mp w4_fresh op h,
    List.forall_iff_forall_mem.mp w5_fresh op h,
    List.forall_iff_forall_mem.mp w6_fresh op h,
    List.forall_iff_forall_mem.mp w7_fresh op h,
    List.forall_iff_forall_mem.mp w8_fresh op h,
    List.forall_iff_forall_mem.mp w9_fresh op h,
    List.forall_iff_forall_mem.mp w10_fresh op h,
    List.forall_iff_forall_mem.mp w11_fresh op h]

end Cert.ReferenceIdeal.Hand

end
-- ==== Proof.Ref.Run.lean ====
/-
  The reference's run, read back. The program is a straight line of host operations (Ops.lean), so every weakly fair
  execution of it terminates with each buffer at the fold of the operations over the launch contents. Here that fold
  is computed at the result buffer: stretch by stretch, what each leaves in the buffers a later one reads is a named
  function of the eleven argument arrays (the stages below), and what it does not write it keeps. The result buffer
  ends at `refOut` of the arguments, and the arguments end as they were.
-/
import proofs.«137429_j68822555951393_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages

The computation as named functions of the eleven argument arrays, each the composition of the operations of one
stretch over the stages before it: `a0` the node features (50000 × 128), `a1` the edge table (2 × 800000: a row of
node indices each), `a2` the edge features (800000 × 64), `a3 a4` and `a5 a6` the two layers of the message network,
`a7 a8` the score vector and its bias, `a9 a10` the scale and shift of the normalization. -/

section Stages

variable (a0 : FVec F S50000x128 .f32) (a1 : IVec S2x800000 32) (a2 : FVec F S800000x64 .f32)
  (a3 : FVec F S320x128 .f32) (a4 : FVec F S128 .f32) (a5 : FVec F S128x128 .f32) (a6 : FVec F S128 .f32)
  (a7 : FVec F S128x1 .f32) (a8 : FVec F S1 .f32) (a9 : FVec F S128 .f32) (a10 : FVec F S128 .f32)

/-- Row 0 of the edge table, as a vector of 800000 indices. -/
def row0 : IVec S800000 32 :=
  shapeCast S800000 (extractStridedSlice S1x800000 ![0, 0] a1 slices_S2x800000_S1x800000_0_0) shapeCasts_S1x800000_S800000

/-- Row 1 of the edge table. -/
def row1 : IVec S800000 32 :=
  shapeCast S800000 (extractStridedSlice S1x800000 ![1, 0] a1 slices_S2x800000_S1x800000_1_0) shapeCasts_S1x800000_S800000

/-- Where an index of the vector is negative. -/
def isNeg (r : IVec S800000 32) : IVec S800000 1 :=
  cmpi .slt r (broadcastInDim S800000 ![] bcast_S_S800000 (constantI S_ 32 0#32))

/-- A vector of node indices brought into range — 50000 added to a negative one — and set as a column. -/
def normIdx (r : IVec S800000 32) : IVec S800000x1 32 :=
  broadcastInDim S800000x1 ![0] bcast_S800000_S800000x1_0
    (select (isNeg r) (addi r (broadcastInDim S800000 ![] bcast_S_S800000 (constantI S_ 32 50000#32))) r)

/-- The first row's indices, in range, as a column (`%9`). -/
def srcIdx : IVec S800000x1 32 := normIdx (row0 a1)

/-- The second row's indices, in range, as a column (`%16`, and again `%53`). -/
def dstIdx : IVec S800000x1 32 := normIdx (row1 a1)

/-- The node features gathered at the first row's indices (`%10`). -/
def hSrc : FVec F S800000x128 .f32 :=
  Host.gather gather_S50000x128_S800000x1_S800000x128_1_0_n_n_0_1_1128 a0 (srcIdx a1)

/-- The node features gathered at the second row's indices (`%17`). -/
def hDst : FVec F S800000x128 .f32 :=
  Host.gather gather_S50000x128_S800000x1_S800000x128_1_0_n_n_0_1_1128 a0 (dstIdx a1)

/-- The message network's input, 320 wide: the second gather, the first less the second, the edge features (`%19`). -/
def msgIn : FVec F S800000x320 .f32 :=
  concatenate S800000x320 1 [⟨S800000x128, hDst a0 a1⟩, ⟨S800000x128, subf (hSrc a0 a1) (hDst a0 a1)⟩, ⟨S800000x64, a2⟩]
    concatenates_S800000x128_S800000x128_S800000x64_S800000x320_d1

/-- The first layer and its relu (`%24`). -/
def hidden : FVec F S800000x128 .f32 :=
  maximumf
    (addf (Host.dotGeneral dot_S800000x320_S320x128_S800000x128_1_0_0_1_n_n none (msgIn a0 a1 a2) a3)
      (broadcastInDim S800000x128 ![0, 1] bcast_S1x128_S800000x128_0_1 (broadcastInDim S1x128 ![1] bcast_S128_S1x128_1 a4)))
    (broadcastInDim S800000x128 ![] bcast_S_S800000x128 (constant S_ .f32 0x00000000#32))

/-- The second layer: the messages (`%28`). -/
def msgs : FVec F S800000x128 .f32 :=
  addf (Host.dotGeneral dot_S800000x128_S128x128_S800000x128_1_0_0_1_n_n none (hidden a0 a1 a2 a3 a4) a5)
    (broadcastInDim S800000x128 ![0, 1] bcast_S1x128_S800000x128_0_1 (broadcastInDim S1x128 ![1] bcast_S128_S1x128_1 a6))

/-- The messages against the score vector, plus its bias (`%32`). -/
def preScore : FVec F S800000x1 .f32 :=
  addf (Host.dotGeneral dot_S800000x128_S128x1_S800000x1_1_0_0_1_n_n none (msgs a0 a1 a2 a3 a4 a5 a6) a7)
    (broadcastInDim S800000x1 ![0, 1] bcast_S1x1_S800000x1_0_1 (broadcastInDim S1x1 ![1] bcast_S1_S1x1_1 a8))

/-- The leaky relu of slope 0.2: `z` where it is at least zero, `0.2 · z` elsewhere. -/
def leaky (z : FVec F S800000x1 .f32) : FVec F S800000x1 .f32 :=
  select (cmpf .oge z (broadcastInDim S800000x1 ![] bcast_S_S800000x1 (constant S_ .f32 0x00000000#32))) z
    (mulf (broadcastInDim S800000x1 ![] bcast_S_S800000x1 (constant S_ .f32 0x3E4CCCCD#32)) z)

/-- The attention score of each edge (`%33`). -/
def score : FVec F S800000x1 .f32 := leaky (preScore a0 a1 a2 a3 a4 a5 a6 a7 a8)

/-- The greatest score over all the edges (`%36`): the fold of the maximum from −∞, once more against −∞. -/
def smax : FVec F S1 .f32 :=
  maximumf (broadcastInDim S1 ![] bcast_S_S1 (constant S_ .f32 0xFF800000#32))
    (Host.reduce FloatOps.maximumf (score a0 a1 a2 a3 a4 a5 a6 a7 a8) (constant S_ .f32 0xFF800000#32)
      reducesTo_S800000x1_S1_d0 h_S_)

/-- The exponential of each score less the greatest (`%40`). -/
def expd : FVec F S800000x1 .f32 :=
  Host.exp (subf (score a0 a1 a2 a3 a4 a5 a6 a7 a8)
    (broadcastInDim S800000x1 ![0, 1] bcast_S1x1_S800000x1_0_1
      (broadcastInDim S1x1 ![1] bcast_S1_S1x1_1 (smax a0 a1 a2 a3 a4 a5 a6 a7 a8))))

/-- The sum of those exponentials over all the edges (`%41`). -/
def ssum : FVec F S1 .f32 :=
  Host.reduceAdd (expd a0 a1 a2 a3 a4 a5 a6 a7 a8) (constant S_ .f32 0x00000000#32) reducesTo_S800000x1_S1_d0 h_S_

/-- The attention weight of each edge: its exponential over the sum (`%44`). -/
def attn : FVec F S800000x1 .f32 :=
  Host.divf (expd a0 a1 a2 a3 a4 a5 a6 a7 a8)
    (broadcastInDim S800000x1 ![0, 1] bcast_S1x1_S800000x1_0_1
      (broadcastInDim S1x1 ![1] bcast_S1_S1x1_1 (ssum a0 a1 a2 a3 a4 a5 a6 a7 a8)))

/-- Each message scaled by its edge's weight (`%47`). -/
def weighted : FVec F S800000x128 .f32 :=
  mulf (msgs a0 a1 a2 a3 a4 a5 a6)
    (broadcastInDim S800000x128 ![0, 1] bcast_S800000x1_S800000x128_0_1 (attn a0 a1 a2 a3 a4 a5 a6 a7 a8))

/-- The array of zeros the scatter starts from (`%45`). -/
def zeros : FVec F S50000x128 .f32 :=
  broadcastInDim S50000x128 ![] bcast_S_S50000x128 (constant S_ .f32 0x00000000#32)

/-- The weighted messages summed into the rows their second index names (`%54`). -/
def agg : FVec F S50000x128 .f32 :=
  Host.scatterAdd scatter_S50000x128_S800000x1_S800000x128_1_0_0_1 (zeros (F := F)) (dstIdx a1)
    (weighted a0 a1 a2 a3 a4 a5 a6 a7 a8)

/-- The node features plus what was aggregated into each (`%55`). -/
def resid : FVec F S50000x128 .f32 := addf a0 (agg a0 a1 a2 a3 a4 a5 a6 a7 a8)

/-- The mean of each row's 128 features, as a column. -/
def rowMean (x : FVec F S50000x128 .f32) : FVec F S50000x1 .f32 :=
  Host.divf
    (broadcastInDim S50000x1 ![0] bcast_S50000_S50000x1_0
      (Host.reduceAdd x (constant S_ .f32 0x00000000#32) reducesTo_S50000x128_S50000_d1 h_S_))
    (broadcastInDim S50000x1 ![] bcast_S_S50000x1 (constant S_ .f32 0x43000000#32))

/-- The row means of the residual sum (`%59`). -/
def mean : FVec F S50000x1 .f32 := rowMean (resid a0 a1 a2 a3 a4 a5 a6 a7 a8)

/-- The residual sum less its row mean (`%62`; the variance computes the same array for itself). -/
def centered : FVec F S50000x128 .f32 :=
  subf (resid a0 a1 a2 a3 a4 a5 a6 a7 a8)
    (broadcastInDim S50000x128 ![0, 1] bcast_S50000x1_S50000x128_0_1 (mean a0 a1 a2 a3 a4 a5 a6 a7 a8))

/-- The variance's divisor, 128 less the degrees of freedom it is called with (none). -/
def varDen : FVec F S_ .f32 :=
  subf (constant S_ .f32 0x43000000#32) (sitofp .f32 (constantI S_ 32 0#32))

/-- The variance of each row (`%60`): the mean square of the centered row over the divisor, where the divisor is
    positive (and a NaN where it is not). -/
def var : FVec F S50000x1 .f32 :=
  select (broadcastInDim S50000x1 ![] bcast_S_S50000x1 (cmpf .ogt (varDen (F := F)) (constant S_ .f32 0x00000000#32)))
    (Host.divf
      (broadcastInDim S50000x1 ![0] bcast_S50000_S50000x1_0
        (Host.reduceAdd (mulf (centered a0 a1 a2 a3 a4 a5 a6 a7 a8) (centered a0 a1 a2 a3 a4 a5 a6 a7 a8))
          (constant S_ .f32 0x00000000#32) reducesTo_S50000x128_S50000_d1 h_S_))
      (broadcastInDim S50000x1 ![] bcast_S_S50000x1 (varDen (F := F))))
    (broadcastInDim S50000x1 ![] bcast_S_S50000x1 (constant S_ .f32 0x7FC00000#32))

/-- The result (`%73`): the centered rows over the root of the variance plus ε, scaled and shifted. -/
def refOut : FVec F S50000x128 .f32 :=
  addf
    (mulf
      (Host.divf (centered a0 a1 a2 a3 a4 a5 a6 a7 a8)
        (broadcastInDim S50000x128 ![0, 1] bcast_S50000x1_S50000x128_0_1
          (Host.sqrt (addf (var a0 a1 a2 a3 a4 a5 a6 a7 a8)
            (broadcastInDim S50000x1 ![] bcast_S_S50000x1 (constant S_ .f32 0x3727C5AC#32))))))
      (broadcastInDim S50000x128 ![0, 1] bcast_S1x128_S50000x128_0_1 (broadcastInDim S1x128 ![1] bcast_S128_S1x128_1 a9)))
    (broadcastInDim S50000x128 ![0, 1] bcast_S1x128_S50000x128_0_1 (broadcastInDim S1x128 ![1] bcast_S128_S1x128_1 a10))

end Stages

/-! ## The buffers after each stretch -/

/-- An operation whose one written buffer is `y`, a member of the list `W`, writes inside `W`. -/
theorem writes_sub_of {op : HloOp τ sig (Elt F)} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Two lists of operations run one after the other from `V`: the second from what the first leaves. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

section Chain

variable (V : Valuation τ sig (Elt F))

-- the eleven argument arrays as the valuation `V` holds them (the notation names the section's `V`: it is not checked before use)
set_option quotPrecheck false
local notation "A0" => V (Proc.devRef .tc main_arg0)
local notation "A1" => V (Proc.devRef .tc main_arg1)
local notation "A2" => V (Proc.devRef .tc main_arg2)
local notation "A3" => V (Proc.devRef .tc main_arg3)
local notation "A4" => V (Proc.devRef .tc main_arg4)
local notation "A5" => V (Proc.devRef .tc main_arg5)
local notation "A6" => V (Proc.devRef .tc main_arg6)
local notation "A7" => V (Proc.devRef .tc main_arg7)
local notation "A8" => V (Proc.devRef .tc main_arg8)
local notation "A9" => V (Proc.devRef .tc main_arg9)
local notation "A10" => V (Proc.devRef .tc main_arg10)

/-- The buffers stretch `w0` writes, in order. -/
abbrev w0_W : List (Ref sig .tc) :=
  [main_v0, main_v1, main_v2, main_v3]
theorem w0_writes : (w0 : List (HloOp τ sig (Elt F))).Forall fun op =>
    op.writes ⊆ (w0_W.map (Proc.devRef (τ := τ) .tc)).toFinset :=
  ⟨writes_sub_of main_v0 rfl (by decide),
   writes_sub_of main_v1 rfl (by decide),
   writes_sub_of main_v2 rfl (by decide),
   writes_sub_of main_v3 rfl (by decide)⟩
/-- The buffers' contents after the first 1 stretch. -/
def val0 : Valuation τ sig (Elt F) := after w0 (V)
theorem val0_keep (r : Ref sig .tc) (h : r ∉ w0_W) :
    val0 V (Proc.devRef .tc r) = V (Proc.devRef .tc r) :=
  after_of_writes_sub w0 _ w0_writes h
theorem val0_arg0 : val0 V (no_index (Proc.devRef .tc main_arg0)) = A0 :=
  val0_keep V main_arg0 (by decide)
theorem val0_arg1 : val0 V (no_index (Proc.devRef .tc main_arg1)) = A1 :=
  val0_keep V main_arg1 (by decide)
theorem val0_arg2 : val0 V (no_index (Proc.devRef .tc main_arg2)) = A2 :=
  val0_keep V main_arg2 (by decide)
theorem val0_arg3 : val0 V (no_index (Proc.devRef .tc main_arg3)) = A3 :=
  val0_keep V main_arg3 (by decide)
theorem val0_arg4 : val0 V (no_index (Proc.devRef .tc main_arg4)) = A4 :=
  val0_keep V main_arg4 (by decide)
theorem val0_arg5 : val0 V (no_index (Proc.devRef .tc main_arg5)) = A5 :=
  val0_keep V main_arg5 (by decide)
theorem val0_arg6 : val0 V (no_index (Proc.devRef .tc main_arg6)) = A6 :=
  val0_keep V main_arg6 (by decide)
theorem val0_arg7 : val0 V (no_index (Proc.devRef .tc main_arg7)) = A7 :=
  val0_keep V main_arg7 (by decide)
theorem val0_arg8 : val0 V (no_index (Proc.devRef .tc main_arg8)) = A8 :=
  val0_keep V main_arg8 (by decide)
theorem val0_arg9 : val0 V (no_index (Proc.devRef .tc main_arg9)) = A9 :=
  val0_keep V main_arg9 (by decide)
theorem val0_arg10 : val0 V (no_index (Proc.devRef .tc main_arg10)) = A10 :=
  val0_keep V main_arg10 (by decide)

theorem val0_v1 : val0 V (no_index (Proc.devRef .tc main_v1)) = row0 A1 := by
  unfold val0
  simp only [w0]
  after_results_simp
  rfl
theorem val0_v3 : val0 V (no_index (Proc.devRef .tc main_v3)) = row1 A1 := by
  unfold val0
  simp only [w0]
  after_results_simp
  rfl

/-- The buffers stretch `w1` writes, in order. -/
abbrev w1_W : List (Ref sig .tc) :=
  [main_c, main_v4, main_v5, main_c_0, main_v6, main_v7, main_v8, main_v9, main_v10]
theorem w1_writes : (w1 : List (HloOp τ sig (Elt F))).Forall fun op =>
    op.writes ⊆ (w1_W.map (Proc.devRef (τ := τ) .tc)).toFinset :=
  ⟨writes_sub_of main_c rfl (by decide),
   writes_sub_of main_v4 rfl (by decide),
   writes_sub_of main_v5 rfl (by decide),
   writes_sub_of main_c_0 rfl (by decide),
   writes_sub_of main_v6 rfl (by decide),
   writes_sub_of main_v7 rfl (by decide),
   writes_sub_of main_v8 rfl (by decide),
   writes_sub_of main_v9 rfl (by decide),
   writes_sub_of main_v10 rfl (by decide)⟩
/-- The buffers' contents after the first 2 stretches. -/
def val1 : Valuation τ sig (Elt F) := after w1 (val0 V)
theorem val1_keep (r : Ref sig .tc) (h : r ∉ w1_W) :
    val1 V (Proc.devRef .tc r) = val0 V (Proc.devRef .tc r) :=
  after_of_writes_sub w1 _ w1_writes h
theorem val1_v3 : val1 V (no_index (Proc.devRef .tc main_v3)) = row1 A1 :=
  (val1_keep V main_v3 (by decide)).trans (val0_v3 V)
theorem val1_arg0 : val1 V (no_index (Proc.devRef .tc main_arg0)) = A0 :=
  (val1_keep V main_arg0 (by decide)).trans (val0_arg0 V)
theorem val1_arg1 : val1 V (no_index (Proc.devRef .tc main_arg1)) = A1 :=
  (val1_keep V main_arg1 (by decide)).trans (val0_arg1 V)
theorem val1_arg2 : val1 V (no_index (Proc.devRef .tc main_arg2)) = A2 :=
  (val1_keep V main_arg2 (by decide)).trans (val0_arg2 V)
theorem val1_arg3 : val1 V (no_index (Proc.devRef .tc main_arg3)) = A3 :=
  (val1_keep V main_arg3 (by decide)).trans (val0_arg3 V)
theorem val1_arg4 : val1 V (no_index (Proc.devRef .tc main_arg4)) = A4 :=
  (val1_keep V main_arg4 (by decide)).trans (val0_arg4 V)
theorem val1_arg5 : val1 V (no_index (Proc.devRef .tc main_arg5)) = A5 :=
  (val1_keep V main_arg5 (by decide)).trans (val0_arg5 V)
theorem val1_arg6 : val1 V (no_index (Proc.devRef .tc main_arg6)) = A6 :=
  (val1_keep V main_arg6 (by decide)).trans (val0_arg6 V)
theorem val1_arg7 : val1 V (no_index (Proc.devRef .tc main_arg7)) = A7 :=
  (val1_keep V main_arg7 (by decide)).trans (val0_arg7 V)
theorem val1_arg8 : val1 V (no_index (Proc.devRef .tc main_arg8)) = A8 :=
  (val1_keep V main_arg8 (by decide)).trans (val0_arg8 V)
theorem val1_arg9 : val1 V (no_index (Proc.devRef .tc main_arg9)) = A9 :=
  (val1_keep V main_arg9 (by decide)).trans (val0_arg9 V)
theorem val1_arg10 : val1 V (no_index (Proc.devRef .tc main_arg10)) = A10 :=
  (val1_keep V main_arg10 (by decide)).trans (val0_arg10 V)

theorem val1_v10 : val1 V (no_index (Proc.devRef .tc main_v10)) = hSrc A0 A1 := by
  unfold val1
  simp only [w1]
  after_results_simp
  simp only [val0_v1, val0_arg0]
  rfl

/-- The buffers stretch `w2` writes, in order. -/
abbrev w2_W : List (Ref sig .tc) :=
  [main_c_1, main_v11, main_v12, main_c_2, main_v13, main_v14, main_v15, main_v16, main_v17]
theorem w2_writes : (w2 : List (HloOp τ sig (Elt F))).Forall fun op =>
    op.writes ⊆ (w2_W.map (Proc.devRef (τ := τ) .tc)).toFinset :=
  ⟨writes_sub_of main_c_1 rfl (by decide),
   writes_sub_of main_v11 rfl (by decide),
   writes_sub_of main_v12 rfl (by decide),
   writes_sub_of main_c_2 rfl (by decide),
   writes_sub_of main_v13 rfl (by decide),
   writes_sub_of main_v14 rfl (by decide),
   writes_sub_of main_v15 rfl (by decide),
   writes_sub_of main_v16 rfl (by decide),
   writes_sub_of main_v17 rfl (by decide)⟩
/-- The buffers' contents after the first 3 stretches. -/
def val2 : Valuation τ sig (Elt F) := after w2 (val1 V)
theorem val2_keep (r : Ref sig .tc) (h : r ∉ w2_W) :
    val2 V (Proc.devRef .tc r) = val1 V (Proc.devRef .tc r) :=
  after_of_writes_sub w2 _ w2_writes h
theorem val2_v10 : val2 V (no_index (Proc.devRef .tc main_v10)) = hSrc A0 A1 :=
  (val2_keep V main_v10 (by decide)).trans (val1_v10 V)
theorem val2_v3 : val2 V (no_index (Proc.devRef .tc main_v3)) = row1 A1 :=
  (val2_keep V main_v3 (by decide)).trans (val1_v3 V)
theorem val2_arg0 : val2 V (no_index (Proc.devRef .tc main_arg0)) = A0 :=
  (val2_keep V main_arg0 (by decide)).trans (val1_arg0 V)
theorem val2_arg1 : val2 V (no_index (Proc.devRef .tc main_arg1)) = A1 :=
  (val2_keep V main_arg1 (by decide)).trans (val1_arg1 V)
theorem val2_arg2 : val2 V (no_index (Proc.devRef .tc main_arg2)) = A2 :=
  (val2_keep V main_arg2 (by decide)).trans (val1_arg2 V)
theorem val2_arg3 : val2 V (no_index (Proc.devRef .tc main_arg3)) = A3 :=
  (val2_keep V main_arg3 (by decide)).trans (val1_arg3 V)
theorem val2_arg4 : val2 V (no_index (Proc.devRef .tc main_arg4)) = A4 :=
  (val2_keep V main_arg4 (by decide)).trans (val1_arg4 V)
theorem val2_arg5 : val2 V (no_index (Proc.devRef .tc main_arg5)) = A5 :=
  (val2_keep V main_arg5 (by decide)).trans (val1_arg5 V)
theorem val2_arg6 : val2 V (no_index (Proc.devRef .tc main_arg6)) = A6 :=
  (val2_keep V main_arg6 (by decide)).trans (val1_arg6 V)
theorem val2_arg7 : val2 V (no_index (Proc.devRef .tc main_arg7)) = A7 :=
  (val2_keep V main_arg7 (by decide)).trans (val1_arg7 V)
theorem val2_arg8 : val2 V (no_index (Proc.devRef .tc main_arg8)) = A8 :=
  (val2_keep V main_arg8 (by decide)).trans (val1_arg8 V)
theorem val2_arg9 : val2 V (no_index (Proc.devRef .tc main_arg9)) = A9 :=
  (val2_keep V main_arg9 (by decide)).trans (val1_arg9 V)
theorem val2_arg10 : val2 V (no_index (Proc.devRef .tc main_arg10)) = A10 :=
  (val2_keep V main_arg10 (by decide)).trans (val1_arg10 V)

theorem val2_v17 : val2 V (no_index (Proc.devRef .tc main_v17)) = hDst A0 A1 := by
  unfold val2
  simp only [w2]
  after_results_simp
  simp only [val1_v3, val1_arg0]
  rfl

/-- The buffers stretch `w3` writes, in order. -/
abbrev w3_W : List (Ref sig .tc) :=
  [main_v18, main_v19, main_v20, main_v21, main_v22, main_v23, main_call0_cst, main_call0_v0, main_v24]
theorem w3_writes : (w3 : List (HloOp τ sig (Elt F))).Forall fun op =>
    op.writes ⊆ (w3_W.map (Proc.devRef (τ := τ) .tc)).toFinset :=
  ⟨writes_sub_of main_v18 rfl (by decide),
   writes_sub_of main_v19 rfl (by decide),
   writes_sub_of main_v20 rfl (by decide),
   writes_sub_of main_v21 rfl (by decide),
   writes_sub_of main_v22 rfl (by decide),
   writes_sub_of main_v23 rfl (by decide),
   writes_sub_of main_call0_cst rfl (by decide),
   writes_sub_of main_call0_v0 rfl (by decide),
   writes_sub_of main_v24 rfl (by decide)⟩
/-- The buffers' contents after the first 4 stretches. -/
def val3 : Valuation τ sig (Elt F) := after w3 (val2 V)
theorem val3_keep (r : Ref sig .tc) (h : r ∉ w3_W) :
    val3 V (Proc.devRef .tc r) = val2 V (Proc.devRef .tc r) :=
  after_of_writes_sub w3 _ w3_writes h
theorem val3_v3 : val3 V (no_index (Proc.devRef .tc main_v3)) = row1 A1 :=
  (val3_keep V main_v3 (by decide)).trans (val2_v3 V)
theorem val3_arg0 : val3 V (no_index (Proc.devRef .tc main_arg0)) = A0 :=
  (val3_keep V main_arg0 (by decide)).trans (val2_arg0 V)
theorem val3_arg1 : val3 V (no_index (Proc.devRef .tc main_arg1)) = A1 :=
  (val3_keep V main_arg1 (by decide)).trans (val2_arg1 V)
theorem val3_arg2 : val3 V (no_index (Proc.devRef .tc main_arg2)) = A2 :=
  (val3_keep V main_arg2 (by decide)).trans (val2_arg2 V)
theorem val3_arg3 : val3 V (no_index (Proc.devRef .tc main_arg3)) = A3 :=
  (val3_keep V main_arg3 (by decide)).trans (val2_arg3 V)
theorem val3_arg4 : val3 V (no_index (Proc.devRef .tc main_arg4)) = A4 :=
  (val3_keep V main_arg4 (by decide)).trans (val2_arg4 V)
theorem val3_arg5 : val3 V (no_index (Proc.devRef .tc main_arg5)) = A5 :=
  (val3_keep V main_arg5 (by decide)).trans (val2_arg5 V)
theorem val3_arg6 : val3 V (no_index (Proc.devRef .tc main_arg6)) = A6 :=
  (val3_keep V main_arg6 (by decide)).trans (val2_arg6 V)
theorem val3_arg7 : val3 V (no_index (Proc.devRef .tc main_arg7)) = A7 :=
  (val3_keep V main_arg7 (by decide)).trans (val2_arg7 V)
theorem val3_arg8 : val3 V (no_index (Proc.devRef .tc main_arg8)) = A8 :=
  (val3_keep V main_arg8 (by decide)).trans (val2_arg8 V)
theorem val3_arg9 : val3 V (no_index (Proc.devRef .tc main_arg9)) = A9 :=
  (val3_keep V main_arg9 (by decide)).trans (val2_arg9 V)
theorem val3_arg10 : val3 V (no_index (Proc.devRef .tc main_arg10)) = A10 :=
  (val3_keep V main_arg10 (by decide)).trans (val2_arg10 V)

theorem val3_v24 : val3 V (no_index (Proc.devRef .tc main_v24)) = hidden A0 A1 A2 A3 A4 := by
  unfold val3
  simp only [w3]
  after_results_simp
  -- the concatenation reads its three operands through a family of references: at the literal positions these are
  -- the references themselves — the second is the stretch's own subtraction, the other two it does not write
  dsimp only [Matrix.cons_val]
  rw [binary_result]
  rw [binary_result_ne]; rotate_left; decide
  rw [binary_result_ne]; rotate_left; decide
  rw [val2_v10, val2_v17, val2_arg2, val2_arg3, val2_arg4]
  rfl

/-- The buffers stretch `w4` writes, in order. -/
abbrev w4_W : List (Ref sig .tc) :=
  [main_v25, main_v26, main_v27, main_v28]
theorem w4_writes : (w4 : List (HloOp τ sig (Elt F))).Forall fun op =>
    op.writes ⊆ (w4_W.map (Proc.devRef (τ := τ) .tc)).toFinset :=
  ⟨writes_sub_of main_v25 rfl (by decide),
   writes_sub_of main_v26 rfl (by decide),
   writes_sub_of main_v27 rfl (by decide),
   writes_sub_of main_v28 rfl (by decide)⟩
/-- The buffers' contents after the first 5 stretches. -/
def val4 : Valuation τ sig (Elt F) := after w4 (val3 V)
theorem val4_keep (r : Ref sig .tc) (h : r ∉ w4_W) :
    val4 V (Proc.devRef .tc r) = val3 V (Proc.devRef .tc r) :=
  after_of_writes_sub w4 _ w4_writes h
theorem val4_v3 : val4 V (no_index (Proc.devRef .tc main_v3)) = row1 A1 :=
  (val4_keep V main_v3 (by decide)).trans (val3_v3 V)
theorem val4_arg0 : val4 V (no_index (Proc.devRef .tc main_arg0)) = A0 :=
  (val4_keep V main_arg0 (by decide)).trans (val3_arg0 V)
theorem val4_arg1 : val4 V (no_index (Proc.devRef .tc main_arg1)) = A1 :=
  (val4_keep V main_arg1 (by decide)).trans (val3_arg1 V)
theorem val4_arg2 : val4 V (no_index (Proc.devRef .tc main_arg2)) = A2 :=
  (val4_keep V main_arg2 (by decide)).trans (val3_arg2 V)
theorem val4_arg3 : val4 V (no_index (Proc.devRef .tc main_arg3)) = A3 :=
  (val4_keep V main_arg3 (by decide)).trans (val3_arg3 V)
theorem val4_arg4 : val4 V (no_index (Proc.devRef .tc main_arg4)) = A4 :=
  (val4_keep V main_arg4 (by decide)).trans (val3_arg4 V)
theorem val4_arg5 : val4 V (no_index (Proc.devRef .tc main_arg5)) = A5 :=
  (val4_keep V main_arg5 (by decide)).trans (val3_arg5 V)
theorem val4_arg6 : val4 V (no_index (Proc.devRef .tc main_arg6)) = A6 :=
  (val4_keep V main_arg6 (by decide)).trans (val3_arg6 V)
theorem val4_arg7 : val4 V (no_index (Proc.devRef .tc main_arg7)) = A7 :=
  (val4_keep V main_arg7 (by decide)).trans (val3_arg7 V)
theorem val4_arg8 : val4 V (no_index (Proc.devRef .tc main_arg8)) = A8 :=
  (val4_keep V main_arg8 (by decide)).trans (val3_arg8 V)
theorem val4_arg9 : val4 V (no_index (Proc.devRef .tc main_arg9)) = A9 :=
  (val4_keep V main_arg9 (by decide)).trans (val3_arg9 V)
theorem val4_arg10 : val4 V (no_index (Proc.devRef .tc main_arg10)) = A10 :=
  (val4_keep V main_arg10 (by decide)).trans (val3_arg10 V)

theorem val4_v28 : val4 V (no_index (Proc.devRef .tc main_v28)) = msgs A0 A1 A2 A3 A4 A5 A6 := by
  unfold val4
  simp only [w4]
  after_results_simp
  simp only [val3_v24, val3_arg5, val3_arg6]
  rfl

/-- The buffers stretch `w5` writes, in order. -/
abbrev w5_W : List (Ref sig .tc) :=
  [main_v29, main_v30, main_v31, main_v32, main_cst, main_call1_cst, main_call1_v0, main_call1_v1, main_call1_v2, main_call1_v3, main_call1_v4, main_v33]
theorem w5_writes : (w5 : List (HloOp τ sig (Elt F))).Forall fun op =>
    op.writes ⊆ (w5_W.map (Proc.devRef (τ := τ) .tc)).toFinset :=
  ⟨writes_sub_of main_v29 rfl (by decide),
   writes_sub_of main_v30 rfl (by decide),
   writes_sub_of main_v31 rfl (by decide),
   writes_sub_of main_v32 rfl (by decide),
   writes_sub_of main_cst rfl (by decide),
   writes_sub_of main_call1_cst rfl (by decide),
   writes_sub_of main_call1_v0 rfl (by decide),
   writes_sub_of main_call1_v1 rfl (by decide),
   writes_sub_of main_call1_v2 rfl (by decide),
   writes_sub_of main_call1_v3 rfl (by decide),
   writes_sub_of main_call1_v4 rfl (by decide),
   writes_sub_of main_v33 rfl (by decide)⟩
/-- The buffers' contents after the first 6 stretches. -/
def val5 : Valuation τ sig (Elt F) := after w5 (val4 V)
theorem val5_keep (r : Ref sig .tc) (h : r ∉ w5_W) :
    val5 V (Proc.devRef .tc r) = val4 V (Proc.devRef .tc r) :=
  after_of_writes_sub w5 _ w5_writes h
theorem val5_v28 : val5 V (no_index (Proc.devRef .tc main_v28)) = msgs A0 A1 A2 A3 A4 A5 A6 :=
  (val5_keep V main_v28 (by decide)).trans (val4_v28 V)
theorem val5_v3 : val5 V (no_index (Proc.devRef .tc main_v3)) = row1 A1 :=
  (val5_keep V main_v3 (by decide)).trans (val4_v3 V)
theorem val5_arg0 : val5 V (no_index (Proc.devRef .tc main_arg0)) = A0 :=
  (val5_keep V main_arg0 (by decide)).trans (val4_arg0 V)
theorem val5_arg1 : val5 V (no_index (Proc.devRef .tc main_arg1)) = A1 :=
  (val5_keep V main_arg1 (by decide)).trans (val4_arg1 V)
theorem val5_arg2 : val5 V (no_index (Proc.devRef .tc main_arg2)) = A2 :=
  (val5_keep V main_arg2 (by decide)).trans (val4_arg2 V)
theorem val5_arg3 : val5 V (no_index (Proc.devRef .tc main_arg3)) = A3 :=
  (val5_keep V main_arg3 (by decide)).trans (val4_arg3 V)
theorem val5_arg4 : val5 V (no_index (Proc.devRef .tc main_arg4)) = A4 :=
  (val5_keep V main_arg4 (by decide)).trans (val4_arg4 V)
theorem val5_arg5 : val5 V (no_index (Proc.devRef .tc main_arg5)) = A5 :=
  (val5_keep V main_arg5 (by decide)).trans (val4_arg5 V)
theorem val5_arg6 : val5 V (no_index (Proc.devRef .tc main_arg6)) = A6 :=
  (val5_keep V main_arg6 (by decide)).trans (val4_arg6 V)
theorem val5_arg7 : val5 V (no_index (Proc.devRef .tc main_arg7)) = A7 :=
  (val5_keep V main_arg7 (by decide)).trans (val4_arg7 V)
theorem val5_arg8 : val5 V (no_index (Proc.devRef .tc main_arg8)) = A8 :=
  (val5_keep V main_arg8 (by decide)).trans (val4_arg8 V)
theorem val5_arg9 : val5 V (no_index (Proc.devRef .tc main_arg9)) = A9 :=
  (val5_keep V main_arg9 (by decide)).trans (val4_arg9 V)
theorem val5_arg10 : val5 V (no_index (Proc.devRef .tc main_arg10)) = A10 :=
  (val5_keep V main_arg10 (by decide)).trans (val4_arg10 V)

theorem val5_v33 : val5 V (no_index (Proc.devRef .tc main_v33)) = score A0 A1 A2 A3 A4 A5 A6 A7 A8 := by
  unfold val5
  simp only [w5]
  after_results_simp
  simp only [val4_v28, val4_arg7, val4_arg8]
  rfl

/-- The buffers stretch `w6` writes, in order. -/
abbrev w6_W : List (Ref sig .tc) :=
  [main_cst_3, main_v34, main_cst_4, main_v35, main_v36, main_v37, main_v38, main_v39, main_v40, main_cst_5, main_v41]
theorem w6_writes : (w6 : List (HloOp τ sig (Elt F))).Forall fun op =>
    op.writes ⊆ (w6_W.map (Proc.devRef (τ := τ) .tc)).toFinset :=
  ⟨writes_sub_of main_cst_3 rfl (by decide),
   writes_sub_of main_v34 rfl (by decide),
   writes_sub_of main_cst_4 rfl (by decide),
   writes_sub_of main_v35 rfl (by decide),
   writes_sub_of main_v36 rfl (by decide),
   writes_sub_of main_v37 rfl (by decide),
   writes_sub_of main_v38 rfl (by decide),
   writes_sub_of main_v39 rfl (by decide),
   writes_sub_of main_v40 rfl (by decide),
   writes_sub_of main_cst_5 rfl (by decide),
   writes_sub_of main_v41 rfl (by decide)⟩
/-- The buffers' contents after the first 7 stretches. -/
def val6 : Valuation τ sig (Elt F) := after w6 (val5 V)
theorem val6_keep (r : Ref sig .tc) (h : r ∉ w6_W) :
    val6 V (Proc.devRef .tc r) = val5 V (Proc.devRef .tc r) :=
  after_of_writes_sub w6 _ w6_writes h
theorem val6_v28 : val6 V (no_index (Proc.devRef .tc main_v28)) = msgs A0 A1 A2 A3 A4 A5 A6 :=
  (val6_keep V main_v28 (by decide)).trans (val5_v28 V)
theorem val6_v3 : val6 V (no_index (Proc.devRef .tc main_v3)) = row1 A1 :=
  (val6_keep V main_v3 (by decide)).trans (val5_v3 V)
theorem val6_arg0 : val6 V (no_index (Proc.devRef .tc main_arg0)) = A0 :=
  (val6_keep V main_arg0 (by decide)).trans (val5_arg0 V)
theorem val6_arg1 : val6 V (no_index (Proc.devRef .tc main_arg1)) = A1 :=
  (val6_keep V main_arg1 (by decide)).trans (val5_arg1 V)
theorem val6_arg2 : val6 V (no_index (Proc.devRef .tc main_arg2)) = A2 :=
  (val6_keep V main_arg2 (by decide)).trans (val5_arg2 V)
theorem val6_arg3 : val6 V (no_index (Proc.devRef .tc main_arg3)) = A3 :=
  (val6_keep V main_arg3 (by decide)).trans (val5_arg3 V)
theorem val6_arg4 : val6 V (no_index (Proc.devRef .tc main_arg4)) = A4 :=
  (val6_keep V main_arg4 (by decide)).trans (val5_arg4 V)
theorem val6_arg5 : val6 V (no_index (Proc.devRef .tc main_arg5)) = A5 :=
  (val6_keep V main_arg5 (by decide)).trans (val5_arg5 V)
theorem val6_arg6 : val6 V (no_index (Proc.devRef .tc main_arg6)) = A6 :=
  (val6_keep V main_arg6 (by decide)).trans (val5_arg6 V)
theorem val6_arg7 : val6 V (no_index (Proc.devRef .tc main_arg7)) = A7 :=
  (val6_keep V main_arg7 (by decide)).trans (val5_arg7 V)
theorem val6_arg8 : val6 V (no_index (Proc.devRef .tc main_arg8)) = A8 :=
  (val6_keep V main_arg8 (by decide)).trans (val5_arg8 V)
theorem val6_arg9 : val6 V (no_index (Proc.devRef .tc main_arg9)) = A9 :=
  (val6_keep V main_arg9 (by decide)).trans (val5_arg9 V)
theorem val6_arg10 : val6 V (no_index (Proc.devRef .tc main_arg10)) = A10 :=
  (val6_keep V main_arg10 (by decide)).trans (val5_arg10 V)

theorem val6_v40 : val6 V (no_index (Proc.devRef .tc main_v40)) = expd A0 A1 A2 A3 A4 A5 A6 A7 A8 := by
  unfold val6
  simp only [w6]
  after_results_simp
  simp only [val5_v33]
  rfl
theorem val6_v41 : val6 V (no_index (Proc.devRef .tc main_v41)) = ssum A0 A1 A2 A3 A4 A5 A6 A7 A8 := by
  unfold val6
  simp only [w6]
  after_results_simp
  simp only [val5_v33]
  rfl

/-- The buffers stretch `w7` writes, in order. -/
abbrev w7_W : List (Ref sig .tc) :=
  [main_v42, main_v43, main_v44, main_cst_6, main_v45, main_v46, main_v47, main_c_7, main_v48, main_v49]
theorem w7_writes : (w7 : List (HloOp τ sig (Elt F))).Forall fun op =>
    op.writes ⊆ (w7_W.map (Proc.devRef (τ := τ) .tc)).toFinset :=
  ⟨writes_sub_of main_v42 rfl (by decide),
   writes_sub_of main_v43 rfl (by decide),
   writes_sub_of main_v44 rfl (by decide),
   writes_sub_of main_cst_6 rfl (by decide),
   writes_sub_of main_v45 rfl (by decide),
   writes_sub_of main_v46 rfl (by decide),
   writes_sub_of main_v47 rfl (by decide),
   writes_sub_of main_c_7 rfl (by decide),
   writes_sub_of main_v48 rfl (by decide),
   writes_sub_of main_v49 rfl (by decide)⟩
/-- The buffers' contents after the first 8 stretches. -/
def val7 : Valuation τ sig (Elt F) := after w7 (val6 V)
theorem val7_keep (r : Ref sig .tc) (h : r ∉ w7_W) :
    val7 V (Proc.devRef .tc r) = val6 V (Proc.devRef .tc r) :=
  after_of_writes_sub w7 _ w7_writes h
theorem val7_v3 : val7 V (no_index (Proc.devRef .tc main_v3)) = row1 A1 :=
  (val7_keep V main_v3 (by decide)).trans (val6_v3 V)
theorem val7_arg0 : val7 V (no_index (Proc.devRef .tc main_arg0)) = A0 :=
  (val7_keep V main_arg0 (by decide)).trans (val6_arg0 V)
theorem val7_arg1 : val7 V (no_index (Proc.devRef .tc main_arg1)) = A1 :=
  (val7_keep V main_arg1 (by decide)).trans (val6_arg1 V)
theorem val7_arg2 : val7 V (no_index (Proc.devRef .tc main_arg2)) = A2 :=
  (val7_keep V main_arg2 (by decide)).trans (val6_arg2 V)
theorem val7_arg3 : val7 V (no_index (Proc.devRef .tc main_arg3)) = A3 :=
  (val7_keep V main_arg3 (by decide)).trans (val6_arg3 V)
theorem val7_arg4 : val7 V (no_index (Proc.devRef .tc main_arg4)) = A4 :=
  (val7_keep V main_arg4 (by decide)).trans (val6_arg4 V)
theorem val7_arg5 : val7 V (no_index (Proc.devRef .tc main_arg5)) = A5 :=
  (val7_keep V main_arg5 (by decide)).trans (val6_arg5 V)
theorem val7_arg6 : val7 V (no_index (Proc.devRef .tc main_arg6)) = A6 :=
  (val7_keep V main_arg6 (by decide)).trans (val6_arg6 V)
theorem val7_arg7 : val7 V (no_index (Proc.devRef .tc main_arg7)) = A7 :=
  (val7_keep V main_arg7 (by decide)).trans (val6_arg7 V)
theorem val7_arg8 : val7 V (no_index (Proc.devRef .tc main_arg8)) = A8 :=
  (val7_keep V main_arg8 (by decide)).trans (val6_arg8 V)
theorem val7_arg9 : val7 V (no_index (Proc.devRef .tc main_arg9)) = A9 :=
  (val7_keep V main_arg9 (by decide)).trans (val6_arg9 V)
theorem val7_arg10 : val7 V (no_index (Proc.devRef .tc main_arg10)) = A10 :=
  (val7_keep V main_arg10 (by decide)).trans (val6_arg10 V)

theorem val7_v47 : val7 V (no_index (Proc.devRef .tc main_v47)) = weighted A0 A1 A2 A3 A4 A5 A6 A7 A8 := by
  unfold val7
  simp only [w7]
  after_results_simp
  simp only [val6_v28, val6_v40, val6_v41]
  rfl
theorem val7_v45 : val7 V (no_index (Proc.devRef .tc main_v45)) = zeros (F := F) := by
  unfold val7
  simp only [w7]
  after_results_simp
  rfl
theorem val7_v49 : val7 V (no_index (Proc.devRef .tc main_v49)) = isNeg (row1 A1) := by
  unfold val7
  simp only [w7]
  after_results_simp
  simp only [val6_v3]
  rfl

/-- The buffers stretch `w8` writes, in order. -/
abbrev w8_W : List (Ref sig .tc) :=
  [main_c_8, main_v50, main_v51, main_v52, main_v53, main_v54, main_v55]
theorem w8_writes : (w8 : List (HloOp τ sig (Elt F))).Forall fun op =>
    op.writes ⊆ (w8_W.map (Proc.devRef (τ := τ) .tc)).toFinset :=
  ⟨writes_sub_of main_c_8 rfl (by decide),
   writes_sub_of main_v50 rfl (by decide),
   writes_sub_of main_v51 rfl (by decide),
   writes_sub_of main_v52 rfl (by decide),
   writes_sub_of main_v53 rfl (by decide),
   writes_sub_of main_v54 rfl (by decide),
   writes_sub_of main_v55 rfl (by decide)⟩
/-- The buffers' contents after the first 9 stretches. -/
def val8 : Valuation τ sig (Elt F) := after w8 (val7 V)
theorem val8_keep (r : Ref sig .tc) (h : r ∉ w8_W) :
    val8 V (Proc.devRef .tc r) = val7 V (Proc.devRef .tc r) :=
  after_of_writes_sub w8 _ w8_writes h
theorem val8_arg0 : val8 V (no_index (Proc.devRef .tc main_arg0)) = A0 :=
  (val8_keep V main_arg0 (by decide)).trans (val7_arg0 V)
theorem val8_arg1 : val8 V (no_index (Proc.devRef .tc main_arg1)) = A1 :=
  (val8_keep V main_arg1 (by decide)).trans (val7_arg1 V)
theorem val8_arg2 : val8 V (no_index (Proc.devRef .tc main_arg2)) = A2 :=
  (val8_keep V main_arg2 (by decide)).trans (val7_arg2 V)
theorem val8_arg3 : val8 V (no_index (Proc.devRef .tc main_arg3)) = A3 :=
  (val8_keep V main_arg3 (by decide)).trans (val7_arg3 V)
theorem val8_arg4 : val8 V (no_index (Proc.devRef .tc main_arg4)) = A4 :=
  (val8_keep V main_arg4 (by decide)).trans (val7_arg4 V)
theorem val8_arg5 : val8 V (no_index (Proc.devRef .tc main_arg5)) = A5 :=
  (val8_keep V main_arg5 (by decide)).trans (val7_arg5 V)
theorem val8_arg6 : val8 V (no_index (Proc.devRef .tc main_arg6)) = A6 :=
  (val8_keep V main_arg6 (by decide)).trans (val7_arg6 V)
theorem val8_arg7 : val8 V (no_index (Proc.devRef .tc main_arg7)) = A7 :=
  (val8_keep V main_arg7 (by decide)).trans (val7_arg7 V)
theorem val8_arg8 : val8 V (no_index (Proc.devRef .tc main_arg8)) = A8 :=
  (val8_keep V main_arg8 (by decide)).trans (val7_arg8 V)
theorem val8_arg9 : val8 V (no_index (Proc.devRef .tc main_arg9)) = A9 :=
  (val8_keep V main_arg9 (by decide)).trans (val7_arg9 V)
theorem val8_arg10 : val8 V (no_index (Proc.devRef .tc main_arg10)) = A10 :=
  (val8_keep V main_arg10 (by decide)).trans (val7_arg10 V)

theorem val8_v55 : val8 V (no_index (Proc.devRef .tc main_v55)) = resid A0 A1 A2 A3 A4 A5 A6 A7 A8 := by
  unfold val8
  simp only [w8]
  after_results_simp
  simp only [val7_v49, val7_v3, val7_v45, val7_v47, val7_arg0]
  rfl

/-- The buffers stretch `w9` writes, in order. -/
abbrev w9_W : List (Ref sig .tc) :=
  [main_cst_9, main_v56, main_v57, main_cst_10, main_v58, main_v59]
theorem w9_writes : (w9 : List (HloOp τ sig (Elt F))).Forall fun op =>
    op.writes ⊆ (w9_W.map (Proc.devRef (τ := τ) .tc)).toFinset :=
  ⟨writes_sub_of main_cst_9 rfl (by decide),
   writes_sub_of main_v56 rfl (by decide),
   writes_sub_of main_v57 rfl (by decide),
   writes_sub_of main_cst_10 rfl (by decide),
   writes_sub_of main_v58 rfl (by decide),
   writes_sub_of main_v59 rfl (by decide)⟩
/-- The buffers' contents after the first 10 stretches. -/
def val9 : Valuation τ sig (Elt F) := after w9 (val8 V)
theorem val9_keep (r : Ref sig .tc) (h : r ∉ w9_W) :
    val9 V (Proc.devRef .tc r) = val8 V (Proc.devRef .tc r) :=
  after_of_writes_sub w9 _ w9_writes h
theorem val9_v55 : val9 V (no_index (Proc.devRef .tc main_v55)) = resid A0 A1 A2 A3 A4 A5 A6 A7 A8 :=
  (val9_keep V main_v55 (by decide)).trans (val8_v55 V)
theorem val9_arg0 : val9 V (no_index (Proc.devRef .tc main_arg0)) = A0 :=
  (val9_keep V main_arg0 (by decide)).trans (val8_arg0 V)
theorem val9_arg1 : val9 V (no_index (Proc.devRef .tc main_arg1)) = A1 :=
  (val9_keep V main_arg1 (by decide)).trans (val8_arg1 V)
theorem val9_arg2 : val9 V (no_index (Proc.devRef .tc main_arg2)) = A2 :=
  (val9_keep V main_arg2 (by decide)).trans (val8_arg2 V)
theorem val9_arg3 : val9 V (no_index (Proc.devRef .tc main_arg3)) = A3 :=
  (val9_keep V main_arg3 (by decide)).trans (val8_arg3 V)
theorem val9_arg4 : val9 V (no_index (Proc.devRef .tc main_arg4)) = A4 :=
  (val9_keep V main_arg4 (by decide)).trans (val8_arg4 V)
theorem val9_arg5 : val9 V (no_index (Proc.devRef .tc main_arg5)) = A5 :=
  (val9_keep V main_arg5 (by decide)).trans (val8_arg5 V)
theorem val9_arg6 : val9 V (no_index (Proc.devRef .tc main_arg6)) = A6 :=
  (val9_keep V main_arg6 (by decide)).trans (val8_arg6 V)
theorem val9_arg7 : val9 V (no_index (Proc.devRef .tc main_arg7)) = A7 :=
  (val9_keep V main_arg7 (by decide)).trans (val8_arg7 V)
theorem val9_arg8 : val9 V (no_index (Proc.devRef .tc main_arg8)) = A8 :=
  (val9_keep V main_arg8 (by decide)).trans (val8_arg8 V)
theorem val9_arg9 : val9 V (no_index (Proc.devRef .tc main_arg9)) = A9 :=
  (val9_keep V main_arg9 (by decide)).trans (val8_arg9 V)
theorem val9_arg10 : val9 V (no_index (Proc.devRef .tc main_arg10)) = A10 :=
  (val9_keep V main_arg10 (by decide)).trans (val8_arg10 V)

theorem val9_v59 : val9 V (no_index (Proc.devRef .tc main_v59)) = mean A0 A1 A2 A3 A4 A5 A6 A7 A8 := by
  unfold val9
  simp only [w9]
  after_results_simp
  simp only [val8_v55]
  rfl

/-- The buffers stretch `w10` writes, in order. -/
abbrev w10_W : List (Ref sig .tc) :=
  [main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v60]
theorem w10_writes : (w10 : List (HloOp τ sig (Elt F))).Forall fun op =>
    op.writes ⊆ (w10_W.map (Proc.devRef (τ := τ) .tc)).toFinset :=
  ⟨writes_sub_of main_c_11 rfl (by decide),
   writes_sub_of main_call2_cst rfl (by decide),
   writes_sub_of main_call2_v0 rfl (by decide),
   writes_sub_of main_call2_v1 rfl (by decide),
   writes_sub_of main_call2_cst_0 rfl (by decide),
   writes_sub_of main_call2_v2 rfl (by decide),
   writes_sub_of main_call2_v3 rfl (by decide),
   writes_sub_of main_call2_v4 rfl (by decide),
   writes_sub_of main_call2_v5 rfl (by decide),
   writes_sub_of main_call2_v6 rfl (by decide),
   writes_sub_of main_call2_v7 rfl (by decide),
   writes_sub_of main_call2_cst_1 rfl (by decide),
   writes_sub_of main_call2_v8 rfl (by decide),
   writes_sub_of main_call2_cst_2 rfl (by decide),
   writes_sub_of main_call2_v9 rfl (by decide),
   writes_sub_of main_call2_v10 rfl (by decide),
   writes_sub_of main_call2_v11 rfl (by decide),
   writes_sub_of main_call2_v12 rfl (by decide),
   writes_sub_of main_call2_cst_3 rfl (by decide),
   writes_sub_of main_call2_v13 rfl (by decide),
   writes_sub_of main_call2_cst_4 rfl (by decide),
   writes_sub_of main_call2_call0_v0 rfl (by decide),
   writes_sub_of main_call2_call0_v1 rfl (by decide),
   writes_sub_of main_v60 rfl (by decide)⟩
/-- The buffers' contents after the first 11 stretches. -/
def val10 : Valuation τ sig (Elt F) := after w10 (val9 V)
theorem val10_keep (r : Ref sig .tc) (h : r ∉ w10_W) :
    val10 V (Proc.devRef .tc r) = val9 V (Proc.devRef .tc r) :=
  after_of_writes_sub w10 _ w10_writes h
theorem val10_v59 : val10 V (no_index (Proc.devRef .tc main_v59)) = mean A0 A1 A2 A3 A4 A5 A6 A7 A8 :=
  (val10_keep V main_v59 (by decide)).trans (val9_v59 V)
theorem val10_v55 : val10 V (no_index (Proc.devRef .tc main_v55)) = resid A0 A1 A2 A3 A4 A5 A6 A7 A8 :=
  (val10_keep V main_v55 (by decide)).trans (val9_v55 V)
theorem val10_arg0 : val10 V (no_index (Proc.devRef .tc main_arg0)) = A0 :=
  (val10_keep V main_arg0 (by decide)).trans (val9_arg0 V)
theorem val10_arg1 : val10 V (no_index (Proc.devRef .tc main_arg1)) = A1 :=
  (val10_keep V main_arg1 (by decide)).trans (val9_arg1 V)
theorem val10_arg2 : val10 V (no_index (Proc.devRef .tc main_arg2)) = A2 :=
  (val10_keep V main_arg2 (by decide)).trans (val9_arg2 V)
theorem val10_arg3 : val10 V (no_index (Proc.devRef .tc main_arg3)) = A3 :=
  (val10_keep V main_arg3 (by decide)).trans (val9_arg3 V)
theorem val10_arg4 : val10 V (no_index (Proc.devRef .tc main_arg4)) = A4 :=
  (val10_keep V main_arg4 (by decide)).trans (val9_arg4 V)
theorem val10_arg5 : val10 V (no_index (Proc.devRef .tc main_arg5)) = A5 :=
  (val10_keep V main_arg5 (by decide)).trans (val9_arg5 V)
theorem val10_arg6 : val10 V (no_index (Proc.devRef .tc main_arg6)) = A6 :=
  (val10_keep V main_arg6 (by decide)).trans (val9_arg6 V)
theorem val10_arg7 : val10 V (no_index (Proc.devRef .tc main_arg7)) = A7 :=
  (val10_keep V main_arg7 (by decide)).trans (val9_arg7 V)
theorem val10_arg8 : val10 V (no_index (Proc.devRef .tc main_arg8)) = A8 :=
  (val10_keep V main_arg8 (by decide)).trans (val9_arg8 V)
theorem val10_arg9 : val10 V (no_index (Proc.devRef .tc main_arg9)) = A9 :=
  (val10_keep V main_arg9 (by decide)).trans (val9_arg9 V)
theorem val10_arg10 : val10 V (no_index (Proc.devRef .tc main_arg10)) = A10 :=
  (val10_keep V main_arg10 (by decide)).trans (val9_arg10 V)

theorem val10_v60 : val10 V (no_index (Proc.devRef .tc main_v60)) = var A0 A1 A2 A3 A4 A5 A6 A7 A8 := by
  unfold val10
  simp only [w10]
  after_results_simp
  simp only [val9_v55]
  rfl

/-- The buffers stretch `w11` writes, in order. -/
abbrev w11_W : List (Ref sig .tc) :=
  [main_v61, main_v62, main_cst_12, main_v63, main_v64, main_v65, main_v66, main_v67, main_v68, main_v69, main_v70, main_v71, main_v72, main_v73]
theorem w11_writes : (w11 : List (HloOp τ sig (Elt F))).Forall fun op =>
    op.writes ⊆ (w11_W.map (Proc.devRef (τ := τ) .tc)).toFinset :=
  ⟨writes_sub_of main_v61 rfl (by decide),
   writes_sub_of main_v62 rfl (by decide),
   writes_sub_of main_cst_12 rfl (by decide),
   writes_sub_of main_v63 rfl (by decide),
   writes_sub_of main_v64 rfl (by decide),
   writes_sub_of main_v65 rfl (by decide),
   writes_sub_of main_v66 rfl (by decide),
   writes_sub_of main_v67 rfl (by decide),
   writes_sub_of main_v68 rfl (by decide),
   writes_sub_of main_v69 rfl (by decide),
   writes_sub_of main_v70 rfl (by decide),
   writes_sub_of main_v71 rfl (by decide),
   writes_sub_of main_v72 rfl (by decide),
   writes_sub_of main_v73 rfl (by decide)⟩
/-- The buffers' contents after the first 12 stretches. -/
def val11 : Valuation τ sig (Elt F) := after w11 (val10 V)
theorem val11_keep (r : Ref sig .tc) (h : r ∉ w11_W) :
    val11 V (Proc.devRef .tc r) = val10 V (Proc.devRef .tc r) :=
  after_of_writes_sub w11 _ w11_writes h
theorem val11_arg0 : val11 V (no_index (Proc.devRef .tc main_arg0)) = A0 :=
  (val11_keep V main_arg0 (by decide)).trans (val10_arg0 V)
theorem val11_arg1 : val11 V (no_index (Proc.devRef .tc main_arg1)) = A1 :=
  (val11_keep V main_arg1 (by decide)).trans (val10_arg1 V)
theorem val11_arg2 : val11 V (no_index (Proc.devRef .tc main_arg2)) = A2 :=
  (val11_keep V main_arg2 (by decide)).trans (val10_arg2 V)
theorem val11_arg3 : val11 V (no_index (Proc.devRef .tc main_arg3)) = A3 :=
  (val11_keep V main_arg3 (by decide)).trans (val10_arg3 V)
theorem val11_arg4 : val11 V (no_index (Proc.devRef .tc main_arg4)) = A4 :=
  (val11_keep V main_arg4 (by decide)).trans (val10_arg4 V)
theorem val11_arg5 : val11 V (no_index (Proc.devRef .tc main_arg5)) = A5 :=
  (val11_keep V main_arg5 (by decide)).trans (val10_arg5 V)
theorem val11_arg6 : val11 V (no_index (Proc.devRef .tc main_arg6)) = A6 :=
  (val11_keep V main_arg6 (by decide)).trans (val10_arg6 V)
theorem val11_arg7 : val11 V (no_index (Proc.devRef .tc main_arg7)) = A7 :=
  (val11_keep V main_arg7 (by decide)).trans (val10_arg7 V)
theorem val11_arg8 : val11 V (no_index (Proc.devRef .tc main_arg8)) = A8 :=
  (val11_keep V main_arg8 (by decide)).trans (val10_arg8 V)
theorem val11_arg9 : val11 V (no_index (Proc.devRef .tc main_arg9)) = A9 :=
  (val11_keep V main_arg9 (by decide)).trans (val10_arg9 V)
theorem val11_arg10 : val11 V (no_index (Proc.devRef .tc main_arg10)) = A10 :=
  (val11_keep V main_arg10 (by decide)).trans (val10_arg10 V)

theorem val11_v73 : val11 V (no_index (Proc.devRef .tc main_v73)) = refOut A0 A1 A2 A3 A4 A5 A6 A7 A8 A9 A10 := by
  unfold val11
  simp only [w11]
  after_results_simp
  simp only [val10_v59, val10_v60, val10_v55, val10_arg9, val10_arg10]
  rfl

end Chain

/-! ## The run -/

/-- The whole line run from `V` is the twelve stretches run in order. -/
theorem after_ops (V : Valuation τ sig (Elt F)) : after ops V = val11 V := by
  simp only [ops, opsP0, opsP1, after_concat]
  rfl

/-- On every device, for any float values, from any memory with zero counters: every weakly fair execution of @main
    terminates with the result buffer at `refOut` of the eleven argument arrays as launched, and those arrays unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73)
          = refOut (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun _ h c =>
      ⟨(h c main_v73).trans (by rw [after_ops]; exact val11_v73 (launchContents m c)),
       (h c main_arg0).trans (by rw [after_ops]; exact val11_arg0 (launchContents m c)),
       (h c main_arg1).trans (by rw [after_ops]; exact val11_arg1 (launchContents m c)),
       (h c main_arg2).trans (by rw [after_ops]; exact val11_arg2 (launchContents m c)),
       (h c main_arg3).trans (by rw [after_ops]; exact val11_arg3 (launchContents m c)),
       (h c main_arg4).trans (by rw [after_ops]; exact val11_arg4 (launchContents m c)),
       (h c main_arg5).trans (by rw [after_ops]; exact val11_arg5 (launchContents m c)),
       (h c main_arg6).trans (by rw [after_ops]; exact val11_arg6 (launchContents m c)),
       (h c main_arg7).trans (by rw [after_ops]; exact val11_arg7 (launchContents m c)),
       (h c main_arg8).trans (by rw [after_ops]; exact val11_arg8 (launchContents m c)),
       (h c main_arg9).trans (by rw [after_ops]; exact val11_arg9 (launchContents m c)),
       (h c main_arg10).trans (by rw [after_ops]; exact val11_arg10 (launchContents m c))⟩)
    (run_seq scopedRefs_eq scopedSems_eq defs main (fun _ => ops) main_eq (fun _ => ops_sub) m ρ (fun _ => ops_fresh))

end Cert.ReferenceIdeal.Hand

end
-- ==== Proof.KI.Host.lean ====
/-
  What the three stretches of host operations leave in the buffers the kernel regions read, as functions of the
  buffers they start from. The first stretch gathers the node rows of every edge's source and destination (an edge
  list's negative entries wrapped by the number of nodes first) and re-lays the three bias vectors as rows; the
  second re-lays the attention bias once more; the third adds every edge's weighted message into its destination's
  row of a zero array and re-lays the scale and the shift as rows.
-/
import proofs.«137429_j68822555951393_1_alg».proof.Proof.Gen.KernelIdeal.Launch
import proofs.«137429_j68822555951393_1_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.SL.Sem StableHlo
open Cert.KernelIdeal Cert.KernelIdeal.Gen

variable {F : FTy → Type} [FloatOps F]

/-- Row `r` of the edge list as a vector of 800000 node numbers. -/
def edgeRow0 (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000
def edgeRow1 (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000
/-- A vector of node numbers with the negative ones wrapped by 50000, as a column. -/
def wrapCol (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- The node rows at a column of node numbers. -/
def rowsAt (a0 : (⟨S50000x128, .f32⟩ : BufTy).Contents (Elt F)) (col : (⟨S800000x1, .i32⟩ : BufTy).Contents (Elt F)) :
    (⟨S800000x128, .f32⟩ : BufTy).Contents (Elt F) :=
  Host.gather gather_S50000x128_S800000x1_S800000x128_1_0_n_n_0_1_1128 a0 col
/-- Every edge's weighted message added into its destination's row of a zero array. -/
def scatterRows (col : (⟨S800000x1, .i32⟩ : BufTy).Contents (Elt F)) (u : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32)) col u

variable (W : Valuation τ sig (Elt F))

/-! ## The first stretch -/

set_option maxHeartbeats 2000000 in
theorem host0_v10 : StableHlo.after hostOps0 W (Proc.devRef .tc main_v10)
    = rowsAt (W (Proc.devRef .tc main_arg0)) (wrapCol (edgeRow0 (W (Proc.devRef .tc main_arg1)))) := by
  after_results; unfold rowsAt wrapCol edgeRow0; rfl
set_option maxHeartbeats 2000000 in
theorem host0_v17 : StableHlo.after hostOps0 W (Proc.devRef .tc main_v17)
    = rowsAt (W (Proc.devRef .tc main_arg0)) (wrapCol (edgeRow1 (W (Proc.devRef .tc main_arg1)))) := by
  after_results; unfold rowsAt wrapCol edgeRow1; rfl
theorem host0_v3 : StableHlo.after hostOps0 W (Proc.devRef .tc main_v3) = edgeRow1 (W (Proc.devRef .tc main_arg1)) := by
  after_results; rfl
theorem host0_v18 : StableHlo.after hostOps0 W (Proc.devRef .tc main_v18)
    = shapeCast S1x128 (W (Proc.devRef .tc main_arg4)) shapeCasts_S128_S1x128 := by
  after_results; rfl
theorem host0_v19 : StableHlo.after hostOps0 W (Proc.devRef .tc main_v19)
    = shapeCast S1x128 (W (Proc.devRef .tc main_arg6)) shapeCasts_S128_S1x128 := by
  after_results; rfl
theorem host0_v20 : StableHlo.after hostOps0 W (Proc.devRef .tc main_v20)
    = shapeCast S1x1 (W (Proc.devRef .tc main_arg8)) shapeCasts_S1_S1x1 := by
  after_results; rfl
/-- The first stretch writes no argument. -/
theorem host0_keep (r : Ref sig .tc) (h : r ∉ hostOps0_W) :
    StableHlo.after hostOps0 W (Proc.devRef .tc r) = W (Proc.devRef .tc r) :=
  StableHlo.after_of_writes_sub hostOps0 _ hostOps0_writes h

/-! ## The second stretch -/

theorem host1_v22 : StableHlo.after hostOps1 W (Proc.devRef .tc main_v22)
    = shapeCast S1x1 (W (Proc.devRef .tc main_arg8)) shapeCasts_S1_S1x1 := by
  after_results; rfl
theorem host1_keep (r : Ref sig .tc) (h : r ∉ hostOps1_W) :
    StableHlo.after hostOps1 W (Proc.devRef .tc r) = W (Proc.devRef .tc r) :=
  StableHlo.after_of_writes_sub hostOps1 _ hostOps1_writes h

/-! ## The third stretch -/

set_option maxHeartbeats 2000000 in
theorem host2_v31 : StableHlo.after hostOps2 W (Proc.devRef .tc main_v31)
    = scatterRows (wrapCol (W (Proc.devRef .tc main_v3))) (W (Proc.devRef .tc main_v23)) := by
  after_results; unfold scatterRows wrapCol; rfl
theorem host2_v32 : StableHlo.after hostOps2 W (Proc.devRef .tc main_v32)
    = shapeCast S1x128 (W (Proc.devRef .tc main_arg9)) shapeCasts_S128_S1x128 := by
  after_results; rfl
theorem host2_v33 : StableHlo.after hostOps2 W (Proc.devRef .tc main_v33)
    = shapeCast S1x128 (W (Proc.devRef .tc main_arg10)) shapeCasts_S128_S1x128 := by
  after_results; rfl
theorem host2_keep (r : Ref sig .tc) (h : r ∉ hostOps2_W) :
    StableHlo.after hostOps2 W (Proc.devRef .tc r) = W (Proc.devRef .tc r) :=
  StableHlo.after_of_writes_sub hostOps2 _ hostOps2_writes h

end Cert.KernelIdeal.Hand

end
-- ==== Proof.KI.Val0.lean ====
import proofs.«137429_j68822555951393_1_alg».proof.Proof.KI.Reg0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # Region 0: the two result arrays after the region, as functions of the entry contents `V`

The statistics pair (window 10) is written back once, after the last point: it ends at `k0_pay7` of the last point's
score vector and mask block and of the pair carried into the last point. The messages (window 9) are written back
block by block, each point its own 4000 rows: row `r` ends at row `r % 4000` of `k0_pay10` of the blocks at point
`r / 4000`. -/

section Region0
variable (V : (c : Dev nD) → (b : Ref sig .tc) → Buf (Elt F) ((c : Thread nD τ).loc b))

/-! ## The statistics pair -/

/-- The last point of the grid. -/
abbrev tl0 : Fin cfg0.N := ⟨199, by rw [show cfg0.N = 200 from N_0]; decide⟩

/-- The statistics pair after the region: the last point's `k0_pay7`, over the pair carried into it. -/
def stat0 (c : Dev nD) : Buf (Elt F) ((c : Thread nD τ).loc main_v21_1) :=
  k0_pay7 (sc0 V c tl0) (iblk0 V c 8 tl0) (carry0 V c tl0.val (Nat.le_of_lt tl0.isLt)).1 (carry0 V c tl0.val (Nat.le_of_lt tl0.isLt)).2

/-- The one write-back of window 10, at the last point, writes it: the window's block is its whole 1×2 array. -/
theorem flushed0_10_eq (c : Dev nD) (t : Fin cfg0.N) (hf : (cfg0.win 10).flush t = true) :
    (dat0 V c).flushed 10 t = ((cfg0.win 10).blk t).view.read (Elt F) (stat0 V c) := by
  have hN : cfg0.N = 200 := N_0
  have h : t.val = 199 := by have := (flush0_10 t).mp hf; have := t.isLt; omega
  obtain rfl : t = tl0 := Fin.ext h
  show (cfg0.win 10).cut (grid0.coords tl0) ((dat0 V c).after 10 tl0) = _
  rw [after0_10]
  have hz' : (fun a => win0_10.index tl0 a * main_v21_1.ty.shape.size a) = fun _ => 0 := funext fun a => by fin_cases a <;> decide
  exact (Memref.read_access_unit_zero (Elt F) main_v21_1 hz' (fun a => by rw [congrFun hz' a]; simp) (stat0 V c)).symm

/-- So the statistics array ends holding it. -/
theorem final0_10 (c : Dev nD) : (dat0 V c).arrAt 10 cfg0.N = stat0 V c :=
  (dat0 V c).arrAt_eq_of_cover 10 (stat0 V c) (flushed0_10_eq V c) fun i =>
    ⟨tl0, (flush0_10 tl0).mpr rfl, by
      show i ∈ ((View.whole main_v21_1).slice (win0_10.rect tl0)).set
      rw [View.set_slice_whole, Rect.mem_set_unit]
      intro a
      have h0 : (i 0 : Nat) < 1 := (i 0).isLt
      have h1 : (i 1 : Nat) < 2 := (i 1).isLt
      match a with
      | ⟨0, _⟩ => show win0_10.index tl0 0 * win0_10.size 0 ≤ (i 0 : Nat) ∧ (i 0 : Nat) < win0_10.index tl0 0 * win0_10.size 0 + win0_10.xsize (grid0.coords tl0) 0
                  rw [show win0_10.index tl0 0 * win0_10.size 0 = 0 from by decide +kernel, show win0_10.xsize (grid0.coords tl0) 0 = 1 from by decide +kernel]; omega
      | ⟨1, _⟩ => show win0_10.index tl0 1 * win0_10.size 1 ≤ (i 1 : Nat) ∧ (i 1 : Nat) < win0_10.index tl0 1 * win0_10.size 1 + win0_10.xsize (grid0.coords tl0) 1
                  rw [show win0_10.index tl0 1 * win0_10.size 1 = 0 from by decide +kernel, show win0_10.xsize (grid0.coords tl0) 1 = 2 from by decide +kernel]; omega⟩

/-! ## The messages -/

/-- The point whose block holds row `i 0` of the messages' array. -/
def pt9 (i : S800000x128.Idx) : Fin cfg0.N :=
  ⟨(i 0).val / 4000, by have h : (i 0).val < 800000 := (i 0).isLt; rw [show cfg0.N = 200 from N_0]; omega⟩

/-- The messages' array after the region: at row `r`, column `l`, the element (`r % 4000`, `l`) of `k0_pay10` of
    blocks 0–6 at point `r / 4000`. -/
def G0 (c : Dev nD) : Buf (Elt F) ((c : Thread nD τ).loc main_v21_0) := fun i =>
  k0_pay10 (iblk0 V c 0 (pt9 i)) (iblk0 V c 1 (pt9 i)) (iblk0 V c 2 (pt9 i)) (iblk0 V c 3 (pt9 i)) (iblk0 V c 4 (pt9 i)) (iblk0 V c 5 (pt9 i)) (iblk0 V c 6 (pt9 i))
    (ix2 (⟨(i 0).val % 4000, Nat.mod_lt _ (by decide)⟩ : Fin 4000) (i 1))

/-- `G0` at an index known by its point and its place in the point's block. -/
theorem G0_apply (c : Dev nD) (e : S800000x128.Idx) (t : Fin cfg0.N) (j : S4000x128.Idx) (ht : pt9 e = t)
    (hj : ix2 (⟨(e 0).val % 4000, Nat.mod_lt _ (by decide)⟩ : Fin 4000) (e 1) = j) :
    G0 V c e = k0_pay10 (iblk0 V c 0 t) (iblk0 V c 1 t) (iblk0 V c 2 t) (iblk0 V c 3 t) (iblk0 V c 4 t) (iblk0 V c 5 t) (iblk0 V c 6 t) j := by
  subst ht; subst hj; rfl

/-- Window 9's printed index map, decided over the grid: block `t` of the rows, the one block of the columns. -/
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- What point `t` writes back is block `t` of `G0`. -/
theorem flushed0_9_eq (c : Dev nD) (t : Fin cfg0.N) :
    (dat0 V c).flushed 9 t = ((cfg0.win 9).blk t).view.read (Elt F) (G0 V c) := by
  show (cfg0.win 9).cut (grid0.coords t) ((dat0 V c).after 9 t) = _
  rw [after0_9]
  obtain ⟨e0, e1⟩ := idx9 t
  funext j
  have hj0 : (j 0).val < 4000 := (j 0).isLt
  show k0_pay10 (iblk0 V c 0 t) (iblk0 V c 1 t) (iblk0 V c 2 t) (iblk0 V c 3 t) (iblk0 V c 4 t) (iblk0 V c 5 t) (iblk0 V c 6 t) j = G0 V c (((cfg0.win 9).blk t).view.emb j)
  have he0 : ((((cfg0.win 9).blk t).view.emb j) 0).val = t.val * 4000 + (j 0).val := by
    show win0_9.index t (0 : Fin 2) * 4000 + 1 * (j 0).val = t.val * 4000 + (j 0).val
    rw [e0]; omega
  have he1 : ((((cfg0.win 9).blk t).view.emb j) 1).val = (j 1).val := by
    show win0_9.index t (1 : Fin 2) * 128 + 1 * (j 1).val = (j 1).val
    rw [e1]; omega
  generalize ((cfg0.win 9).blk t).view.emb j = e at he0 he1
  refine (G0_apply V c e t j (Fin.ext ?_) ?_).symm
  · show (e 0).val / 4000 = t.val
    rw [he0]; omega
  · funext a
    match a with
    | ⟨0, _⟩ => exact Fin.ext (by show (e 0).val % 4000 = (j 0).val; rw [he0]; omega)
    | ⟨1, _⟩ => exact Fin.ext he1

/-- An index of the messages' array is in point `t`'s block iff each coordinate is in the block's range on its axis. -/
theorem mem_blk9 (t : Fin cfg0.N) (i : S800000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v21_0).slice (win0_9.rect t)).set ↔ _
  rw [View.set_slice_whole, Rect.mem_set_unit]
  exact Iff.rfl

/-- So the messages' array ends holding `G0` (the 200 blocks tile its 800000 rows). -/
theorem final0_9 (c : Dev nD) : (dat0 V c).arrAt 9 cfg0.N = G0 V c :=
  (dat0 V c).arrAt_eq_of_cover 9 (G0 V c) (fun t _ => flushed0_9_eq V c t) fun i =>
    ⟨pt9 i, flush0_9 _, by
      rw [mem_blk9]
      obtain ⟨e0, e1⟩ := idx9 (pt9 i)
      have hv : (pt9 i).val = (i 0).val / 4000 := rfl
      have h0 : (i 0).val < 800000 := (i 0).isLt
      have h1 : (i 1).val < 128 := (i 1).isLt
      intro a
      match a with
      | ⟨0, _⟩ => show win0_9.index (pt9 i) (0 : Fin 2) * 4000 ≤ (i 0).val ∧ (i 0).val < win0_9.index (pt9 i) (0 : Fin 2) * 4000 + 4000
                  rw [e0, hv]; omega
      | ⟨1, _⟩ => show win0_9.index (pt9 i) (1 : Fin 2) * 128 ≤ (i 1).val ∧ (i 1).val < win0_9.index (pt9 i) (1 : Fin 2) * 128 + 128
                  rw [e1]; omega⟩

end Region0

end Cert.KernelIdeal.Hand

end
-- ==== Proof.KI.Val1.lean ====
/- The value of region 1's output array after the region, as ONE function of the region-entry contents `V`: the array has
   800000 rows, grid point `t` writes back rows 8000·t … 8000·t + 7999, and what it writes is the stored value of the kernel
   body computed from the four input blocks at `t`. So row `r` of the array is row `r % 8000` of that block value at the
   point `r / 8000`. Generic in the float model. -/
import proofs.«137429_j68822555951393_1_alg».proof.Proof.KI.Reg1
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The function -/

theorem hz1 : (![0, 0] : Fin 2 → Nat) = fun _ => 0 := funext fun a => by fin_cases a <;> rfl

/-- The block value of grid point `t`: the body's stored value computed from the four input blocks at `t`
    (8000 rows of weighted messages). -/
def blockOut1 (c : Dev nD) (t : Fin cfg1.N) : Vec F S8000x128 .f32 :=
  k1_pay1 (iblk1 V c 0 t) (iblk1 V c 2 t) (iblk1 V c 3 t) (iblk1 V c 1 t)

/-- Row `r` of the 800000-row array belongs to grid point `r / 8000`, one of the 100. -/
theorem pt1_lt (i : S800000x128.Idx) : (i 0).val / 8000 < cfg1.N := by
  have h : (i 0).val < 800000 := idx2_lt0 i
  show (i 0).val / 8000 < grid1.N
  rw [N_1]; omega

/-- The output array after the region, index by index: row `r`, column `k` is row `r % 8000`, column `k` of the block
    value at grid point `r / 8000`. -/
def G1 (c : Dev nD) : S800000x128.Idx → Elt F .f32 := fun i =>
  blockOut1 V c ⟨(i 0).val / 8000, pt1_lt i⟩
    (ix2 (⟨(i 0).val % 8000, Nat.mod_lt _ (by decide)⟩ : Fin 8000) (⟨(i 1).val, idx2_lt1 i⟩ : Fin 128))

/-- `G1` at the array index that is row `j 0`, column `j 1` of point `t`'s block. -/
theorem G1_at (c : Dev nD) (t : Fin cfg1.N) (j : S8000x128.Idx) (i : S800000x128.Idx)
    (h0 : (i 0).val = t.val * 8000 + (j 0).val) (h1 : (i 1).val = (j 1).val) :
    G1 V c i = blockOut1 V c t j := by
  unfold G1
  have hj0 : (j 0).val < 8000 := idx2_lt0 j
  have hp : (⟨(i 0).val / 8000, pt1_lt i⟩ : Fin cfg1.N) = t := Fin.ext (by show (i 0).val / 8000 = t.val; omega)
  have hx : ix2 (⟨(i 0).val % 8000, Nat.mod_lt _ (by decide)⟩ : Fin 8000) (⟨(i 1).val, idx2_lt1 i⟩ : Fin 128) = j := by
    funext a
    match a with
    | ⟨0, _⟩ => exact Fin.ext (by show (i 0).val % 8000 = (j 0).val; omega)
    | ⟨1, _⟩ => exact Fin.ext h1
  rw [hp, hx]

/-! ## What a point writes back -/

/-- The output window's block index at point `t`, decided over the 100 points: block `t` on the row axis, block 0 on the
    column axis. -/
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- What grid point `t` writes back to the output array is block `t` of `G1`. -/
theorem flushed1_eq (c : Dev nD) (t : Fin cfg1.N) :
    (dat1 V c).flushed 4 t = ((cfg1.win 4).blk t).view.read (Elt F) (G1 V c) := by
  show (cfg1.win 4).cut (grid1.coords t) ((dat1 V c).after 4 t) = _
  rw [after1_4]
  unfold out1_4
  rw [View.canon_unit_zero hz1]
  simp only [View.ld_unit_zero (S := S8000x128) hz1, View.ld_unit_zero (S := S1x2) hz1,
    View.ld_unit_zero (S := S128x1) hz1, View.ld_unit_zero (S := S1x1) hz1]
  obtain ⟨e0, e1⟩ := idx1_4 t
  funext j
  show blockOut1 V c t j = G1 V c (((cfg1.win 4).blk t).view.emb j)
  refine (G1_at V c t j _ ?_ ?_).symm
  · show win1_4.index t (0 : Fin 2) * 8000 + 1 * (j 0).val = t.val * 8000 + (j 0).val
    rw [e0]; omega
  · show win1_4.index t (1 : Fin 2) * 128 + 1 * (j 1).val = (j 1).val
    rw [e1]; omega

/-! ## The cover, and the array after the region -/

/-- An index of the array is in point `t`'s block iff each coordinate is in the block's range on its axis. -/
theorem mem_blk1 (t : Fin cfg1.N) (i : S800000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v23).slice (win1_4.rect t)).set ↔ _
  rw [View.set_slice_whole, Rect.mem_set_unit]
  exact Iff.rfl

/-- Every index of the array is in the block of the point its row belongs to. -/
theorem cover1 (i : S800000x128.Idx) : ∃ t : Fin cfg1.N, (cfg1.win 4).flush t = true ∧ i ∈ ((cfg1.win 4).blk t).view.set := by
  have hi1 : (i 1).val < 128 := idx2_lt1 i
  refine ⟨⟨(i 0).val / 8000, pt1_lt i⟩, flush1_4 _, ?_⟩
  obtain ⟨e0, e1⟩ := idx1_4 ⟨(i 0).val / 8000, pt1_lt i⟩
  rw [mem_blk1]
  intro a
  match a with
  | ⟨0, _⟩ =>
    show win1_4.index ⟨(i 0).val / 8000, pt1_lt i⟩ (0 : Fin 2) * 8000 ≤ (i 0).val ∧ (i 0).val < win1_4.index ⟨(i 0).val / 8000, pt1_lt i⟩ (0 : Fin 2) * 8000 + 8000
    rw [e0]; show (i 0).val / 8000 * 8000 ≤ (i 0).val ∧ (i 0).val < (i 0).val / 8000 * 8000 + 8000; omega
  | ⟨1, _⟩ =>
    show win1_4.index ⟨(i 0).val / 8000, pt1_lt i⟩ (1 : Fin 2) * 128 ≤ (i 1).val ∧ (i 1).val < win1_4.index ⟨(i 0).val / 8000, pt1_lt i⟩ (1 : Fin 2) * 128 + 128
    rw [e1]; omega

/-- THE ARRAY after the region is `G1`. -/
theorem final1 (c : Dev nD) : (dat1 V c).arrAt 4 cfg1.N = G1 V c :=
  (dat1 V c).arrAt_eq_of_cover 4 (G1 V c) (fun t _ => flushed1_eq V c t) cover1

end Cert.KernelIdeal.Hand

end
-- ==== Proof.KI.Val2.lean ====
/- The value of region 2's output array after the region, as ONE function of the region-entry contents `V`: the array has
   50000 rows, grid point `t` writes back rows 5000·t … 5000·t + 4999, and what it writes is the stored value of the kernel
   body computed from the four input blocks at `t`. So row `r` of the array is row `r % 5000` of that block value at the
   point `r / 5000`. Generic in the float model. -/
import proofs.«137429_j68822555951393_1_alg».proof.Proof.KI.Reg2
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The function -/

theorem hz2 : (![0, 0] : Fin 2 → Nat) = fun _ => 0 := funext fun a => by fin_cases a <;> rfl

/-- The block value of grid point `t`: the body's stored value computed from the four input blocks at `t`
    (5000 rows of normalised node features). -/
def blockOut2 (c : Dev nD) (t : Fin cfg2.N) : Vec F S5000x128 .f32 :=
  k2_pay1 (iblk2 V c 0 t) (iblk2 V c 1 t) (iblk2 V c 2 t) (iblk2 V c 3 t)

/-- Row `r` of the 50000-row array belongs to grid point `r / 5000`, one of the 10. -/
theorem pt2_lt (i : S50000x128.Idx) : (i 0).val / 5000 < cfg2.N := by
  have h : (i 0).val < 50000 := idx2_lt0 i
  show (i 0).val / 5000 < grid2.N
  rw [N_2]; omega

/-- The output array after the region, index by index: row `r`, column `k` is row `r % 5000`, column `k` of the block
    value at grid point `r / 5000`. -/
def G2 (c : Dev nD) : S50000x128.Idx → Elt F .f32 := fun i =>
  blockOut2 V c ⟨(i 0).val / 5000, pt2_lt i⟩
    (ix2 (⟨(i 0).val % 5000, Nat.mod_lt _ (by decide)⟩ : Fin 5000) (⟨(i 1).val, idx2_lt1 i⟩ : Fin 128))

/-- `G2` at the array index that is row `j 0`, column `j 1` of point `t`'s block. -/
theorem G2_at (c : Dev nD) (t : Fin cfg2.N) (j : S5000x128.Idx) (i : S50000x128.Idx)
    (h0 : (i 0).val = t.val * 5000 + (j 0).val) (h1 : (i 1).val = (j 1).val) :
    G2 V c i = blockOut2 V c t j := by
  unfold G2
  have hj0 : (j 0).val < 5000 := idx2_lt0 j
  have hp : (⟨(i 0).val / 5000, pt2_lt i⟩ : Fin cfg2.N) = t := Fin.ext (by show (i 0).val / 5000 = t.val; omega)
  have hx : ix2 (⟨(i 0).val % 5000, Nat.mod_lt _ (by decide)⟩ : Fin 5000) (⟨(i 1).val, idx2_lt1 i⟩ : Fin 128) = j := by
    funext a
    match a with
    | ⟨0, _⟩ => exact Fin.ext (by show (i 0).val % 5000 = (j 0).val; omega)
    | ⟨1, _⟩ => exact Fin.ext h1
  rw [hp, hx]

/-! ## What a point writes back -/

/-- The output window's block index at point `t`, decided over the 10 points: block `t` on the row axis, block 0 on the
    column axis. -/
theorem idx2_4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)

/-- What grid point `t` writes back to the output array is block `t` of `G2`. -/
theorem flushed2_eq (c : Dev nD) (t : Fin cfg2.N) :
    (dat2 V c).flushed 4 t = ((cfg2.win 4).blk t).view.read (Elt F) (G2 V c) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S1x128) hz2]
  obtain ⟨e0, e1⟩ := idx2_4 t
  funext j
  show blockOut2 V c t j = G2 V c (((cfg2.win 4).blk t).view.emb j)
  refine (G2_at V c t j _ ?_ ?_).symm
  · show win2_4.index t (0 : Fin 2) * 5000 + 1 * (j 0).val = t.val * 5000 + (j 0).val
    rw [e0]; omega
  · show win2_4.index t (1 : Fin 2) * 128 + 1 * (j 1).val = (j 1).val
    rw [e1]; omega

/-! ## The cover, and the array after the region -/

/-- An index of the array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v34).slice (win2_4.rect t)).set ↔ _
  rw [View.set_slice_whole, Rect.mem_set_unit]
  exact Iff.rfl

/-- Every index of the array is in the block of the point its row belongs to. -/
theorem cover2 (i : S50000x128.Idx) : ∃ t : Fin cfg2.N, (cfg2.win 4).flush t = true ∧ i ∈ ((cfg2.win 4).blk t).view.set := by
  have hi1 : (i 1).val < 128 := idx2_lt1 i
  refine ⟨⟨(i 0).val / 5000, pt2_lt i⟩, flush2_4 _, ?_⟩
  obtain ⟨e0, e1⟩ := idx2_4 ⟨(i 0).val / 5000, pt2_lt i⟩
  rw [mem_blk2]
  intro a
  match a with
  | ⟨0, _⟩ =>
    show win2_4.index ⟨(i 0).val / 5000, pt2_lt i⟩ (0 : Fin 2) * 5000 ≤ (i 0).val ∧ (i 0).val < win2_4.index ⟨(i 0).val / 5000, pt2_lt i⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, pt2_lt i⟩ (1 : Fin 2) * 128 ≤ (i 1).val ∧ (i 1).val < win2_4.index ⟨(i 0).val / 5000, pt2_lt i⟩ (1 : Fin 2) * 128 + 128
    rw [e1]; omega

/-- THE ARRAY after the region is `G2`. -/
theorem final2 (c : Dev nD) : (dat2 V c).arrAt 4 cfg2.N = G2 V c :=
  (dat2 V c).arrAt_eq_of_cover 4 (G2 V c) (fun t _ => flushed2_eq V c t) cover2

end Cert.KernelIdeal.Hand

end
-- ==== Proof.KI.Chain.lean ====
/-
  What each kernel region is entered with, in terms of the argument arrays and of what the regions before it left:
  region 0 reads the gathered source and destination rows, the edge attributes, the weights and the biases as rows;
  region 1 reads region 0's messages and statistics, the attention weights and bias; region 2 reads the node array,
  the scatter-add of region 1's weighted messages, and the scale and shift as rows.
-/
import proofs.«137429_j68822555951393_1_alg».proof.Proof.KI.Run
import proofs.«137429_j68822555951393_1_alg».proof.Proof.KI.Host
import proofs.«137429_j68822555951393_1_alg».proof.Proof.KI.Val0
import proofs.«137429_j68822555951393_1_alg».proof.Proof.KI.Val1
import proofs.«137429_j68822555951393_1_alg».proof.Proof.KI.Val2

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## Region 0 -/

theorem ent1_v10 : Ent1 m ρ c main_v10 = rowsAt (m ((c : Thread nD τ).loc main_arg0)) (wrapCol (edgeRow0 (m ((c : Thread nD τ).loc main_arg1)))) := host0_v10 (Mem0 m ρ c)
theorem ent1_v17 : Ent1 m ρ c main_v17 = rowsAt (m ((c : Thread nD τ).loc main_arg0)) (wrapCol (edgeRow1 (m ((c : Thread nD τ).loc main_arg1)))) := host0_v17 (Mem0 m ρ c)
theorem ent1_v18 : Ent1 m ρ c main_v18 = shapeCast S1x128 (m ((c : Thread nD τ).loc main_arg4)) shapeCasts_S128_S1x128 := host0_v18 (Mem0 m ρ c)
theorem ent1_v19 : Ent1 m ρ c main_v19 = shapeCast S1x128 (m ((c : Thread nD τ).loc main_arg6)) shapeCasts_S128_S1x128 := host0_v19 (Mem0 m ρ c)
theorem ent1_v20 : Ent1 m ρ c main_v20 = shapeCast S1x1 (m ((c : Thread nD τ).loc main_arg8)) shapeCasts_S1_S1x1 := host0_v20 (Mem0 m ρ c)
theorem ent1_arg2 : Ent1 m ρ c main_arg2 = (m ((c : Thread nD τ).loc main_arg2)) := host0_keep (Mem0 m ρ c) main_arg2 (by decide)
theorem ent1_arg3 : Ent1 m ρ c main_arg3 = (m ((c : Thread nD τ).loc main_arg3)) := host0_keep (Mem0 m ρ c) main_arg3 (by decide)
theorem ent1_arg5 : Ent1 m ρ c main_arg5 = (m ((c : Thread nD τ).loc main_arg5)) := host0_keep (Mem0 m ρ c) main_arg5 (by decide)
theorem ent1_arg7 : Ent1 m ρ c main_arg7 = (m ((c : Thread nD τ).loc main_arg7)) := host0_keep (Mem0 m ρ c) main_arg7 (by decide)

/-! ## Region 1 -/

/-- The messages region 0 leaves. -/
theorem ent3_v21_0 : Ent3 m ρ c main_v21_0 = G0 (Ent1 m ρ) c :=
  (host1_keep (Mem2 m ρ c) main_v21_0 (by decide)).trans ((Mem2_arr m ρ c 9).trans (final0_9 (Ent1 m ρ) c))
/-- The statistics region 0 leaves. -/
theorem ent3_v21_1 : Ent3 m ρ c main_v21_1 = stat0 (Ent1 m ρ) c :=
  (host1_keep (Mem2 m ρ c) main_v21_1 (by decide)).trans ((Mem2_arr m ρ c 10).trans (final0_10 (Ent1 m ρ) c))
theorem ent3_arg7 : Ent3 m ρ c main_arg7 = (m ((c : Thread nD τ).loc main_arg7)) :=
  (host1_keep (Mem2 m ρ c) main_arg7 (by decide)).trans ((Mem2_keep m ρ c main_arg7 (by decide) (by decide)).trans (ent1_arg7 m ρ c))
theorem ent3_v22 : Ent3 m ρ c main_v22 = shapeCast S1x1 (m ((c : Thread nD τ).loc main_arg8)) shapeCasts_S1_S1x1 :=
  (host1_v22 (Mem2 m ρ c)).trans (congrArg (fun x => shapeCast S1x1 x shapeCasts_S1_S1x1)
    ((Mem2_keep m ρ c main_arg8 (by decide) (by decide)).trans (host0_keep (Mem0 m ρ c) main_arg8 (by decide))))

/-! ## Region 2 -/

/-- A buffer no stretch writes and no region before the last has for an output array is, when region 2 is entered,
    as launched. -/
theorem Mem5_of (b : Ref sig .tc) (g0 : b ∉ hostOps0_W) (g1 : b ∉ hostOps1_W) (g2 : b ∉ hostOps2_W)
    (ha : b ≠ main_v21_0) (hb : b ≠ main_v21_1) (hc : b ≠ main_v23) :
    Mem5 m ρ c (Proc.devRef .tc b) = m ((c : Thread nD τ).loc b) :=
  calc Mem5 m ρ c (Proc.devRef .tc b)
    _ = Mem4 m ρ c (Proc.devRef .tc b) := host2_keep (Mem4 m ρ c) b g2
    _ = Mem3 m ρ c (Proc.devRef .tc b) := Mem4_keep m ρ c b hc
    _ = Mem2 m ρ c (Proc.devRef .tc b) := host1_keep (Mem2 m ρ c) b g1
    _ = Mem1 m ρ c (Proc.devRef .tc b) := Mem2_keep m ρ c b ha hb
    _ = Mem0 m ρ c (Proc.devRef .tc b) := host0_keep (Mem0 m ρ c) b g0
    _ = m ((c : Thread nD τ).loc b) := rfl
theorem Mem4_of (b : Ref sig .tc) (g0 : b ∉ hostOps0_W) (g1 : b ∉ hostOps1_W)
    (ha : b ≠ main_v21_0) (hb : b ≠ main_v21_1) (hc : b ≠ main_v23) :
    Mem4 m ρ c (Proc.devRef .tc b) = m ((c : Thread nD τ).loc b) :=
  calc Mem4 m ρ c (Proc.devRef .tc b)
    _ = Mem3 m ρ c (Proc.devRef .tc b) := Mem4_keep m ρ c b hc
    _ = Mem2 m ρ c (Proc.devRef .tc b) := host1_keep (Mem2 m ρ c) b g1
    _ = Mem1 m ρ c (Proc.devRef .tc b) := Mem2_keep m ρ c b ha hb
    _ = Mem0 m ρ c (Proc.devRef .tc b) := host0_keep (Mem0 m ρ c) b g0
    _ = m ((c : Thread nD τ).loc b) := rfl

theorem ent5_arg0 : Ent5 m ρ c main_arg0 = (m ((c : Thread nD τ).loc main_arg0)) :=
  Mem5_of m ρ c main_arg0 (by decide) (by decide) (by decide) (by decide) (by decide) (by decide)
theorem ent5_v32 : Ent5 m ρ c main_v32 = shapeCast S1x128 (m ((c : Thread nD τ).loc main_arg9)) shapeCasts_S128_S1x128 :=
  (host2_v32 (Mem4 m ρ c)).trans (congrArg (fun x => shapeCast S1x128 x shapeCasts_S128_S1x128)
    (Mem4_of m ρ c main_arg9 (by decide) (by decide) (by decide) (by decide) (by decide)))
theorem ent5_v33 : Ent5 m ρ c main_v33 = shapeCast S1x128 (m ((c : Thread nD τ).loc main_arg10)) shapeCasts_S128_S1x128 :=
  (host2_v33 (Mem4 m ρ c)).trans (congrArg (fun x => shapeCast S1x128 x shapeCasts_S128_S1x128)
    (Mem4_of m ρ c main_arg10 (by decide) (by decide) (by decide) (by decide) (by decide)))
/-- The destination row of the edge list, kept since the first stretch wrote it. -/
theorem mem4_v3 : Mem4 m ρ c (Proc.devRef .tc main_v3) = edgeRow1 (m ((c : Thread nD τ).loc main_arg1)) :=
  (Mem4_keep m ρ c main_v3 (by decide)).trans ((host1_keep (Mem2 m ρ c) main_v3 (by decide)).trans
    ((Mem2_keep m ρ c main_v3 (by decide) (by decide)).trans (host0_v3 (Mem0 m ρ c))))
/-- The aggregate: region 1's weighted messages added into their destinations' rows. -/
theorem ent5_v31 : Ent5 m ρ c main_v31 = scatterRows (wrapCol (edgeRow1 (m ((c : Thread nD τ).loc main_arg1)))) (G1 (Ent3 m ρ) c) := by
  refine (host2_v31 (Mem4 m ρ c)).trans ?_
  rw [mem4_v3 m ρ c]
  exact congrArg (scatterRows _) ((Mem4_arr m ρ c 4).trans (final1 (Ent3 m ρ) c))

/-- The result: region 2's output array. -/
theorem result_eq : (dat2 (Ent5 m ρ) c).arrAt 4 cfg2.N = G2 (Ent5 m ρ) c := final2 (Ent5 m ρ) c

end Cert.KernelIdeal.Hand

end
-- ==== Proof.Alg.lean ====
/-
  The algebra behind the two places where the kernel and the reference are written differently.

  1. The softmax normaliser. The reference takes ONE maximum `M` and ONE sum `∑ e, exp (s e - M)` over all edges. The
     kernel walks the edges tile by tile, keeping a running maximum `m` and a running sum `l`: after a tile with
     maximum `μ` and sum `σ = ∑ i, exp (s i - μ)` it holds `m' = max m μ` and `l' = exp (m - m') * l + exp (μ - m') * σ`,
     started from `m = -∞`, `l = 0`. For real scores the two agree: `exp (c - c') * ∑ j, exp (r j - c) = ∑ j, exp (r j - c')`
     moves a sum from one reference point to another, and at the first tile `exp (-∞ - μ) = 0` discards the start.

  2. The layer normalisation's scale. The kernel multiplies by `rsqrt w`, the reference divides by `sqrt w`; on the
     extended reals these agree for every `w > 0`, `+∞` included.
-/
import Idealize.ShloMosaic.PureOps.Ideal

noncomputable section

namespace Cert.Alg

open Idealize.ShloMosaic

/-! ## Finite sums and suprema of reals inside the extended reals -/

/-- The coercion of a finite sum of reals is the sum of the coercions. -/
theorem coe_sum {κ : Type} (J : Finset κ) (f : κ → ℝ) : ((∑ j ∈ J, f j : ℝ) : EReal) = ∑ j ∈ J, (f j : EReal) := by
  classical
  induction J using Finset.induction_on with
  | empty => simp
  | insert a s ha ih => rw [Finset.sum_insert ha, Finset.sum_insert ha, EReal.coe_add, ih]

/-- The coercion of a maximum of two reals is the maximum of the coercions. -/
theorem coe_max (a b : ℝ) : ((max a b : ℝ) : EReal) = max (a : EReal) (b : EReal) :=
  EReal.coe_strictMono.monotone.map_max

/-- The supremum of finitely many reals, at least one, taken in the extended reals is a real. -/
theorem exists_real_sup {κ : Type} (J : Finset κ) (hJ : J.Nonempty) (f : κ → ℝ) :
    ∃ M : ℝ, J.sup (fun j => (f j : EReal)) = M := by
  classical
  induction hJ using Finset.Nonempty.cons_induction with
  | singleton a => exact ⟨f a, by simp⟩
  | cons a s ha hs ih =>
    obtain ⟨M, hM⟩ := ih
    exact ⟨max (f a) M, by rw [Finset.sup_cons, hM, coe_max]⟩

/-- Moving a sum of exponentials from the reference point `c` to the reference point `c'`. -/
theorem shift {κ : Type} (J : Finset κ) (r : κ → ℝ) (c c' : ℝ) :
    Real.exp (c - c') * ∑ j ∈ J, Real.exp (r j - c) = ∑ j ∈ J, Real.exp (r j - c') := by
  rw [Finset.mul_sum]
  refine Finset.sum_congr rfl fun j _ => ?_
  rw [← Real.exp_add]
  congr 1; ring

/-- The same for a sum over two indices. -/
theorem shift2 {κ ι : Type} (J : Finset κ) (I : Finset ι) (r : κ → ι → ℝ) (c c' : ℝ) :
    Real.exp (c - c') * ∑ t ∈ J, ∑ i ∈ I, Real.exp (r t i - c) = ∑ t ∈ J, ∑ i ∈ I, Real.exp (r t i - c') := by
  rw [Finset.mul_sum]
  exact Finset.sum_congr rfl fun t _ => shift I (r t) c c'

/-- The exponential of a difference of reals. -/
theorem exp_sub_coe (a b : ℝ) : Ideal.exp ((a : EReal) - (b : EReal)) = ((Real.exp (a - b) : ℝ) : EReal) := by
  rw [← EReal.coe_sub]; rfl

/-! ## The running maximum and sum -/

section Online

variable {ι : Type} [Fintype ι] [Nonempty ι]

/-- A tile's maximum score. -/
def tmax (s : ι → EReal) : EReal := Finset.univ.sup s
/-- A tile's sum of exponentials about its own maximum. -/
def tsum (s : ι → EReal) : EReal := ∑ i, Ideal.exp (s i - tmax s)
/-- One tile's update of the running pair (maximum, sum). -/
def step (p : EReal × EReal) (s : ι → EReal) : EReal × EReal :=
  (max p.1 (tmax s), Ideal.exp (p.1 - max p.1 (tmax s)) * p.2 + Ideal.exp (tmax s - max p.1 (tmax s)) * tsum s)
/-- The running pair after tiles `0 … n`, from `(-∞, 0)`. -/
def run (s : ℕ → ι → EReal) : ℕ → EReal × EReal
  | 0 => step (⊥, 0) (s 0)
  | n + 1 => step (run s n) (s (n + 1))

theorem tmax_real (r : ι → ℝ) : ∃ M : ℝ, tmax (fun i => (r i : EReal)) = M :=
  exists_real_sup Finset.univ Finset.univ_nonempty r

theorem tsum_real (r : ι → ℝ) (M : ℝ) (hM : tmax (fun i => (r i : EReal)) = M) :
    tsum (fun i => (r i : EReal)) = ((∑ i, Real.exp (r i - M) : ℝ) : EReal) := by
  unfold tsum; rw [hM, coe_sum]
  exact Finset.sum_congr rfl fun i _ => exp_sub_coe _ _

/-- After tiles `0 … n` of real scores the running maximum is the maximum `M` over all of them, a real, and the
    running sum is `∑ exp (r - M)` over all of them. -/
theorem run_spec (r : ℕ → ι → ℝ) (n : ℕ) :
    ∃ M : ℝ, (run (fun t i => (r t i : EReal)) n).1 = M
      ∧ (M : EReal) = (Finset.range (n + 1)).sup (fun t => tmax (fun i => (r t i : EReal)))
      ∧ (run (fun t i => (r t i : EReal)) n).2 = ((∑ t ∈ Finset.range (n + 1), ∑ i, Real.exp (r t i - M) : ℝ) : EReal) := by
  induction n with
  | zero =>
    obtain ⟨M0, h0⟩ := tmax_real (r 0)
    refine ⟨M0, ?_, ?_, ?_⟩
    · show max ⊥ (tmax fun i => (r 0 i : EReal)) = M0
      rw [h0]; exact max_eq_right bot_le
    · rw [Finset.range_one, Finset.sup_singleton, h0]
    · show Ideal.exp (⊥ - max ⊥ (tmax fun i => (r 0 i : EReal))) * 0
          + Ideal.exp ((tmax fun i => (r 0 i : EReal)) - max ⊥ (tmax fun i => (r 0 i : EReal))) * tsum (fun i => (r 0 i : EReal)) = _
      rw [tsum_real (r 0) M0 h0, h0, max_eq_right (bot_le : (⊥ : EReal) ≤ M0), mul_zero, zero_add, exp_sub_coe, sub_self,
        Real.exp_zero, EReal.coe_one, one_mul, Finset.range_one, Finset.sum_singleton]
  | succ n ih =>
    obtain ⟨M, h1, h2, h3⟩ := ih
    obtain ⟨Mt, ht⟩ := tmax_real (r (n + 1))
    refine ⟨max M Mt, ?_, ?_, ?_⟩
    · show max (run (fun t i => (r t i : EReal)) n).1 (tmax fun i => (r (n + 1) i : EReal)) = _
      rw [h1, ht, coe_max]
    · rw [Finset.range_add_one, Finset.sup_insert, ← h2, ht, coe_max, max_comm]
    · show Ideal.exp ((run (fun t i => (r t i : EReal)) n).1 - max (run (fun t i => (r t i : EReal)) n).1 (tmax fun i => (r (n + 1) i : EReal)))
            * (run (fun t i => (r t i : EReal)) n).2
          + Ideal.exp ((tmax fun i => (r (n + 1) i : EReal)) - max (run (fun t i => (r t i : EReal)) n).1 (tmax fun i => (r (n + 1) i : EReal)))
            * tsum (fun i => (r (n + 1) i : EReal)) = _
      rw [h1, h3, tsum_real (r (n + 1)) Mt ht, ht, ← coe_max, exp_sub_coe, exp_sub_coe, ← EReal.coe_mul, ← EReal.coe_mul,
        ← EReal.coe_add, shift, shift2, Finset.sum_range_succ (fun t => ∑ i, Real.exp (r t i - max M Mt)) (n + 1)]

end Online

/-! ## Dividing by a square root is multiplying by the reciprocal square root -/

/-- For `w > 0` (`+∞` included) `d / sqrt w = d * rsqrt w` on the extended reals. -/
theorem div_sqrt_eq_mul_rsqrt (d w : EReal) (hw : 0 < w) : Ideal.div d (Ideal.sqrt w) = d * Ideal.rsqrt w := by
  induction w using EReal.rec with
  | bot => exact absurd hw (not_lt.mpr bot_le)
  | top =>
    rw [Ideal.sqrt_top, Ideal.rsqrt_top, Ideal.div, if_neg EReal.top_ne_zero, EReal.inv_top]
  | coe r =>
    have hr : 0 < r := EReal.coe_pos.mp hw
    have hs : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hs.ne'), EReal.coe_inv]

/-- A square is nonnegative on the extended reals. -/
theorem mul_self_nonneg (x : EReal) : 0 ≤ x * x := by
  rcases le_total 0 x with h | h
  · exact mul_nonneg h h
  · have : x * x = (-x) * (-x) := by rw [neg_mul_neg]
    rw [this]; exact mul_nonneg (EReal.neg_nonneg.mpr h) (EReal.neg_nonneg.mpr h)

end Cert.Alg

end
-- ==== Proof.Spec.lean ====
/-
  The computation both programs perform, written once, row by row, on the extended reals.

  An edge `e` with source row `hs`, destination row `hd` (rows of the node array) and attribute row `ea`:
    input    x    = [hd, hs - hd, ea]                       (320 entries)
    hidden   h k  = max (∑ l, x l * W1 l k + b1 k) 0
    message  μ j  = ∑ k, h k * W2 k j + b2 j
    score    s    = leaky (∑ k, μ k * Wa k + ba)             (slope 0.2 below zero)
  All edges together: M = the maximum score, L = ∑ e, exp (s e - M); edge `e` contributes `μ e j * (exp (s e - M) / L)`
  to its destination node's row. A node's row `v` (its own row plus what its incoming edges contribute) is then
  normalised: with μ₀ = (∑ k, v k) / 128 and σ² = (∑ k, (v k - μ₀)²) / 128, the result is
  `(v j - μ₀) * rsqrt (σ² + ε) * γ j + β j`.

  The float literals are kept as the words the programs print; the same word denotes the same extended real on
  both sides, and only 128 and the sign of ε are ever evaluated.
-/
import Idealize.ShloMosaic.PureOps.Ideal
import proofs.«137429_j68822555951393_1_alg».proof.Proof.Alg

noncomputable section

namespace Cert.Spec

open Idealize.ShloMosaic

/-! ## The literals -/

/-- `128.0`. -/
abbrev w128 : EReal := Ideal.ofBits .f32 0x43000000#32
/-- The layer normalisation's ε (the f32 nearest 1e-5). -/
abbrev wEps : EReal := Ideal.ofBits .f32 0x3727C5AC#32
/-- The leaky slope (the f32 nearest 0.2). -/
abbrev wSlope : EReal := Ideal.ofBits .f32 0x3E4CCCCD#32
/-- `-∞`. -/
abbrev wNegInf : EReal := Ideal.ofBits .f32 0xFF800000#32

theorem w128_eq : w128 = ((128 : ℝ) : EReal) := by
  simp [w128, Ideal.ofBits, Ideal.ieee, -EReal.coe_mul] <;> norm_num
theorem w128_pos : 0 < w128 := by rw [w128_eq]; exact_mod_cast (by norm_num : (0 : ℝ) < 128)
theorem wEps_pos : 0 < wEps := by
  simp [wEps, Ideal.ofBits, Ideal.ieee, -EReal.coe_mul] <;> norm_num
theorem wNegInf_eq : wNegInf = ⊥ := by
  simp [wNegInf, Ideal.ofBits, Ideal.ieee]

/-! ## An edge's row -/

/-- The concatenated input row `[hd, hs - hd, ea]`. -/
def catRow (hd hs : Fin 128 → EReal) (ea : Fin 64 → EReal) : Fin 320 → EReal := fun l =>
  if h : l.val < 128 then hd ⟨l.val, h⟩
  else if h2 : l.val < 256 then hs ⟨l.val - 128, by omega⟩ - hd ⟨l.val - 128, by omega⟩
  else ea ⟨l.val - 256, by omega⟩
/-- The hidden row. -/
def hidRow (x : Fin 320 → EReal) (W1 : Fin 320 → Fin 128 → EReal) (b1 : Fin 128 → EReal) : Fin 128 → EReal :=
  fun k => max (∑ l, x l * W1 l k + b1 k) 0
/-- The message row. -/
def msgRow (h : Fin 128 → EReal) (W2 : Fin 128 → Fin 128 → EReal) (b2 : Fin 128 → EReal) : Fin 128 → EReal :=
  fun j => ∑ k, h k * W2 k j + b2 j
/-- The leaky rectifier as the kernel writes it: the argument where it is above zero, else the slope times it. -/
def leaky (x : EReal) : EReal := if 0 < x then x else wSlope * x
/-- The reference compares with `≥`; at zero both branches give zero. -/
theorem leaky_ge (x : EReal) : (if 0 ≤ x then x else wSlope * x) = leaky x := by
  unfold leaky
  by_cases h : 0 < x
  · rw [if_pos h, if_pos h.le]
  · by_cases h0 : 0 ≤ x
    · have : x = 0 := le_antisymm (not_lt.mp h) h0
      subst this; simp
    · rw [if_neg h, if_neg h0]
/-- The attention score of a message row. -/
def scoreRow (μ Wa : Fin 128 → EReal) (ba : EReal) : EReal := leaky (∑ k, μ k * Wa k + ba)

/-! ## A node's row -/

/-- The mean of a row. -/
def mean (v : Fin 128 → EReal) : EReal := Ideal.div (∑ k, v k) w128
/-- The variance of a row. -/
def var (v : Fin 128 → EReal) : EReal := Ideal.div (∑ k, (v k - mean v) * (v k - mean v)) w128
/-- The normalised row, the kernel's way: times the reciprocal square root. -/
def lnRow (v g b : Fin 128 → EReal) : Fin 128 → EReal :=
  fun j => (v j - mean v) * Ideal.rsqrt (var v + wEps) * g j + b j
/-- The normalised row, the reference's way: divided by the square root. -/
def lnRowRef (v g b : Fin 128 → EReal) : Fin 128 → EReal :=
  fun j => Ideal.div (v j - mean v) (Ideal.sqrt (var v + wEps)) * g j + b j

theorem var_nonneg (v : Fin 128 → EReal) : 0 ≤ var v := by
  unfold var
  rw [w128_eq, Ideal.div_coe (by norm_num : (128 : ℝ) ≠ 0)]
  exact mul_nonneg (Finset.sum_nonneg fun k _ => Cert.Alg.mul_self_nonneg _) (by exact_mod_cast (by norm_num : (0 : ℝ) ≤ 1 / 128))

/-- The two ways agree: the variance is nonnegative and ε positive, so the square root's argument is positive. -/
theorem lnRowRef_eq (v g b : Fin 128 → EReal) : lnRowRef v g b = lnRow v g b := by
  funext j
  unfold lnRowRef lnRow
  rw [Cert.Alg.div_sqrt_eq_mul_rsqrt _ _ (lt_of_lt_of_le wEps_pos (le_add_of_nonneg_left (var_nonneg v)))]

end Cert.Spec

end
-- ==== Proof.KI.Pay0.lean ====
/- The stored values of the message kernel, read at an index, on the extended reals: an edge's message row is the
   two-layer map of its concatenated input row; its raw score is the message row against the attention column; the
   leaky scores of a tile of 4000 edges update the running (maximum, sum) of an online softmax by one step. -/
import proofs.«137429_j68822555951393_1_alg».proof.Proof.Gen.KernelIdeal.Skeleton
import proofs.«137429_j68822555951393_1_alg».proof.Proof.Spec
import proofs.«137429_j68822555951393_1_alg».proof.Proof.Alg
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic
open Idealize.ShloMosaic.ValueIdx
open scoped BigOperators

/-! # The message kernel's stored values, read at an index, on the extended reals -/

/-! ## Scalars -/

/-- A select on "the argument is above zero". -/
theorem select_ogt_zero_if (x a b : EReal) : Scalar.select (Ideal.cmp .ogt x 0) a b = if 0 < x then a else b := by
  unfold Scalar.select Ideal.cmp
  by_cases h : 0 < x <;> simp [h]

/-- The exponential of an array, at an index. -/
theorem vexp_apply {s : Shape} {φ : FTy} (a : FVec Ideal s φ) (i : s.Idx) : exp a i = Ideal.exp (a i) := rfl

/-! ## Layout: one column, one cell -/

section Layout
variable {α : Type}

/-- A one-element array cast to `[1, 1]` reads its element. -/
theorem shapeCast_1_11_apply (x : (⟨1, ![1]⟩ : Shape).Idx → α) (h : (⟨1, ![1]⟩ : Shape).ShapeCasts ⟨2, ![1, 1]⟩)
    (i : Fin 1) (u : Fin 1) : shapeCast ⟨2, ![1, 1]⟩ x h (ix2 i u) = x (ix1 (0 : Fin 1)) :=
  shapeCast_apply x h _ _ (by
    have hu : u.val = 0 := by omega
    have hi : i.val = 0 := by omega
    rw [Shape.rowMajor_val_two, Shape.rowMajor_val_one]
    show (0 : ℕ) = i.val * 1 + u.val
    rw [hu, hi])

end Layout

/-- The maximum over the rows of a one-column array, from the word of `-∞`: the supremum of the column. -/
theorem colMax_apply (x : FVec Ideal S4000x1 .f32) (h : S4000x1.Reduces [0] S1) (hφ : FKind.Formats .f32)
    (hacc : (0xFF800000#32 : BitVec 32) = FKind.maximumf.neutral .f32 hφ) :
    multiReduction .maximumf [0] S1 x 0xFF800000#32 h hφ hacc (ix1 (0 : Fin 1)) = Cert.Alg.tmax (fun p : Fin 4000 => x (ix2 p (0 : Fin 1))) := by
  refine (Ideal.multiReduction_maximumf_single x 0xFF800000#32 h hφ hacc (ix1 (0 : Fin 1))).trans ?_
  have hf : (x ∘ h.lift (ix1 (0 : Fin 1))) = fun p : Fin 4000 => x (ix2 p (0 : Fin 1)) :=
    funext fun k => congrArg x (funext fun c => match c with | ⟨0, _⟩ => Fin.ext rfl | ⟨1, _⟩ => Fin.ext rfl)
  rw [hf]
  show Finset.fold max (Ideal.ofBits .f32 0xFF800000#32) (fun p : Fin 4000 => x (ix2 p (0 : Fin 1))) Finset.univ = _
  rw [show Ideal.ofBits .f32 0xFF800000#32 = (⊥ : EReal) from Cert.Spec.wNegInf_eq]
  rfl

/-- The sum over the rows of a one-column array. -/
theorem colSum_apply (x : FVec Ideal S4000x1 .f32) (h : S4000x1.Reduces [0] S1) (hφ : FKind.Formats .f32)
    (hacc : (0x00000000#32 : BitVec 32) = FKind.add.neutral .f32 hφ) :
    multiReduction .add [0] S1 x 0x00000000#32 h hφ hacc (ix1 (0 : Fin 1)) = ∑ p : Fin 4000, x (ix2 p (0 : Fin 1)) := by
  refine (Ideal.multiReduction_add_single x 0x00000000#32 h hφ hacc (ix1 (0 : Fin 1))).trans ?_
  refine Finset.sum_congr rfl fun k _ => congrArg x (funext fun c => ?_)
  match c with
  | ⟨0, _⟩ => exact Fin.ext rfl
  | ⟨1, _⟩ => exact Fin.ext rfl

/-! ## The scores and the running pair -/

/-- The leaky score of edge `p`: the raw score plus the bias cell, through the leaky rectifier. -/
theorem k0_pay1_apply (v32 : FVec Ideal S4000x1 .f32) (v33 : Vec Ideal S1x1 .f32) (p : Fin 4000) :
    k0_pay1 v32 v33 (ix2 p (0 : Fin 1)) = Cert.Spec.leaky (v32 (ix2 p (0 : Fin 1)) + v33 (ix2 (0 : Fin 1) (0 : Fin 1))) := by
  have hb : broadcastTo S4000x1 (shapeCast S1x1 v33 shapeCasts_S1x1_S1x1) broadcasts_S1x1_S4000x1 (ix2 p (0 : Fin 1)) = v33 (ix2 (0 : Fin 1) (0 : Fin 1)) := by
    rw [broadcastTo_1b_ab_apply _ broadcasts_S1x1_S4000x1 p (0 : Fin 1), shapeCast_self]
  show Scalar.select (Ideal.cmp .ogt (v32 (ix2 p (0 : Fin 1)) + broadcastTo S4000x1 (shapeCast S1x1 v33 shapeCasts_S1x1_S1x1) broadcasts_S1x1_S4000x1 (ix2 p (0 : Fin 1))) (Ideal.ofBits .f32 0x00000000#32))
      (v32 (ix2 p (0 : Fin 1)) + broadcastTo S4000x1 (shapeCast S1x1 v33 shapeCasts_S1x1_S1x1) broadcasts_S1x1_S4000x1 (ix2 p (0 : Fin 1)))
      (Ideal.ofBits .f32 0x3E4CCCCD#32 * (v32 (ix2 p (0 : Fin 1)) + broadcastTo S4000x1 (shapeCast S1x1 v33 shapeCasts_S1x1_S1x1) broadcasts_S1x1_S4000x1 (ix2 p (0 : Fin 1)))) = _
  rw [hb, Ideal.ofBits_zero_f32, select_ogt_zero_if]
  rfl

/-- The tile's maximum score. -/
theorem k0_pay2_apply (v32 : FVec Ideal S4000x1 .f32) (v33 : Vec Ideal S1x1 .f32) :
    k0_pay2 v32 v33 (ix2 (0 : Fin 1) (0 : Fin 1)) = Cert.Alg.tmax (fun p : Fin 4000 => k0_pay1 v32 v33 (ix2 p (0 : Fin 1))) := by
  show shapeCast S1x1 (multiReduction .maximumf [0] S1 (k0_pay1 v32 v33) 0xFF800000#32 reduces_S4000x1_S1 (.inl rfl) rfl) shapeCasts_S1_S1x1 (ix2 (0 : Fin 1) (0 : Fin 1)) = _
  exact (shapeCast_1_11_apply _ shapeCasts_S1_S1x1 0 0).trans (colMax_apply (k0_pay1 v32 v33) reduces_S4000x1_S1 (.inl rfl) rfl)

/-- The tile's sum of exponentials about its own maximum, the body's way. -/
theorem tileSum_apply (v32 : FVec Ideal S4000x1 .f32) (v33 : Vec Ideal S1x1 .f32) :
    shapeCast S1x1 (multiReduction .add [0] S1 (exp (subf (k0_pay1 v32 v33) (broadcastTo S4000x1 (k0_pay2 v32 v33) broadcasts_S1x1_S4000x1))) 0x00000000#32 reduces_S4000x1_S1 (.inl rfl) rfl) shapeCasts_S1_S1x1 (ix2 (0 : Fin 1) (0 : Fin 1))
      = Cert.Alg.tsum (fun p : Fin 4000 => k0_pay1 v32 v33 (ix2 p (0 : Fin 1))) := by
  refine (shapeCast_1_11_apply _ shapeCasts_S1_S1x1 0 0).trans ?_
  refine (colSum_apply _ reduces_S4000x1_S1 (.inl rfl) rfl).trans ?_
  unfold Cert.Alg.tsum
  refine Finset.sum_congr rfl fun p _ => ?_
  show Ideal.exp (k0_pay1 v32 v33 (ix2 p (0 : Fin 1)) - broadcastTo S4000x1 (k0_pay2 v32 v33) broadcasts_S1x1_S4000x1 (ix2 p (0 : Fin 1))) = _
  rw [broadcastTo_1b_ab_apply _ broadcasts_S1x1_S4000x1 p (0 : Fin 1), k0_pay2_apply]

/-- The running sum's update as the body's chain of operations over the named intermediates. -/
theorem k0_pay4_eq (v32 : FVec Ideal S4000x1 .f32) (v33 v49 v50 : Vec Ideal S1x1 .f32) :
    k0_pay4 v32 v33 v49 v50
      = addf (mulf (exp (subf v49 (k0_pay3 v32 v33 v49))) v50)
          (mulf (exp (subf (k0_pay2 v32 v33) (k0_pay3 v32 v33 v49)))
            (shapeCast S1x1 (multiReduction .add [0] S1 (exp (subf (k0_pay1 v32 v33) (broadcastTo S4000x1 (k0_pay2 v32 v33) broadcasts_S1x1_S4000x1))) 0x00000000#32 reduces_S4000x1_S1 (.inl rfl) rfl) shapeCasts_S1_S1x1)) := rfl

/-- One tile's update of the running (maximum, sum). -/
theorem k0_pay34_apply (v32 : FVec Ideal S4000x1 .f32) (v33 v49 v50 : Vec Ideal S1x1 .f32) :
    (k0_pay3 v32 v33 v49 (ix2 (0 : Fin 1) (0 : Fin 1)), k0_pay4 v32 v33 v49 v50 (ix2 (0 : Fin 1) (0 : Fin 1)))
      = Cert.Alg.step (v49 (ix2 (0 : Fin 1) (0 : Fin 1)), v50 (ix2 (0 : Fin 1) (0 : Fin 1))) (fun p : Fin 4000 => k0_pay1 v32 v33 (ix2 p (0 : Fin 1))) := by
  have h3 : k0_pay3 v32 v33 v49 (ix2 (0 : Fin 1) (0 : Fin 1)) = max (v49 (ix2 (0 : Fin 1) (0 : Fin 1))) (Cert.Alg.tmax (fun p : Fin 4000 => k0_pay1 v32 v33 (ix2 p (0 : Fin 1)))) := by
    show max (v49 (ix2 (0 : Fin 1) (0 : Fin 1))) (k0_pay2 v32 v33 (ix2 (0 : Fin 1) (0 : Fin 1))) = _
    rw [k0_pay2_apply]
  rw [k0_pay4_eq, addf_apply, mulf_apply, mulf_apply, vexp_apply, vexp_apply, subf_apply, subf_apply, tileSum_apply, h3, k0_pay2_apply]
  rfl

/-- The two scratch stores carry the pair through casts to its own shape. -/
theorem k0_pay5_eq (v32 : FVec Ideal S4000x1 .f32) (v33 v49 : Vec Ideal S1x1 .f32) : k0_pay5 v32 v33 v49 = k0_pay3 v32 v33 v49 := by
  show shapeCast S1x1 (k0_pay3 v32 v33 v49) shapeCasts_S1x1_S1x1 = _
  rw [shapeCast_self]
theorem k0_pay6_eq (v32 : FVec Ideal S4000x1 .f32) (v33 v49 v50 : Vec Ideal S1x1 .f32) : k0_pay6 v32 v33 v49 v50 = k0_pay4 v32 v33 v49 v50 := by
  show shapeCast S1x1 (k0_pay4 v32 v33 v49 v50) shapeCasts_S1x1_S1x1 = _
  rw [shapeCast_self]

/-- The start of the running pair: `-∞` and `0`. -/
theorem k0_pay8_apply : (k0_pay8 (F := Ideal)) (ix2 (0 : Fin 1) (0 : Fin 1)) = ⊥ := by
  show shapeCast S1x1 (broadcast S1x1 (Ideal.ofBits .f32 0xFF800000#32)) shapeCasts_S1x1_S1x1 (ix2 (0 : Fin 1) (0 : Fin 1)) = ⊥
  rw [shapeCast_self]
  exact Cert.Spec.wNegInf_eq
theorem k0_pay9_apply : (k0_pay9 (F := Ideal)) (ix2 (0 : Fin 1) (0 : Fin 1)) = 0 := by
  show shapeCast S1x1 (broadcast S1x1 (Ideal.ofBits .f32 0x00000000#32)) shapeCasts_S1x1_S1x1 (ix2 (0 : Fin 1) (0 : Fin 1)) = 0
  rw [shapeCast_self]
  exact Ideal.ofBits_zero_f32

/-- The statistics pair is the running pair side by side. -/
theorem k0_pay7_apply_0 (v32 : FVec Ideal S4000x1 .f32) (v33 v49 v50 : Vec Ideal S1x1 .f32) :
    k0_pay7 v32 v33 v49 v50 (ix2 (0 : Fin 1) (0 : Fin 2)) = k0_pay3 v32 v33 v49 (ix2 (0 : Fin 1) (0 : Fin 1)) :=
  concatenate_apply_piece (t := S1x2) (1 : Fin 2) [⟨S1x1, k0_pay3 v32 v33 v49⟩, ⟨S1x1, k0_pay4 v32 v33 v49 v50⟩] concatenates_S1x1_S1x1_S1x2_d1
    (ix2 (0 : Fin 1) (0 : Fin 2)) 0 (by show (0 : ℕ) < 2; omega) S1x1 (k0_pay3 v32 v33 v49) rfl rfl 0 rfl (ix2 (0 : Fin 1) (0 : Fin 1))
    (fun b hb => by match b with | ⟨0, _⟩ => rfl | ⟨1, _⟩ => exact absurd rfl hb) rfl
theorem k0_pay7_apply_1 (v32 : FVec Ideal S4000x1 .f32) (v33 v49 v50 : Vec Ideal S1x1 .f32) :
    k0_pay7 v32 v33 v49 v50 (ix2 (0 : Fin 1) (1 : Fin 2)) = k0_pay4 v32 v33 v49 v50 (ix2 (0 : Fin 1) (0 : Fin 1)) :=
  concatenate_apply_piece (t := S1x2) (1 : Fin 2) [⟨S1x1, k0_pay3 v32 v33 v49⟩, ⟨S1x1, k0_pay4 v32 v33 v49 v50⟩] concatenates_S1x1_S1x1_S1x2_d1
    (ix2 (0 : Fin 1) (1 : Fin 2)) 1 (by show (1 : ℕ) < 2; omega) S1x1 (k0_pay4 v32 v33 v49 v50) rfl rfl 1 rfl (ix2 (0 : Fin 1) (0 : Fin 1))
    (fun b hb => by match b with | ⟨0, _⟩ => rfl | ⟨1, _⟩ => exact absurd rfl hb) rfl

/-! ## The three matrix products -/

/-- The product `[4000, 320] × [320, 128]` into the zero block, read at an index: the sum over the contracted coordinate. -/
theorem matmul_in_apply (A : FVec Ideal S4000x320 .bf16) (B : FVec Ideal S320x128 .bf16) (a : Fin 4000) (b : Fin 128) :
    matmul dot_S4000x320_S320x128_S4000x128_1_0_0_1_n_n none A B (constant (F := Ideal) S4000x128 .f32 0x00000000#32) (ix2 a b) = ∑ c : Fin 320, A (ix2 a c) * B (ix2 c b) := by
  refine (Ideal.matmul_constant_zero_apply dot_S4000x320_S320x128_S4000x128_1_0_0_1_n_n none A B (ix2 a b)).trans ?_
  rw [← Equiv.sum_comp (contrEquiv1 dot_S4000x320_S320x128_S4000x128_1_0_0_1_n_n 320 rfl rfl).symm]
  refine Finset.sum_congr rfl fun c _ => ?_
  have c2 := contrEquiv1_symm_val dot_S4000x320_S320x128_S4000x128_1_0_0_1_n_n 320 rfl rfl c
  have l2 : (dot_S4000x320_S320x128_S4000x128_1_0_0_1_n_n).lhsIdx (ix2 a b) ((contrEquiv1 dot_S4000x320_S320x128_S4000x128_1_0_0_1_n_n 320 rfl rfl).symm c) = ix2 a c := by
    funext ax; apply Fin.ext
    match ax with
    | ⟨0, _⟩ => simp [DotDims.lhsIdx, dot_S4000x320_S320x128_S4000x128_1_0_0_1_n_n] <;> rfl
    | ⟨1, _⟩ => simp [DotDims.lhsIdx, dot_S4000x320_S320x128_S4000x128_1_0_0_1_n_n]; exact c2
  have r2 : (dot_S4000x320_S320x128_S4000x128_1_0_0_1_n_n).rhsIdx (ix2 a b) ((contrEquiv1 dot_S4000x320_S320x128_S4000x128_1_0_0_1_n_n 320 rfl rfl).symm c) = ix2 c b := by
    funext ax; apply Fin.ext
    match ax with
    | ⟨0, _⟩ => simp [DotDims.rhsIdx, dot_S4000x320_S320x128_S4000x128_1_0_0_1_n_n]; exact c2
    | ⟨1, _⟩ => simp [DotDims.rhsIdx, dot_S4000x320_S320x128_S4000x128_1_0_0_1_n_n] <;> rfl
  rw [l2, r2]

/-- The product `[4000, 128] × [128, 128]` into the zero block, read at an index: the sum over the contracted coordinate. -/
theorem matmul_out_apply (A : FVec Ideal S4000x128 .bf16) (B : FVec Ideal S128x128 .bf16) (a : Fin 4000) (b : Fin 128) :
    matmul dot_S4000x128_S128x128_S4000x128_1_0_0_1_n_n none A B (constant (F := Ideal) S4000x128 .f32 0x00000000#32) (ix2 a b) = ∑ c : Fin 128, A (ix2 a c) * B (ix2 c b) := by
  refine (Ideal.matmul_constant_zero_apply dot_S4000x128_S128x128_S4000x128_1_0_0_1_n_n none A B (ix2 a b)).trans ?_
  rw [← Equiv.sum_comp (contrEquiv1 dot_S4000x128_S128x128_S4000x128_1_0_0_1_n_n 128 rfl rfl).symm]
  refine Finset.sum_congr rfl fun c _ => ?_
  have c2 := contrEquiv1_symm_val dot_S4000x128_S128x128_S4000x128_1_0_0_1_n_n 128 rfl rfl c
  have l2 : (dot_S4000x128_S128x128_S4000x128_1_0_0_1_n_n).lhsIdx (ix2 a b) ((contrEquiv1 dot_S4000x128_S128x128_S4000x128_1_0_0_1_n_n 128 rfl rfl).symm c) = ix2 a c := by
    funext ax; apply Fin.ext
    match ax with
    | ⟨0, _⟩ => simp [DotDims.lhsIdx, dot_S4000x128_S128x128_S4000x128_1_0_0_1_n_n] <;> rfl
    | ⟨1, _⟩ => simp [DotDims.lhsIdx, dot_S4000x128_S128x128_S4000x128_1_0_0_1_n_n]; exact c2
  have r2 : (dot_S4000x128_S128x128_S4000x128_1_0_0_1_n_n).rhsIdx (ix2 a b) ((contrEquiv1 dot_S4000x128_S128x128_S4000x128_1_0_0_1_n_n 128 rfl rfl).symm c) = ix2 c b := by
    funext ax; apply Fin.ext
    match ax with
    | ⟨0, _⟩ => simp [DotDims.rhsIdx, dot_S4000x128_S128x128_S4000x128_1_0_0_1_n_n]; exact c2
    | ⟨1, _⟩ => simp [DotDims.rhsIdx, dot_S4000x128_S128x128_S4000x128_1_0_0_1_n_n] <;> rfl
  rw [l2, r2]

/-- The product `[4000, 128] × [128, 1]` into the zero block, read at an index: the sum over the contracted coordinate. -/
theorem matmul_score_apply (A : FVec Ideal S4000x128 .bf16) (B : FVec Ideal S128x1 .bf16) (a : Fin 4000) (b : Fin 1) :
    matmul dot_S4000x128_S128x1_S4000x1_1_0_0_1_n_n none A B (constant (F := Ideal) S4000x1 .f32 0x00000000#32) (ix2 a b) = ∑ c : Fin 128, A (ix2 a c) * B (ix2 c b) := by
  refine (Ideal.matmul_constant_zero_apply dot_S4000x128_S128x1_S4000x1_1_0_0_1_n_n none A B (ix2 a b)).trans ?_
  rw [← Equiv.sum_comp (contrEquiv1 dot_S4000x128_S128x1_S4000x1_1_0_0_1_n_n 128 rfl rfl).symm]
  refine Finset.sum_congr rfl fun c _ => ?_
  have c2 := contrEquiv1_symm_val dot_S4000x128_S128x1_S4000x1_1_0_0_1_n_n 128 rfl rfl c
  have l2 : (dot_S4000x128_S128x1_S4000x1_1_0_0_1_n_n).lhsIdx (ix2 a b) ((contrEquiv1 dot_S4000x128_S128x1_S4000x1_1_0_0_1_n_n 128 rfl rfl).symm c) = ix2 a c := by
    funext ax; apply Fin.ext
    match ax with
    | ⟨0, _⟩ => simp [DotDims.lhsIdx, dot_S4000x128_S128x1_S4000x1_1_0_0_1_n_n] <;> rfl
    | ⟨1, _⟩ => simp [DotDims.lhsIdx, dot_S4000x128_S128x1_S4000x1_1_0_0_1_n_n]; exact c2
  have r2 : (dot_S4000x128_S128x1_S4000x1_1_0_0_1_n_n).rhsIdx (ix2 a b) ((contrEquiv1 dot_S4000x128_S128x1_S4000x1_1_0_0_1_n_n 128 rfl rfl).symm c) = ix2 c b := by
    funext ax; apply Fin.ext
    match ax with
    | ⟨0, _⟩ => simp [DotDims.rhsIdx, dot_S4000x128_S128x1_S4000x1_1_0_0_1_n_n]; exact c2
    | ⟨1, _⟩ => simp [DotDims.rhsIdx, dot_S4000x128_S128x1_S4000x1_1_0_0_1_n_n] <;> rfl
  rw [l2, r2]

/-! ## The message block -/

/-- The three pieces of an edge's input row, in order: the destination row, source minus destination, the attributes. -/
abbrev catL (v3 v5 : Vec Ideal S4000x128 .f32) (v7 : Vec Ideal S4000x64 .f32) : List ((s : Shape) × (s.Idx → Elt Ideal .f32)) :=
  [⟨S4000x128, shapeCast S4000x128 v5 shapeCasts_S4000x128_S4000x128⟩,
   ⟨S4000x128, (subf (shapeCast S4000x128 v3 shapeCasts_S4000x128_S4000x128) (shapeCast S4000x128 v5 shapeCasts_S4000x128_S4000x128) : FVec Ideal S4000x128 .f32)⟩,
   ⟨S4000x64, v7⟩]

/-- The block of concatenated input rows `[hd, hs - hd, ea]`: `v5` holds the destination rows, `v3` the source rows. -/
def cat0 (v3 v5 : Vec Ideal S4000x128 .f32) (v7 : Vec Ideal S4000x64 .f32) : FVec Ideal S4000x320 .f32 :=
  concatenate S4000x320 1 (catL v3 v5 v7) concatenates_S4000x128_S4000x128_S4000x64_S4000x320_d1

/-- The block of hidden rows. -/
def hid0 (x : FVec Ideal S4000x320 .f32) (v10 : Vec Ideal S320x128 .f32) (v14 : Vec Ideal S1x128 .f32) : FVec Ideal S4000x128 .f32 :=
  maximumf (addf (matmul dot_S4000x320_S320x128_S4000x128_1_0_0_1_n_n none (truncf .bf16 x bitsLt_bf16_f32) (truncf .bf16 v10 bitsLt_bf16_f32) (constant S4000x128 .f32 0x00000000#32))
      (broadcastTo S4000x128 (shapeCast S1x128 v14 shapeCasts_S1x128_S1x128) broadcasts_S1x128_S4000x128))
    (broadcast S4000x128 (Scalar.ofBits .f32 0x00000000#32))

/-- The block of message rows. -/
def msg0 (h : FVec Ideal S4000x128 .f32) (v20 : Vec Ideal S128x128 .f32) (v24 : Vec Ideal S1x128 .f32) : FVec Ideal S4000x128 .f32 :=
  addf (matmul dot_S4000x128_S128x128_S4000x128_1_0_0_1_n_n none (truncf .bf16 h bitsLt_bf16_f32) (truncf .bf16 v20 bitsLt_bf16_f32) (constant S4000x128 .f32 0x00000000#32))
    (broadcastTo S4000x128 (shapeCast S1x128 v24 shapeCasts_S1x128_S1x128) broadcasts_S1x128_S4000x128)

theorem k0_pay10_eq (v3 v5 : Vec Ideal S4000x128 .f32) (v7 : Vec Ideal S4000x64 .f32) (v10 : Vec Ideal S320x128 .f32) (v14 : Vec Ideal S1x128 .f32)
    (v20 : Vec Ideal S128x128 .f32) (v24 : Vec Ideal S1x128 .f32) :
    k0_pay10 v3 v5 v7 v10 v14 v20 v24 = msg0 (hid0 (cat0 v3 v5 v7) v10 v14) v20 v24 := rfl

/-- Row `p` of the concatenated block. -/
theorem cat0_apply (v3 v5 : Vec Ideal S4000x128 .f32) (v7 : Vec Ideal S4000x64 .f32) (p : Fin 4000) (l : Fin 320) :
    cat0 v3 v5 v7 (ix2 p l) = Cert.Spec.catRow (fun k => v5 (ix2 p k)) (fun k => v3 (ix2 p k)) (fun k => v7 (ix2 p k)) l := by
  unfold Cert.Spec.catRow
  by_cases h1 : l.val < 128
  · rw [dif_pos h1]
    refine (concatenate_apply_piece (t := S4000x320) (1 : Fin 2) (catL v3 v5 v7) concatenates_S4000x128_S4000x128_S4000x64_S4000x320_d1 (ix2 p l) 0 (by show (0 : ℕ) < 3; omega) S4000x128 _ rfl rfl 0 rfl
      (ix2 p (⟨l.val, h1⟩ : Fin 128)) (fun b hb => by match b with | ⟨0, _⟩ => rfl | ⟨1, _⟩ => exact absurd rfl hb) (by show 0 + l.val = l.val; omega)).trans ?_
    rw [shapeCast_self]
  · rw [dif_neg h1]
    by_cases h2 : l.val < 256
    · rw [dif_pos h2]
      refine (concatenate_apply_piece (t := S4000x320) (1 : Fin 2) (catL v3 v5 v7) concatenates_S4000x128_S4000x128_S4000x64_S4000x320_d1 (ix2 p l) 1 (by show (1 : ℕ) < 3; omega) S4000x128 _ rfl rfl 128 rfl
        (ix2 p (⟨l.val - 128, by omega⟩ : Fin 128)) (fun b hb => by match b with | ⟨0, _⟩ => rfl | ⟨1, _⟩ => exact absurd rfl hb) (by show 128 + (l.val - 128) = l.val; omega)).trans ?_
      show shapeCast S4000x128 v3 shapeCasts_S4000x128_S4000x128 _ - shapeCast S4000x128 v5 shapeCasts_S4000x128_S4000x128 _ = _
      rw [shapeCast_self, shapeCast_self]
    · rw [dif_neg h2]
      have hl : l.val < 320 := l.isLt
      exact concatenate_apply_piece (t := S4000x320) (1 : Fin 2) (catL v3 v5 v7) concatenates_S4000x128_S4000x128_S4000x64_S4000x320_d1 (ix2 p l) 2 (by show (2 : ℕ) < 3; omega) S4000x64 _ rfl rfl 256 rfl
        (ix2 p (⟨l.val - 256, by omega⟩ : Fin 64)) (fun b hb => by match b with | ⟨0, _⟩ => rfl | ⟨1, _⟩ => exact absurd rfl hb) (by show 256 + (l.val - 256) = l.val; omega)

/-- Row `p` of the hidden block. -/
theorem hid0_apply (x : FVec Ideal S4000x320 .f32) (v10 : Vec Ideal S320x128 .f32) (v14 : Vec Ideal S1x128 .f32) (p : Fin 4000) (k : Fin 128) :
    hid0 x v10 v14 (ix2 p k) = Cert.Spec.hidRow (fun l => x (ix2 p l)) (fun l k => v10 (ix2 l k)) (fun k => v14 (ix2 (0 : Fin 1) k)) k := by
  show max (matmul dot_S4000x320_S320x128_S4000x128_1_0_0_1_n_n none (truncf .bf16 x bitsLt_bf16_f32) (truncf .bf16 v10 bitsLt_bf16_f32) (constant (F := Ideal) S4000x128 .f32 0x00000000#32) (ix2 p k)
        + broadcastTo S4000x128 (shapeCast S1x128 v14 shapeCasts_S1x128_S1x128) broadcasts_S1x128_S4000x128 (ix2 p k)) (Ideal.ofBits .f32 0x00000000#32) = _
  rw [matmul_in_apply, broadcastTo_1b_ab_apply _ broadcasts_S1x128_S4000x128 p k, shapeCast_self, Ideal.ofBits_zero_f32]
  rfl

/-- Row `p` of the message block. -/
theorem msg0_apply (h : FVec Ideal S4000x128 .f32) (v20 : Vec Ideal S128x128 .f32) (v24 : Vec Ideal S1x128 .f32) (p : Fin 4000) (j : Fin 128) :
    msg0 h v20 v24 (ix2 p j) = Cert.Spec.msgRow (fun k => h (ix2 p k)) (fun k j => v20 (ix2 k j)) (fun j => v24 (ix2 (0 : Fin 1) j)) j := by
  show matmul dot_S4000x128_S128x128_S4000x128_1_0_0_1_n_n none (truncf .bf16 h bitsLt_bf16_f32) (truncf .bf16 v20 bitsLt_bf16_f32) (constant (F := Ideal) S4000x128 .f32 0x00000000#32) (ix2 p j)
        + broadcastTo S4000x128 (shapeCast S1x128 v24 shapeCasts_S1x128_S1x128) broadcasts_S1x128_S4000x128 (ix2 p j) = _
  rw [matmul_out_apply, broadcastTo_1b_ab_apply _ broadcasts_S1x128_S4000x128 p j, shapeCast_self]
  rfl

/-- THE MESSAGE of edge `p`, lane `j`. -/
theorem k0_pay10_apply (v3 v5 : Vec Ideal S4000x128 .f32) (v7 : Vec Ideal S4000x64 .f32) (v10 : Vec Ideal S320x128 .f32) (v14 : Vec Ideal S1x128 .f32)
    (v20 : Vec Ideal S128x128 .f32) (v24 : Vec Ideal S1x128 .f32) (p : Fin 4000) (j : Fin 128) :
    k0_pay10 v3 v5 v7 v10 v14 v20 v24 (ix2 p j)
      = Cert.Spec.msgRow (Cert.Spec.hidRow (Cert.Spec.catRow (fun k => v5 (ix2 p k)) (fun k => v3 (ix2 p k)) (fun k => v7 (ix2 p k)))
          (fun l k => v10 (ix2 l k)) (fun k => v14 (ix2 (0 : Fin 1) k))) (fun k j => v20 (ix2 k j)) (fun j => v24 (ix2 (0 : Fin 1) j)) j := by
  rw [k0_pay10_eq, msg0_apply]
  have hh : (fun k => hid0 (cat0 v3 v5 v7) v10 v14 (ix2 p k))
      = Cert.Spec.hidRow (Cert.Spec.catRow (fun k => v5 (ix2 p k)) (fun k => v3 (ix2 p k)) (fun k => v7 (ix2 p k))) (fun l k => v10 (ix2 l k)) (fun k => v14 (ix2 (0 : Fin 1) k)) := by
    funext k
    rw [hid0_apply]
    have hc : (fun l => cat0 v3 v5 v7 (ix2 p l)) = Cert.Spec.catRow (fun k => v5 (ix2 p k)) (fun k => v3 (ix2 p k)) (fun k => v7 (ix2 p k)) :=
      funext fun l => cat0_apply v3 v5 v7 p l
    rw [hc]
  rw [hh]

/-- THE RAW SCORE of edge `p`: its message row against the attention column. -/
theorem k0_pay11_apply (v3 v5 : Vec Ideal S4000x128 .f32) (v7 : Vec Ideal S4000x64 .f32) (v10 : Vec Ideal S320x128 .f32) (v14 : Vec Ideal S1x128 .f32)
    (v20 : Vec Ideal S128x128 .f32) (v24 : Vec Ideal S1x128 .f32) (v29 : Vec Ideal S128x1 .f32) (p : Fin 4000) :
    k0_pay11 v3 v5 v7 v10 v14 v20 v24 v29 (ix2 p (0 : Fin 1))
      = ∑ k : Fin 128, k0_pay10 v3 v5 v7 v10 v14 v20 v24 (ix2 p k) * v29 (ix2 k (0 : Fin 1)) := by
  show matmul dot_S4000x128_S128x1_S4000x1_1_0_0_1_n_n none (truncf .bf16 (k0_pay10 v3 v5 v7 v10 v14 v20 v24) bitsLt_bf16_f32) (truncf .bf16 v29 bitsLt_bf16_f32) (constant (F := Ideal) S4000x1 .f32 0x00000000#32) (ix2 p (0 : Fin 1)) = _
  rw [matmul_score_apply]
  rfl

end Cert.KernelIdeal.Hand

end
-- ==== Proof.KI.Out0.lean ====
import proofs.«137429_j68822555951393_1_alg».proof.Proof.KI.Val0
import proofs.«137429_j68822555951393_1_alg».proof.Proof.KI.Pay0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

/-! # Region 0 on the extended reals: the messages and the softmax statistics as functions of the entry arrays

The entry contents `V` are read at their index types: source rows `main_v10`, destination rows `main_v17`, edge
attributes `main_arg2`, the two layers' weights and biases `main_arg3`, `main_v18`, `main_arg5`, `main_v19`, the
attention column `main_arg7` and its bias cell `main_v20`. -/

section Region0
variable (V : (c : Dev nD) → (b : Ref sig .tc) → Buf (Elt Ideal) ((c : Thread nD τ).loc b))

/-! ## The entry arrays at their index types -/

abbrev HS0 (c : Dev nD) : S800000x128.Idx → EReal := V c main_v10
abbrev HD0 (c : Dev nD) : S800000x128.Idx → EReal := V c main_v17
abbrev EA0 (c : Dev nD) : S800000x64.Idx → EReal := V c main_arg2
abbrev W10 (c : Dev nD) : S320x128.Idx → EReal := V c main_arg3
abbrev B10 (c : Dev nD) : S1x128.Idx → EReal := V c main_v18
abbrev W20 (c : Dev nD) : S128x128.Idx → EReal := V c main_arg5
abbrev B20 (c : Dev nD) : S1x128.Idx → EReal := V c main_v19
abbrev WA0 (c : Dev nD) : S128x1.Idx → EReal := V c main_arg7
abbrev BA0 (c : Dev nD) : S1x1.Idx → EReal := V c main_v20

/-! ## Each input block, read where its rectangle says -/

/-- The input windows' printed index maps, decided over the grid: windows 0–2 move with the point along the rows, windows 3–8
    stay on their one block. -/
theorem idxIn : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0)

/-- Block `t` of window 0 is rows `4000 t …` of its array. -/
theorem iblk0_0_apply (c : Dev nD) (t : Fin cfg0.N) (p : Fin 4000) (k : Fin 128) :
    iblk0 V c 0 t (ix2 p k) = HS0 V c (ix2 (⟨4000 * t.val + p.val, by have := t.isLt; have hN : cfg0.N = 200 := N_0; have := p.isLt; omega⟩ : Fin 800000) k) := by
  obtain ⟨i0a, i0b, i1a, i1b, i2a, i2b, i3a, i3b, i4a, i4b, i5a, i5b, i6a, i6b, i7a, i7b, i8a, i8b⟩ := idxIn t
  unfold iblk0
  rw [View.read_apply]
  show V c main_v10 _ = V c main_v10 _
  congr 1
  funext a
  apply Fin.ext
  match a with
  | ⟨0, _⟩ => show win0_0.index t (0 : Fin 2) * 4000 + 1 * p.val = 4000 * t.val + p.val; rw [i0a]; omega
  | ⟨1, _⟩ => show win0_0.index t (1 : Fin 2) * 128 + 1 * k.val = k.val; rw [i0b]; omega

/-- Block `t` of window 1 is rows `4000 t …` of its array. -/
theorem iblk0_1_apply (c : Dev nD) (t : Fin cfg0.N) (p : Fin 4000) (k : Fin 128) :
    iblk0 V c 1 t (ix2 p k) = HD0 V c (ix2 (⟨4000 * t.val + p.val, by have := t.isLt; have hN : cfg0.N = 200 := N_0; have := p.isLt; omega⟩ : Fin 800000) k) := by
  obtain ⟨i0a, i0b, i1a, i1b, i2a, i2b, i3a, i3b, i4a, i4b, i5a, i5b, i6a, i6b, i7a, i7b, i8a, i8b⟩ := idxIn t
  unfold iblk0
  rw [View.read_apply]
  show V c main_v17 _ = V c main_v17 _
  congr 1
  funext a
  apply Fin.ext
  match a with
  | ⟨0, _⟩ => show win0_1.index t (0 : Fin 2) * 4000 + 1 * p.val = 4000 * t.val + p.val; rw [i1a]; omega
  | ⟨1, _⟩ => show win0_1.index t (1 : Fin 2) * 128 + 1 * k.val = k.val; rw [i1b]; omega

/-- Block `t` of window 2 is rows `4000 t …` of its array. -/
theorem iblk0_2_apply (c : Dev nD) (t : Fin cfg0.N) (p : Fin 4000) (k : Fin 64) :
    iblk0 V c 2 t (ix2 p k) = EA0 V c (ix2 (⟨4000 * t.val + p.val, by have := t.isLt; have hN : cfg0.N = 200 := N_0; have := p.isLt; omega⟩ : Fin 800000) k) := by
  obtain ⟨i0a, i0b, i1a, i1b, i2a, i2b, i3a, i3b, i4a, i4b, i5a, i5b, i6a, i6b, i7a, i7b, i8a, i8b⟩ := idxIn t
  unfold iblk0
  rw [View.read_apply]
  show V c main_arg2 _ = V c main_arg2 _
  congr 1
  funext a
  apply Fin.ext
  match a with
  | ⟨0, _⟩ => show win0_2.index t (0 : Fin 2) * 4000 + 1 * p.val = 4000 * t.val + p.val; rw [i2a]; omega
  | ⟨1, _⟩ => show win0_2.index t (1 : Fin 2) * 64 + 1 * k.val = k.val; rw [i2b]; omega

/-- Window 3's one block is its whole array. -/
theorem iblk0_3_apply (c : Dev nD) (t : Fin cfg0.N) (p : Fin 320) (k : Fin 128) :
    iblk0 V c 3 t (ix2 p k) = W10 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_arg3 _ = V c main_arg3 _
  congr 1
  funext a
  apply Fin.ext
  match a with
  | ⟨0, _⟩ => show win0_3.index t (0 : Fin 2) * 320 + 1 * p.val = p.val; rw [i3a]; omega
  | ⟨1, _⟩ => show win0_3.index t (1 : Fin 2) * 128 + 1 * k.val = k.val; rw [i3b]; omega

/-- Window 4's one block is its whole array. -/
theorem iblk0_4_apply (c : Dev nD) (t : Fin cfg0.N) (p : Fin 1) (k : Fin 128) :
    iblk0 V c 4 t (ix2 p k) = B10 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_v18 _ = V c main_v18 _
  congr 1
  funext a
  apply Fin.ext
  match a with
  | ⟨0, _⟩ => show win0_4.index t (0 : Fin 2) * 1 + 1 * p.val = p.val; rw [i4a]; omega
  | ⟨1, _⟩ => show win0_4.index t (1 : Fin 2) * 128 + 1 * k.val = k.val; rw [i4b]; omega

/-- Window 5's one block is its whole array. -/
theorem iblk0_5_apply (c : Dev nD) (t : Fin cfg0.N) (p : Fin 128) (k : Fin 128) :
    iblk0 V c 5 t (ix2 p k) = W20 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_arg5 _ = V c main_arg5 _
  congr 1
  funext a
  apply Fin.ext
  match a with
  | ⟨0, _⟩ => show win0_5.index t (0 : Fin 2) * 128 + 1 * p.val = p.val; rw [i5a]; omega
  | ⟨1, _⟩ => show win0_5.index t (1 : Fin 2) * 128 + 1 * k.val = k.val; rw [i5b]; omega

/-- Window 6's one block is its whole array. -/
theorem iblk0_6_apply (c : Dev nD) (t : Fin cfg0.N) (p : Fin 1) (k : Fin 128) :
    iblk0 V c 6 t (ix2 p k) = B20 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_v19 _ = V c main_v19 _
  congr 1
  funext a
  apply Fin.ext
  match a with
  | ⟨0, _⟩ => show win0_6.index t (0 : Fin 2) * 1 + 1 * p.val = p.val; rw [i6a]; omega
  | ⟨1, _⟩ => show win0_6.index t (1 : Fin 2) * 128 + 1 * k.val = k.val; rw [i6b]; omega

/-- Window 7's one block is its whole array. -/
theorem iblk0_7_apply (c : Dev nD) (t : Fin cfg0.N) (p : Fin 128) (k : Fin 1) :
    iblk0 V c 7 t (ix2 p k) = WA0 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_arg7 _ = V c main_arg7 _
  congr 1
  funext a
  apply Fin.ext
  match a with
  | ⟨0, _⟩ => show win0_7.index t (0 : Fin 2) * 128 + 1 * p.val = p.val; rw [i7a]; omega
  | ⟨1, _⟩ => show win0_7.index t (1 : Fin 2) * 1 + 1 * k.val = k.val; rw [i7b]; omega

/-- Window 8's one block is its whole array. -/
theorem iblk0_8_apply (c : Dev nD) (t : Fin cfg0.N) (p : Fin 1) (k : Fin 1) :
    iblk0 V c 8 t (ix2 p k) = BA0 V c (ix2 p k) := by
  obtain ⟨i0a, i0b, i1a, i1b, i2a, i2b, i3a, i3b, i4a, i4b, i5a, i5b, i6a, i6b, i7a, i7b, i8a, i8b⟩ := idxIn t
  unfold iblk0
  rw [View.read_apply]
  show V c main_v20 _ = V c main_v20 _
  congr 1
  funext a
  apply Fin.ext
  match a with
  | ⟨0, _⟩ => show win0_8.index t (0 : Fin 2) * 1 + 1 * p.val = p.val; rw [i8a]; omega
  | ⟨1, _⟩ => show win0_8.index t (1 : Fin 2) * 1 + 1 * k.val = k.val; rw [i8b]; omega

/-! ## The messages -/

/-- THE MESSAGES after the region: row `e` is the message row of edge `e`. -/
theorem G0_spec (c : Dev nD) (e : Fin 800000) (j : Fin 128) :
    G0 V c (ix2 e j) = Cert.Spec.msgRow (Cert.Spec.hidRow (Cert.Spec.catRow (fun k => HD0 V c (ix2 e k)) (fun k => HS0 V c (ix2 e k)) (fun k => EA0 V c (ix2 e k)))
          (fun l k => W10 V c (ix2 l k)) (fun k => B10 V c (ix2 (0 : Fin 1) k))) (fun k j => W20 V c (ix2 k j)) (fun j => B20 V c (ix2 (0 : Fin 1) j)) j := by
  have he : e.val < 800000 := e.isLt
  have hN : cfg0.N = 200 := N_0
  let t : Fin cfg0.N := ⟨e.val / 4000, by rw [hN]; omega⟩
  let p : Fin 4000 := ⟨e.val % 4000, Nat.mod_lt _ (by decide)⟩
  have hG : G0 V c (ix2 e j) = k0_pay10 (iblk0 V c 0 t) (iblk0 V c 1 t) (iblk0 V c 2 t) (iblk0 V c 3 t) (iblk0 V c 4 t) (iblk0 V c 5 t) (iblk0 V c 6 t) (ix2 p j) :=
    G0_apply V c (ix2 e j) t (ix2 p j) rfl rfl
  rw [hG, k0_pay10_apply]
  have hrow : (⟨4000 * t.val + p.val, by have := t.isLt; have := p.isLt; omega⟩ : Fin 800000) = e :=
    Fin.ext (by show 4000 * (e.val / 4000) + e.val % 4000 = e.val; omega)
  simp only [iblk0_0_apply, iblk0_1_apply, iblk0_2_apply, iblk0_3_apply, iblk0_4_apply, iblk0_5_apply, iblk0_6_apply, hrow]

/-! ## The scores -/

/-- The leaky score of edge `4000 t + p`, from the messages' array; zero past the grid. -/
def scoreK (c : Dev nD) : ℕ → Fin 4000 → EReal := fun t p =>
  if h : t < 200 then
    Cert.Spec.scoreRow (fun k => G0 V c (ix2 (⟨4000 * t + p.val, by have := p.isLt; omega⟩ : Fin 800000) k)) (fun k => WA0 V c (ix2 k (0 : Fin 1))) (BA0 V c (ix2 (0 : Fin 1) (0 : Fin 1)))
  else 0

/-- The body's leaky scores at point `t` are those. -/
theorem score_apply (c : Dev nD) (t : Fin cfg0.N) (p : Fin 4000) :
    k0_pay1 (sc0 V c t) (iblk0 V c 8 t) (ix2 p (0 : Fin 1)) = scoreK V c t.val p := by
  have hN : cfg0.N = 200 := N_0
  have ht : t.val < 200 := by have := t.isLt; omega
  rw [k0_pay1_apply]
  unfold scoreK Cert.Spec.scoreRow sc0
  rw [dif_pos ht, k0_pay11_apply, iblk0_8_apply]
  refine congrArg (fun s => Cert.Spec.leaky (s + BA0 V c (ix2 (0 : Fin 1) (0 : Fin 1)))) ?_
  refine Finset.sum_congr rfl fun k _ => ?_
  rw [iblk0_7_apply]
  refine congrArg (· * WA0 V c (ix2 k (0 : Fin 1))) ?_
  have hp : p.val < 4000 := p.isLt
  exact (G0_apply V c (ix2 (⟨4000 * t.val + p.val, by omega⟩ : Fin 800000) k) t (ix2 p k)
    (Fin.ext (by show (4000 * t.val + p.val) / 4000 = t.val; omega))
    (by funext a; match a with
        | ⟨0, _⟩ => exact Fin.ext (by show (4000 * t.val + p.val) % 4000 = p.val; omega)
        | ⟨1, _⟩ => rfl)).symm

/-! ## The running pair and the statistics -/

/-- After point `n` the scratch cells hold the running (maximum, sum) over the tiles `0 … n`. -/
theorem carry0_run (c : Dev nD) : ∀ (n : ℕ) (hn : n + 1 ≤ cfg0.N),
    ((carry0 V c (n + 1) hn).1 (ix2 (0 : Fin 1) (0 : Fin 1)), (carry0 V c (n + 1) hn).2 (ix2 (0 : Fin 1) (0 : Fin 1))) = Cert.Alg.run (scoreK V c) n
  | 0, hn => by
    rw [carry0_succ, carry0_zero]
    dsimp only
    rw [show Cert.Alg.run (scoreK V c) 0 = Cert.Alg.step (⊥, 0) (scoreK V c 0) from rfl, k0_pay5_eq, k0_pay6_eq, k0_pay34_apply,
      k0_pay8_apply, k0_pay9_apply]
    exact congrArg (Cert.Alg.step (⊥, 0)) (funext fun p => score_apply V c ⟨0, Nat.lt_of_succ_le hn⟩ p)
  | n + 1, hn => by
    have ih := carry0_run c n (Nat.le_of_succ_le hn)
    rw [carry0_succ]
    dsimp only
    rw [show Cert.Alg.run (scoreK V c) (n + 1) = Cert.Alg.step (Cert.Alg.run (scoreK V c) n) (scoreK V c (n + 1)) from rfl, k0_pay5_eq, k0_pay6_eq,
      k0_pay34_apply, ← ih]
    exact congrArg (Cert.Alg.step _) (funext fun p => score_apply V c ⟨n + 1, Nat.lt_of_succ_le hn⟩ p)

/-- The statistics after the region: the running (maximum, sum) over all 200 tiles. -/
theorem stat0_pair (c : Dev nD) :
    stat0 V c (ix2 (0 : Fin 1) (0 : Fin 2)) = (Cert.Alg.run (scoreK V c) 199).1
      ∧ stat0 V c (ix2 (0 : Fin 1) (1 : Fin 2)) = (Cert.Alg.run (scoreK V c) 199).2 := by
  have hN : cfg0.N = 200 := N_0
  have h200 : 199 + 1 ≤ cfg0.N := by rw [hN]
  have hr : Cert.Alg.run (scoreK V c) 199 = Cert.Alg.step (Cert.Alg.run (scoreK V c) 198) (scoreK V c 199) := rfl
  have ih := carry0_run V c 198 (by rw [hN]; omega)
  have hs : (k0_pay3 (sc0 V c tl0) (iblk0 V c 8 tl0) (carry0 V c tl0.val (Nat.le_of_lt tl0.isLt)).1 (ix2 (0 : Fin 1) (0 : Fin 1)),
      k0_pay4 (sc0 V c tl0) (iblk0 V c 8 tl0) (carry0 V c tl0.val (Nat.le_of_lt tl0.isLt)).1 (carry0 V c tl0.val (Nat.le_of_lt tl0.isLt)).2 (ix2 (0 : Fin 1) (0 : Fin 1)))
      = Cert.Alg.run (scoreK V c) 199 := by
    rw [hr, k0_pay34_apply, ← ih]
    exact congrArg _ (funext fun p => score_apply V c tl0 p)
  unfold stat0
  rw [k0_pay7_apply_0, k0_pay7_apply_1, ← hs]
  exact ⟨rfl, rfl⟩

/-- THE RUNNING MAXIMUM after the region. -/
theorem stat0_fst (c : Dev nD) : stat0 V c (ix2 (0 : Fin 1) (0 : Fin 2)) = (Cert.Alg.run (scoreK V c) 199).1 := (stat0_pair V c).1
/-- THE RUNNING SUM after the region. -/
theorem stat0_snd (c : Dev nD) : stat0 V c (ix2 (0 : Fin 1) (1 : Fin 2)) = (Cert.Alg.run (scoreK V c) 199).2 := (stat0_pair V c).2

end Region0

end Cert.KernelIdeal.Hand

end
-- ==== Proof.KI.Layout.lean ====
/- Three facts about array layout at literal ranks, and a lane sum on the extended reals, used by both kernels' stored
   values: a vector kept as a one-column array, a one-column array spread over the lanes, and the sum of a row. -/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic
open Idealize.ShloMosaic.ValueIdx

/-! ## Three layout facts at literal ranks -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of an `[a, b]` array of extended reals, read at row `p`: the sum of the row. -/
theorem laneSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun c => ?_)
  match c with
  | ⟨0, _⟩ => exact Fin.ext rfl
  | ⟨1, _⟩ => exact Fin.ext rfl

end Cert.KernelIdeal.Hand

end
-- ==== Proof.KI.Pay1.lean ====
/- The stored value of the weighting kernel, read at an index, on the extended reals: row `p` of the block value is the
   message row `p` times its softmax weight `exp (s p - M) / L`, where `s p` is the row's attention score (the leaky
   rectifier of `∑ k, msg p k * Wa k + ba`) and `M`, `L` are the two statistics the kernel is handed.
   The body computes the scores of all rows as a one-column matrix product and spreads the weight over the 128 lanes. -/
import proofs.«137429_j68822555951393_1_alg».proof.Proof.Gen.KernelIdeal.Skeleton
import proofs.«137429_j68822555951393_1_alg».proof.Proof.Spec
import proofs.«137429_j68822555951393_1_alg».proof.Proof.KI.Layout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic
open Idealize.ShloMosaic.ValueIdx

/-! ## The non-pointwise operations at an index -/

/-- The kernel's product of an 8000×128 by a 128×1 matrix into a zero accumulator, read at row `p`: the sum over the 128
    contracted coordinates of the products of the entries. -/
theorem matmul1_apply {φ₁ φ₂ : FTy} (A : FVec Ideal S8000x128 φ₁) (B : FVec Ideal S128x1 φ₂) (p : Fin 8000) (u : Fin 1) :
    matmul dot_S8000x128_S128x1_S8000x1_1_0_0_1_n_n none A B (constant (F := Ideal) S8000x1 .f32 0x00000000#32) (ix2 p u)
      = ∑ k : Fin 128, A (ix2 p k) * B (ix2 k u) := by
  show FloatOps.matmul dot_S8000x128_S128x1_S8000x1_1_0_0_1_n_n none A B (constant (F := Ideal) S8000x1 .f32 0x00000000#32) (ix2 p u) = _
  rw [Ideal.matmul_constant_zero_apply,
    ← Equiv.sum_comp (contrEquiv1 dot_S8000x128_S128x1_S8000x1_1_0_0_1_n_n 128 rfl rfl).symm]
  refine Finset.sum_congr rfl fun c _ => ?_
  have c2 := contrEquiv1_symm_val dot_S8000x128_S128x1_S8000x1_1_0_0_1_n_n 128 rfl rfl c
  have l2 : dot_S8000x128_S128x1_S8000x1_1_0_0_1_n_n.lhsIdx (ix2 p u) ((contrEquiv1 _ 128 rfl rfl).symm c) = ix2 p c := by
    funext ax; apply Fin.ext
    match ax with
    | ⟨0, _⟩ => simp [DotDims.lhsIdx, dot_S8000x128_S128x1_S8000x1_1_0_0_1_n_n] <;> rfl
    | ⟨1, _⟩ => simp [DotDims.lhsIdx, dot_S8000x128_S128x1_S8000x1_1_0_0_1_n_n] <;> exact c2
  have r2 : dot_S8000x128_S128x1_S8000x1_1_0_0_1_n_n.rhsIdx (ix2 p u) ((contrEquiv1 _ 128 rfl rfl).symm c) = ix2 c u := by
    funext ax; apply Fin.ext
    match ax with
    | ⟨0, _⟩ => simp [DotDims.rhsIdx, dot_S8000x128_S128x1_S8000x1_1_0_0_1_n_n] <;> exact c2
    | ⟨1, _⟩ => simp [DotDims.rhsIdx, dot_S8000x128_S128x1_S8000x1_1_0_0_1_n_n] <;> rfl
  rw [l2, r2]

/-- The first entry of the 1×2 statistics, sliced out as a 1×1 array. -/
theorem stat1_fst (x : S1x2.Idx → EReal) :
    extractStridedSlice S1x1 ![0, 0] x slices_S1x2_o0_0_S1x1 (ix2 (0 : Fin 1) (0 : Fin 1)) = x (ix2 (0 : Fin 1) (0 : Fin 2)) :=
  extractStridedSlice_apply ![0, 0] x slices_S1x2_o0_0_S1x1 _ _ fun a => by
    match a with
    | ⟨0, _⟩ => rfl
    | ⟨1, _⟩ => rfl

/-- The second entry. -/
theorem stat1_snd (x : S1x2.Idx → EReal) :
    extractStridedSlice S1x1 ![0, 1] x slices_S1x2_o0_1_S1x1 (ix2 (0 : Fin 1) (0 : Fin 1)) = x (ix2 (0 : Fin 1) (1 : Fin 2)) :=
  extractStridedSlice_apply ![0, 1] x slices_S1x2_o0_1_S1x1 _ _ fun a => by
    match a with
    | ⟨0, _⟩ => rfl
    | ⟨1, _⟩ => rfl

/-- The kernel's rectifier, `select (x > 0) x (0.2 · x)`, is the specification's. -/
theorem select_ogt_zero (s : EReal) :
    Scalar.select (Ideal.cmp .ogt s (Ideal.ofBits .f32 0x00000000#32)) s (Ideal.ofBits .f32 0x3E4CCCCD#32 * s) = Cert.Spec.leaky s := by
  rw [Ideal.ofBits_zero_f32]
  unfold Cert.Spec.leaky Scalar.select Ideal.cmp
  by_cases h : (0 : EReal) < s
  · have hb : BitVec.ofBool (decide ((0 : EReal) < s)) = 1#1 := by rw [decide_eq_true h]; rfl
    rw [if_pos h]; exact if_pos hb
  · have hb : ¬ BitVec.ofBool (decide ((0 : EReal) < s)) = 1#1 := by rw [decide_eq_false h]; decide
    rw [if_neg h]; exact if_neg hb

/-! ## The body's intermediate arrays -/

/-- The column of raw scores `∑ k, msg p k * Wa k + ba` (both operands of the product pass through a rounding to a shorter
    format, which is the identity on the extended reals). -/
def rawCol1 (m : FVec Ideal S8000x128 .f32) (v2 : Vec Ideal S128x1 .f32) (v6 : Vec Ideal S1x1 .f32) : FVec Ideal S8000x1 .f32 :=
  addf (matmul dot_S8000x128_S128x1_S8000x1_1_0_0_1_n_n none (truncf .bf16 m bitsLt_bf16_f32) (truncf .bf16 v2 bitsLt_bf16_f32)
      (constant S8000x1 .f32 0x00000000#32))
    (broadcastTo S8000x1 (shapeCast S1x1 v6 shapeCasts_S1x1_S1x1) broadcasts_S1x1_S8000x1)

/-- The column of scores: the rectifier of the raw scores. -/
def scoreCol1 (m : FVec Ideal S8000x128 .f32) (v2 : Vec Ideal S128x1 .f32) (v6 : Vec Ideal S1x1 .f32) : FVec Ideal S8000x1 .f32 :=
  select (cmpf .ogt (rawCol1 m v2 v6) (broadcast S8000x1 (Scalar.ofBits .f32 0x00000000#32))) (rawCol1 m v2 v6)
    (mulf (broadcast S8000x1 (Scalar.ofBits .f32 0x3E4CCCCD#32)) (rawCol1 m v2 v6))

theorem rawCol1_apply (m : FVec Ideal S8000x128 .f32) (v2 : Vec Ideal S128x1 .f32) (v6 : Vec Ideal S1x1 .f32) (p : Fin 8000) :
    rawCol1 m v2 v6 (ix2 p (0 : Fin 1))
      = ∑ k : Fin 128, m (ix2 p k) * v2 (ix2 k (0 : Fin 1)) + v6 (ix2 (0 : Fin 1) (0 : Fin 1)) := by
  show matmul dot_S8000x128_S128x1_S8000x1_1_0_0_1_n_n none (truncf .bf16 m bitsLt_bf16_f32) (truncf .bf16 v2 bitsLt_bf16_f32)
        (constant (F := Ideal) S8000x1 .f32 0x00000000#32) (ix2 p (0 : Fin 1))
      + broadcastTo S8000x1 (shapeCast S1x1 v6 shapeCasts_S1x1_S1x1) broadcasts_S1x1_S8000x1 (ix2 p (0 : Fin 1)) = _
  rw [matmul1_apply, broadcastTo_1b_ab_apply _ broadcasts_S1x1_S8000x1 p (0 : Fin 1), shapeCast_self]
  rfl

theorem scoreCol1_apply (m : FVec Ideal S8000x128 .f32) (v2 : Vec Ideal S128x1 .f32) (v6 : Vec Ideal S1x1 .f32) (p : Fin 8000) :
    scoreCol1 m v2 v6 (ix2 p (0 : Fin 1))
      = Cert.Spec.scoreRow (fun k => m (ix2 p k)) (fun k => v2 (ix2 k (0 : Fin 1))) (v6 (ix2 (0 : Fin 1) (0 : Fin 1))) := by
  show Scalar.select (Ideal.cmp .ogt (rawCol1 m v2 v6 (ix2 p (0 : Fin 1))) (Ideal.ofBits .f32 0x00000000#32)) (rawCol1 m v2 v6 (ix2 p (0 : Fin 1)))
      (Ideal.ofBits .f32 0x3E4CCCCD#32 * rawCol1 m v2 v6 (ix2 p (0 : Fin 1))) = _
  rw [select_ogt_zero, rawCol1_apply]
  rfl

/-! ## The stored value at an index -/

/-- The message block as the body uses it (a cast to its own shape). -/
def msg1 (v0 : Vec Ideal S8000x128 .f32) : FVec Ideal S8000x128 .f32 := shapeCast S8000x128 v0 shapeCasts_S8000x128_S8000x128

theorem msg1_eq (v0 : Vec Ideal S8000x128 .f32) : msg1 v0 = v0 := shapeCast_self _ _

/-- The stored value is the body's chain of operations over those intermediates. -/
theorem k1_pay1_eq (v0 : Vec Ideal S8000x128 .f32) (v2 : Vec Ideal S128x1 .f32) (v6 : Vec Ideal S1x1 .f32) (v15 : Vec Ideal S1x2 .f32) :
    k1_pay1 v0 v2 v6 v15
      = mulf (msg1 v0) (broadcastTo S8000x128
          (divf (exp (subf (scoreCol1 (msg1 v0) v2 v6)
              (broadcastTo S8000x1 (extractStridedSlice S1x1 ![0, 0] (shapeCast S1x2 v15 shapeCasts_S1x2_S1x2) slices_S1x2_o0_0_S1x1) broadcasts_S1x1_S8000x1)))
            (broadcastTo S8000x1 (extractStridedSlice S1x1 ![0, 1] (shapeCast S1x2 v15 shapeCasts_S1x2_S1x2) slices_S1x2_o0_1_S1x1) broadcasts_S1x1_S8000x1))
          broadcasts_S8000x1_S8000x128) := rfl

/-- Row `p`, lane `q` of the stored value: the message entry times the row's softmax weight. -/
theorem k1_pay1_apply (v0 : Vec Ideal S8000x128 .f32) (v2 : Vec Ideal S128x1 .f32) (v6 : Vec Ideal S1x1 .f32) (v15 : Vec Ideal S1x2 .f32)
    (p : Fin 8000) (q : Fin 128) :
    k1_pay1 v0 v2 v6 v15 (ix2 p q)
      = v0 (ix2 p q) * Ideal.div (Ideal.exp (Cert.Spec.scoreRow (fun k => v0 (ix2 p k)) (fun k => v2 (ix2 k (0 : Fin 1))) (v6 (ix2 (0 : Fin 1) (0 : Fin 1)))
          - v15 (ix2 (0 : Fin 1) (0 : Fin 2)))) (v15 (ix2 (0 : Fin 1) (1 : Fin 2))) := by
  rw [k1_pay1_eq, msg1_eq]
  show v0 (ix2 p q) * broadcastTo S8000x128
      (divf (exp (subf (scoreCol1 v0 v2 v6)
          (broadcastTo S8000x1 (extractStridedSlice S1x1 ![0, 0] (shapeCast S1x2 v15 shapeCasts_S1x2_S1x2) slices_S1x2_o0_0_S1x1) broadcasts_S1x1_S8000x1)))
        (broadcastTo S8000x1 (extractStridedSlice S1x1 ![0, 1] (shapeCast S1x2 v15 shapeCasts_S1x2_S1x2) slices_S1x2_o0_1_S1x1) broadcasts_S1x1_S8000x1))
      broadcasts_S8000x1_S8000x128 (ix2 p q) = _
  rw [broadcastTo_a1_ab_apply _ broadcasts_S8000x1_S8000x128 p q]
  show v0 (ix2 p q) * Ideal.div (Ideal.exp (scoreCol1 v0 v2 v6 (ix2 p (0 : Fin 1))
        - broadcastTo S8000x1 (extractStridedSlice S1x1 ![0, 0] (shapeCast S1x2 v15 shapeCasts_S1x2_S1x2) slices_S1x2_o0_0_S1x1) broadcasts_S1x1_S8000x1 (ix2 p (0 : Fin 1))))
      (broadcastTo S8000x1 (extractStridedSlice S1x1 ![0, 1] (shapeCast S1x2 v15 shapeCasts_S1x2_S1x2) slices_S1x2_o0_1_S1x1) broadcasts_S1x1_S8000x1 (ix2 p (0 : Fin 1))) = _
  rw [broadcastTo_1b_ab_apply _ broadcasts_S1x1_S8000x1 p (0 : Fin 1), broadcastTo_1b_ab_apply _ broadcasts_S1x1_S8000x1 p (0 : Fin 1),
    shapeCast_self, stat1_fst, stat1_snd, scoreCol1_apply]

end Cert.KernelIdeal.Hand

end
-- ==== Proof.KI.Out1.lean ====
/- Region 1's output array after the region, read at an index, on the extended reals: row `e` of the array is the message
   row `e` times its softmax weight, from the message array the region reads block by block and the statistics, the
   attention vector and its bias, which it reads whole. An element of block `t` of a window sits in the window's array at
   block index × block size plus its coordinate inside the block; the message window moves with the grid point, the other
   three stay at block 0. -/
import proofs.«137429_j68822555951393_1_alg».proof.Proof.KI.Val1
import proofs.«137429_j68822555951393_1_alg».proof.Proof.KI.Pay1

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The arrays the region reads, as the region finds them, at their index types -/

/-- The message array. -/
abbrev MSG1 (c : Dev nD) : S800000x128.Idx → EReal := V c main_v21_0
/-- The two statistics: the maximum score and the sum of the shifted exponentials. -/
abbrev STATS1 (c : Dev nD) : S1x2.Idx → EReal := V c main_v21_1
/-- The attention vector. -/
abbrev WA1 (c : Dev nD) : S128x1.Idx → EReal := V c main_arg7
/-- Its bias. -/
abbrev BA1 (c : Dev nD) : S1x1.Idx → EReal := V c main_v22

/-! ## The input windows' block indices, decided over the 100 points -/

theorem idx1_in : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)

/-! ## The input blocks read at an index -/

/-- Row `r` of block `t` of the message array is row `8000·t + r` of the array. -/
theorem iblk1_0_apply (c : Dev nD) (t : Fin cfg1.N) (r : Fin 8000) (k : Fin 128) (n : Fin 800000) (hn : n.val = t.val * 8000 + r.val) :
    iblk1 V c 0 t (ix2 r k) = MSG1 V c (ix2 n k) := by
  obtain ⟨e0, e1, -⟩ := idx1_in t
  show MSG1 V c (((cfg1.win 0).blk t).view.emb (ix2 r k)) = _
  refine congrArg (MSG1 V c) (funext fun a => Fin.ext ?_)
  match a with
  | ⟨0, _⟩ => show win1_0.index t (0 : Fin 2) * 8000 + 1 * r.val = n.val; rw [e0]; omega
  | ⟨1, _⟩ => show win1_0.index t (1 : Fin 2) * 128 + 1 * k.val = k.val; rw [e1]; omega

/-- The statistics' one block is the whole array, at every point. -/
theorem iblk1_1_apply (c : Dev nD) (t : Fin cfg1.N) (l : Fin 2) :
    iblk1 V c 1 t (ix2 (0 : Fin 1) l) = STATS1 V c (ix2 (0 : Fin 1) l) := by
  obtain ⟨-, -, e0, e1, -⟩ := idx1_in t
  show STATS1 V c (((cfg1.win 1).blk t).view.emb (ix2 (0 : Fin 1) l)) = _
  refine congrArg (STATS1 V c) (funext fun a => Fin.ext ?_)
  match a with
  | ⟨0, _⟩ => show win1_1.index t (0 : Fin 2) * 1 + 1 * 0 = 0; rw [e0]
  | ⟨1, _⟩ => show win1_1.index t (1 : Fin 2) * 2 + 1 * l.val = l.val; rw [e1]; omega

/-- The same of the attention vector. -/
theorem iblk1_2_apply (c : Dev nD) (t : Fin cfg1.N) (k : Fin 128) :
    iblk1 V c 2 t (ix2 k (0 : Fin 1)) = WA1 V c (ix2 k (0 : Fin 1)) := by
  obtain ⟨-, -, -, -, e0, e1, -⟩ := idx1_in t
  show WA1 V c (((cfg1.win 2).blk t).view.emb (ix2 k (0 : Fin 1))) = _
  refine congrArg (WA1 V c) (funext fun a => Fin.ext ?_)
  match a with
  | ⟨0, _⟩ => show win1_2.index t (0 : Fin 2) * 128 + 1 * k.val = k.val; rw [e0]; omega
  | ⟨1, _⟩ => show win1_2.index t (1 : Fin 2) * 1 + 1 * 0 = 0; rw [e1]

/-- The same of its bias. -/
theorem iblk1_3_apply (c : Dev nD) (t : Fin cfg1.N) :
    iblk1 V c 3 t (ix2 (0 : Fin 1) (0 : Fin 1)) = BA1 V c (ix2 (0 : Fin 1) (0 : Fin 1)) := by
  obtain ⟨-, -, -, -, -, -, e0, e1⟩ := idx1_in t
  show BA1 V c (((cfg1.win 3).blk t).view.emb (ix2 (0 : Fin 1) (0 : Fin 1))) = _
  refine congrArg (BA1 V c) (funext fun a => Fin.ext ?_)
  match a with
  | ⟨0, _⟩ => show win1_3.index t (0 : Fin 2) * 1 + 1 * 0 = 0; rw [e0]
  | ⟨1, _⟩ => show win1_3.index t (1 : Fin 2) * 1 + 1 * 0 = 0; rw [e1]

/-! ## The array at an index -/

/-- Row `e`, lane `q` of the array after the region. -/
theorem G1_apply (c : Dev nD) (e : Fin 800000) (q : Fin 128) :
    G1 V c (ix2 e q)
      = MSG1 V c (ix2 e q) * Ideal.div (Ideal.exp (Cert.Spec.scoreRow (fun k => MSG1 V c (ix2 e k)) (fun k => WA1 V c (ix2 k (0 : Fin 1)))
            (BA1 V c (ix2 (0 : Fin 1) (0 : Fin 1))) - STATS1 V c (ix2 (0 : Fin 1) (0 : Fin 2)))) (STATS1 V c (ix2 (0 : Fin 1) (1 : Fin 2))) := by
  have he : e.val < 800000 := e.isLt
  have ht : e.val / 8000 < cfg1.N := by show e.val / 8000 < grid1.N; rw [N_1]; omega
  have hdm : e.val = (⟨e.val / 8000, ht⟩ : Fin cfg1.N).val * 8000 + (⟨e.val % 8000, Nat.mod_lt _ (by decide)⟩ : Fin 8000).val := by
    show e.val = e.val / 8000 * 8000 + e.val % 8000; omega
  rw [G1_at V c ⟨e.val / 8000, ht⟩ (ix2 (⟨e.val % 8000, Nat.mod_lt _ (by decide)⟩ : Fin 8000) q) (ix2 e q) hdm rfl]
  unfold blockOut1
  rw [k1_pay1_apply]
  simp only [iblk1_0_apply V c _ _ _ e hdm, iblk1_1_apply, iblk1_2_apply, iblk1_3_apply]

end Cert.KernelIdeal.Hand

end
-- ==== Proof.Ref.ReadNorm.lean ====
/-
  The reference's last stages read at an index, on the extended reals: the residual sum, its row mean and row
  variance, and the normalized result. Each is pointwise operations, broadcasts and a sum over the 128 features,
  so at (n, q) the result is the specification's normalized row of node n at q. The scatter-add that feeds the
  residual sum is left as the function it is.
-/
import proofs.«137429_j68822555951393_1_alg».proof.Proof.Ref.Run
import proofs.«137429_j68822555951393_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## Broadcasts and sums of the reference's literal shapes, at an index -/

section Layout

variable {α : Type}

/-- A column of 50000 broadcast along 128 features reads its row's entry. -/
theorem bcast_col_apply (x : S50000x1.Idx → α) (n : Fin 50000) (q : Fin 128) :
    broadcastInDim S50000x128 ![0, 1] bcast_S50000x1_S50000x128_0_1 x (ix2 n q) = x (ix2 n (0 : Fin 1)) :=
  broadcastInDim_apply _ _ x _ _ fun a => by match a with | ⟨0, _⟩ => rfl | ⟨1, _⟩ => rfl

/-- A scalar broadcast to a column of 50000 reads the scalar. -/
theorem bcast_scalar_col_apply (x : S_.Idx → α) (j : S50000x1.Idx) :
    broadcastInDim S50000x1 ![] bcast_S_S50000x1 x j = x ix0 :=
  broadcastInDim_apply _ _ x _ _ fun a => a.elim0

/-- A vector of 50000 set as a column reads the vector's entry. -/
theorem bcast_vec_col_apply (x : S50000.Idx → α) (n : Fin 50000) :
    broadcastInDim S50000x1 ![0] bcast_S50000_S50000x1_0 x (ix2 n (0 : Fin 1)) = x (ix1 n) :=
  broadcastInDim_apply _ _ x _ _ fun a => by match a with | ⟨0, _⟩ => rfl

/-- A vector of 128 broadcast over 50000 rows (through a 1 × 128 row) reads the column's entry. -/
theorem bcast_row_apply (g : S128.Idx → α) (n : Fin 50000) (q : Fin 128) :
    broadcastInDim S50000x128 ![0, 1] bcast_S1x128_S50000x128_0_1 (broadcastInDim S1x128 ![1] bcast_S128_S1x128_1 g) (ix2 n q)
      = g (ix1 q) :=
  (broadcastInDim_apply _ _ _ _ (ix2 (0 : Fin 1) q) fun a => by match a with | ⟨0, _⟩ => rfl | ⟨1, _⟩ => rfl).trans
    (broadcastInDim_apply _ _ g _ _ fun a => by match a with | ⟨0, _⟩ => rfl)

end Layout

/-- The host's quotient, square root and exponential at an index, on the extended reals. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
theorem hostExp_apply {s : Shape} (a : FVec Ideal s .f32) (i : s.Idx) : Host.exp a i = Ideal.exp (a i) := rfl

/-- The sum over the 128 features of a row, from zero. -/
theorem rowSum_apply (x : FVec Ideal S50000x128 .f32) (n : Fin 50000) :
    Host.reduceAdd x (constant S_ .f32 0x00000000#32) reducesTo_S50000x128_S50000_d1 h_S_ (ix1 n)
      = ∑ k : Fin 128, x (ix2 n k) := by
  show Ideal.hostReduceAdd reducesTo_S50000x128_S50000_d1 x (Ideal.ofBits .f32 0x00000000#32) (ix1 n) = _
  rw [Ideal.hostReduceAdd_single reducesTo_S50000x128_S50000_d1 (by decide : S50000x128.Reduces [1] S50000),
    Ideal.ofBits_zero_f32, zero_add]
  refine Finset.sum_congr rfl fun k _ => congrArg x (funext fun a => ?_)
  match a with
  | ⟨0, _⟩ => rfl
  | ⟨1, _⟩ => rfl

/-! ## The residual sum's rows and their normalization -/

section Norm

variable (a0 : FVec Ideal S50000x128 .f32) (a1 : IVec S2x800000 32) (a2 : FVec Ideal S800000x64 .f32)
  (a3 : FVec Ideal S320x128 .f32) (a4 : FVec Ideal S128 .f32) (a5 : FVec Ideal S128x128 .f32) (a6 : FVec Ideal S128 .f32)
  (a7 : FVec Ideal S128x1 .f32) (a8 : FVec Ideal S1 .f32) (a9 : FVec Ideal S128 .f32) (a10 : FVec Ideal S128 .f32)

/-- An entry of the residual sum: the node's own entry plus what was aggregated into it. -/
theorem resid_apply (n : Fin 50000) (k : Fin 128) :
    resid a0 a1 a2 a3 a4 a5 a6 a7 a8 (ix2 n k) = a0 (ix2 n k) + agg a0 a1 a2 a3 a4 a5 a6 a7 a8 (ix2 n k) := rfl

/-- The mean of a row of any array, as the specification writes it: the row's sum over 128. -/
theorem rowMean_apply (x : FVec Ideal S50000x128 .f32) (n : Fin 50000) :
    rowMean x (ix2 n (0 : Fin 1)) = Cert.Spec.mean fun k => x (ix2 n k) := by
  unfold rowMean Cert.Spec.mean
  rw [hostDivf_apply, bcast_vec_col_apply, rowSum_apply, bcast_scalar_col_apply]
  rfl

theorem mean_apply (n : Fin 50000) :
    mean a0 a1 a2 a3 a4 a5 a6 a7 a8 (ix2 n (0 : Fin 1))
      = Cert.Spec.mean fun k => a0 (ix2 n k) + agg a0 a1 a2 a3 a4 a5 a6 a7 a8 (ix2 n k) :=
  rowMean_apply _ n

/-- An entry of the centered rows. -/
theorem centered_apply (n : Fin 50000) (q : Fin 128) :
    centered a0 a1 a2 a3 a4 a5 a6 a7 a8 (ix2 n q)
      = (a0 (ix2 n q) + agg a0 a1 a2 a3 a4 a5 a6 a7 a8 (ix2 n q))
        - Cert.Spec.mean fun k => a0 (ix2 n k) + agg a0 a1 a2 a3 a4 a5 a6 a7 a8 (ix2 n k) := by
  unfold centered
  rw [subf_apply, bcast_col_apply, mean_apply]
  rfl

/-- The variance's divisor is 128: the integer zero it subtracts converts to zero. -/
theorem varDen_apply : varDen (F := Ideal) ix0 = Cert.Spec.w128 := by
  show Cert.Spec.w128 - (((0#32 : BitVec 32).toInt : ℝ) : EReal) = Cert.Spec.w128
  rw [show (0#32 : BitVec 32).toInt = 0 from rfl, Int.cast_zero, EReal.coe_zero, sub_zero]

/-- 128 is above zero, so the variance's guard takes the quotient. -/
theorem varDen_pos : Ideal.cmp .ogt Cert.Spec.w128 (Ideal.ofBits .f32 0x00000000#32) = 1#1 := by
  rw [Ideal.ofBits_zero_f32]
  show BitVec.ofBool (decide ((0 : EReal) < Cert.Spec.w128)) = 1#1
  rw [decide_eq_true Cert.Spec.w128_pos]
  rfl

/-- The variance of a row, as the specification writes it. -/
theorem var_apply (n : Fin 50000) :
    var a0 a1 a2 a3 a4 a5 a6 a7 a8 (ix2 n (0 : Fin 1))
      = Cert.Spec.var fun k => a0 (ix2 n k) + agg a0 a1 a2 a3 a4 a5 a6 a7 a8 (ix2 n k) := by
  unfold var Cert.Spec.var
  rw [select_apply, hostDivf_apply, bcast_vec_col_apply, rowSum_apply]
  repeat rw [bcast_scalar_col_apply]
  rw [cmpf_apply, varDen_apply]
  repeat rw [constant_apply]
  rw [Ideal.cmpf_def, varDen_pos, select_one]
  simp only [mulf_apply, centered_apply]

/-- THE RESULT AT (n, q): the specification's normalized row of the node's residual sum, at q. -/
theorem refOut_apply (n : Fin 50000) (q : Fin 128) :
    refOut a0 a1 a2 a3 a4 a5 a6 a7 a8 a9 a10 (ix2 n q)
      = Cert.Spec.lnRowRef (fun k => a0 (ix2 n k) + agg a0 a1 a2 a3 a4 a5 a6 a7 a8 (ix2 n k))
          (fun k => a9 (ix1 k)) (fun k => a10 (ix1 k)) q := by
  unfold refOut Cert.Spec.lnRowRef
  rw [addf_apply, mulf_apply, hostDivf_apply, bcast_col_apply, hostSqrt_apply, addf_apply, bcast_scalar_col_apply,
    constant_apply, bcast_row_apply, bcast_row_apply, centered_apply, var_apply]

end Norm

end Cert.ReferenceIdeal.Hand

end
-- ==== Proof.Ref.ReadEdge.lean ====
/-
  The reference's message stages read at an index, on the extended reals: the message input (three arrays side by
  side) and the two layers of the message network (contractions over one axis: `Fin`-indexed sums), with the
  broadcasts and the contractions of the edge-sized shapes at an index for the attention stages to use. The two
  gathers are left as the functions they are.
-/
import proofs.«137429_j68822555951393_1_alg».proof.Proof.Ref.Run
import proofs.«137429_j68822555951393_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## Broadcasts of the reference's literal shapes, at an index -/

section Layout

variable {α : Type}

/-- A vector of 128 broadcast over 800000 rows (through a 1 × 128 row) reads the column's entry. -/
theorem bcast_row_e_apply (g : S128.Idx → α) (e : Fin 800000) (j : Fin 128) :
    broadcastInDim S800000x128 ![0, 1] bcast_S1x128_S800000x128_0_1 (broadcastInDim S1x128 ![1] bcast_S128_S1x128_1 g) (ix2 e j)
      = g (ix1 j) :=
  (broadcastInDim_apply _ _ _ _ (ix2 (0 : Fin 1) j) fun a => by match a with | ⟨0, _⟩ => rfl | ⟨1, _⟩ => rfl).trans
    (broadcastInDim_apply _ _ g _ _ fun a => by match a with | ⟨0, _⟩ => rfl)

/-- A scalar broadcast over 800000 × 128 reads the scalar. -/
theorem bcast_scalar_e128_apply (x : S_.Idx → α) (i : S800000x128.Idx) :
    broadcastInDim S800000x128 ![] bcast_S_S800000x128 x i = x ix0 :=
  broadcastInDim_apply _ _ x _ _ fun a => a.elim0

/-- A one-entry vector broadcast down a column of 800000 (through 1 × 1) reads its entry. -/
theorem bcast_one_e_apply (g : S1.Idx → α) (e : Fin 800000) :
    broadcastInDim S800000x1 ![0, 1] bcast_S1x1_S800000x1_0_1 (broadcastInDim S1x1 ![1] bcast_S1_S1x1_1 g) (ix2 e (0 : Fin 1))
      = g (ix1 (0 : Fin 1)) :=
  (broadcastInDim_apply _ _ _ _ (ix2 (0 : Fin 1) (0 : Fin 1)) fun a => by match a with | ⟨0, _⟩ => rfl | ⟨1, _⟩ => rfl).trans
    (broadcastInDim_apply _ _ g _ _ fun a => by match a with | ⟨0, _⟩ => rfl)

/-- A scalar broadcast down a column of 800000 reads the scalar. -/
theorem bcast_scalar_e1_apply (x : S_.Idx → α) (i : S800000x1.Idx) :
    broadcastInDim S800000x1 ![] bcast_S_S800000x1 x i = x ix0 :=
  broadcastInDim_apply _ _ x _ _ fun a => a.elim0

/-- A column of 800000 broadcast along 128 reads its row's entry. -/
theorem bcast_col_e_apply (x : S800000x1.Idx → α) (e : Fin 800000) (j : Fin 128) :
    broadcastInDim S800000x128 ![0, 1] bcast_S800000x1_S800000x128_0_1 x (ix2 e j) = x (ix2 e (0 : Fin 1)) :=
  broadcastInDim_apply _ _ x _ _ fun a => by match a with | ⟨0, _⟩ => rfl | ⟨1, _⟩ => rfl

/-- A scalar as a one-entry vector reads the scalar. -/
theorem bcast_scalar_1_apply (x : S_.Idx → α) (i : S1.Idx) : broadcastInDim S1 ![] bcast_S_S1 x i = x ix0 :=
  broadcastInDim_apply _ _ x _ _ fun a => a.elim0

end Layout

/-- The host's quotient and exponential at an index, on the extended reals. -/
theorem hostDivf_apply' {s : Shape} (a b : FVec Ideal s .f32) (i : s.Idx) : Host.divf a b i = Ideal.div (a i) (b i) := rfl
theorem hostExp_apply' {s : Shape} (a : FVec Ideal s .f32) (i : s.Idx) : Host.exp a i = Ideal.exp (a i) := rfl

/-- A select on a decided comparison is the `if`. -/
theorem select_ofBool {α : Type} (p : Prop) [Decidable p] (a b : α) :
    Scalar.select (BitVec.ofBool (decide p)) a b = if p then a else b := by
  by_cases h : p
  · rw [decide_eq_true h, if_pos h]; exact select_one a b
  · rw [decide_eq_false h, if_neg h]; exact select_zero a b

/-! ## A contraction over one axis, at an index -/

/-- The host's contraction over ONE axis of extent `K`, at an index: the sum over that axis's coordinate of the
    operands' products, the contraction index being its one coordinate. -/
theorem dot_apply {sl sr so : Shape} (d : DotDims sl sr so) (K : Nat) (hr : d.contr.rank = 1)
    (hs : d.contr.size ⟨0, by omega⟩ = K) (l : FVec Ideal sl .f32) (r : FVec Ideal sr .f32) (j : so.Idx) :
    Host.dotGeneral d none l r j
      = ∑ k : Fin K, l (d.lhsIdx j ((contrEquiv1 d K hr hs).symm k)) * r (d.rhsIdx j ((contrEquiv1 d K hr hs).symm k)) := by
  show FloatOps.dotGeneral d none .single l r j = _
  rw [Ideal.dotGeneral_apply]
  exact (Equiv.sum_comp (contrEquiv1 d K hr hs).symm fun k => l (d.lhsIdx j k) * r (d.rhsIdx j k)).symm

/-- The first layer's contraction at (e, k): over the 320 input entries. -/
theorem dot1_apply (x : FVec Ideal S800000x320 .f32) (w : FVec Ideal S320x128 .f32) (e : Fin 800000) (k : Fin 128) :
    Host.dotGeneral dot_S800000x320_S320x128_S800000x128_1_0_0_1_n_n none x w (ix2 e k)
      = ∑ l : Fin 320, x (ix2 e l) * w (ix2 l k) := by
  rw [dot_apply _ 320 rfl rfl]
  refine Finset.sum_congr rfl fun l _ => ?_
  congr 1
  · refine congrArg x (funext fun a => Fin.ext ?_)
    match a with
    | ⟨0, _⟩ => rfl
    | ⟨1, _⟩ => exact (DotDims.lhsIdx_val_of_single _ rfl _ _).trans (contrEquiv1_symm_val _ 320 rfl rfl l)
  · refine congrArg w (funext fun a => Fin.ext ?_)
    match a with
    | ⟨0, _⟩ => exact (DotDims.rhsIdx_val_of_single _ rfl _ _).trans (contrEquiv1_symm_val _ 320 rfl rfl l)
    | ⟨1, _⟩ => rfl

/-- The second layer's contraction at (e, j): over the 128 hidden entries. -/
theorem dot2_apply (x : FVec Ideal S800000x128 .f32) (w : FVec Ideal S128x128 .f32) (e : Fin 800000) (j : Fin 128) :
    Host.dotGeneral dot_S800000x128_S128x128_S800000x128_1_0_0_1_n_n none x w (ix2 e j)
      = ∑ k : Fin 128, x (ix2 e k) * w (ix2 k j) := by
  rw [dot_apply _ 128 rfl rfl]
  refine Finset.sum_congr rfl fun k _ => ?_
  congr 1
  · refine congrArg x (funext fun a => Fin.ext ?_)
    match a with
    | ⟨0, _⟩ => rfl
    | ⟨1, _⟩ => exact (DotDims.lhsIdx_val_of_single _ rfl _ _).trans (contrEquiv1_symm_val _ 128 rfl rfl k)
  · refine congrArg w (funext fun a => Fin.ext ?_)
    match a with
    | ⟨0, _⟩ => exact (DotDims.rhsIdx_val_of_single _ rfl _ _).trans (contrEquiv1_symm_val _ 128 rfl rfl k)
    | ⟨1, _⟩ => rfl

/-- The score's contraction at e: over the 128 message entries. -/
theorem dot3_apply (x : FVec Ideal S800000x128 .f32) (w : FVec Ideal S128x1 .f32) (e : Fin 800000) :
    Host.dotGeneral dot_S800000x128_S128x1_S800000x1_1_0_0_1_n_n none x w (ix2 e (0 : Fin 1))
      = ∑ k : Fin 128, x (ix2 e k) * w (ix2 k (0 : Fin 1)) := by
  rw [dot_apply _ 128 rfl rfl]
  refine Finset.sum_congr rfl fun k _ => ?_
  congr 1
  · refine congrArg x (funext fun a => Fin.ext ?_)
    match a with
    | ⟨0, _⟩ => rfl
    | ⟨1, _⟩ => exact (DotDims.lhsIdx_val_of_single _ rfl _ _).trans (contrEquiv1_symm_val _ 128 rfl rfl k)
  · refine congrArg w (funext fun a => Fin.ext ?_)
    match a with
    | ⟨0, _⟩ => exact (DotDims.rhsIdx_val_of_single _ rfl _ _).trans (contrEquiv1_symm_val _ 128 rfl rfl k)
    | ⟨1, _⟩ => rfl

/-! ## An edge's message -/

section Message

variable (a0 : FVec Ideal S50000x128 .f32) (a1 : IVec S2x800000 32) (a2 : FVec Ideal S800000x64 .f32)
  (a3 : FVec Ideal S320x128 .f32) (a4 : FVec Ideal S128 .f32) (a5 : FVec Ideal S128x128 .f32) (a6 : FVec Ideal S128 .f32)
  (a7 : FVec Ideal S128x1 .f32) (a8 : FVec Ideal S1 .f32)

/-- The message input of edge e at l: the second gather's row below 128, the first gather's less the second's from
    128 to 255, the edge's own features from 256 on. -/
theorem msgIn_apply (e : Fin 800000) (l : Fin 320) :
    msgIn a0 a1 a2 (ix2 e l)
      = Cert.Spec.catRow (fun k => hDst a0 a1 (ix2 e k)) (fun k => hSrc a0 a1 (ix2 e k)) (fun k => a2 (ix2 e k)) l := by
  unfold msgIn Cert.Spec.catRow
  by_cases h1 : l.val < 128
  · rw [dif_pos h1]
    exact concatenate_apply_piece _ _ _ (ix2 e l) 0 (by show (0 : Nat) < 3; decide) S800000x128 (hDst a0 a1) rfl rfl 0 rfl
      (ix2 e (⟨l.val, h1⟩ : Fin 128))
      (fun b hb => by match b with | ⟨0, _⟩ => rfl | ⟨1, _⟩ => exact absurd (Fin.ext rfl) hb)
      (by show 0 + l.val = l.val; omega)
  · rw [dif_neg h1]
    by_cases h2 : l.val < 256
    · rw [dif_pos h2]
      exact concatenate_apply_piece _ _ _ (ix2 e l) 1 (by show (1 : Nat) < 3; decide) S800000x128 (subf (hSrc a0 a1) (hDst a0 a1)) rfl rfl 128 rfl
        (ix2 e (⟨l.val - 128, by omega⟩ : Fin 128))
        (fun b hb => by match b with | ⟨0, _⟩ => rfl | ⟨1, _⟩ => exact absurd (Fin.ext rfl) hb)
        (by show 128 + (l.val - 128) = l.val; omega)
    · rw [dif_neg h2]
      exact concatenate_apply_piece _ _ _ (ix2 e l) 2 (by show (2 : Nat) < 3; decide) S800000x64 a2 rfl rfl 256 rfl
        (ix2 e (⟨l.val - 256, by have := l.isLt; omega⟩ : Fin 64))
        (fun b hb => by match b with | ⟨0, _⟩ => rfl | ⟨1, _⟩ => exact absurd (Fin.ext rfl) hb)
        (by show 256 + (l.val - 256) = l.val; omega)

/-- The hidden row of edge e at k. -/
theorem hidden_apply (e : Fin 800000) (k : Fin 128) :
    hidden a0 a1 a2 a3 a4 (ix2 e k)
      = Cert.Spec.hidRow
          (Cert.Spec.catRow (fun k => hDst a0 a1 (ix2 e k)) (fun k => hSrc a0 a1 (ix2 e k)) (fun k => a2 (ix2 e k)))
          (fun l k => a3 (ix2 l k)) (fun k => a4 (ix1 k)) k := by
  unfold hidden Cert.Spec.hidRow
  rw [maximumf_apply, addf_apply, dot1_apply, bcast_row_e_apply, bcast_scalar_e128_apply, constant_apply,
    Ideal.ofBits_zero_f32]
  simp only [msgIn_apply]

/-- THE MESSAGE OF EDGE e AT j. -/
theorem msgs_apply (e : Fin 800000) (j : Fin 128) :
    msgs a0 a1 a2 a3 a4 a5 a6 (ix2 e j)
      = Cert.Spec.msgRow
          (Cert.Spec.hidRow
            (Cert.Spec.catRow (fun k => hDst a0 a1 (ix2 e k)) (fun k => hSrc a0 a1 (ix2 e k)) (fun k => a2 (ix2 e k)))
            (fun l k => a3 (ix2 l k)) (fun k => a4 (ix1 k)))
          (fun k j => a5 (ix2 k j)) (fun j => a6 (ix1 j)) j := by
  unfold msgs Cert.Spec.msgRow
  rw [addf_apply, dot2_apply, bcast_row_e_apply]
  simp only [hidden_apply]

end Message

end Cert.ReferenceIdeal.Hand

end
-- ==== Proof.Ref.ReadAttn.lean ====
/-
  The reference's attention stages read at an index, on the extended reals: the score of an edge (the messages
  against the score vector, through the leaky rectifier), the greatest score (a supremum over the edges), the sum of
  the exponentials, and the weighted messages.
-/
import proofs.«137429_j68822555951393_1_alg».proof.Proof.Ref.ReadEdge

noncomputable section

open scoped BigOperators

namespace Cert.ReferenceIdeal.Hand

open Cert.ReferenceIdeal Cert.ReferenceIdeal.Gen Idealize.ShloMosaic Idealize.ShloMosaic.ValueIdx

section Attention

variable (a0 : FVec Ideal S50000x128 .f32) (a1 : IVec S2x800000 32) (a2 : FVec Ideal S800000x64 .f32)
  (a3 : FVec Ideal S320x128 .f32) (a4 : FVec Ideal S128 .f32) (a5 : FVec Ideal S128x128 .f32) (a6 : FVec Ideal S128 .f32)
  (a7 : FVec Ideal S128x1 .f32) (a8 : FVec Ideal S1 .f32)

/-- The score of edge e before the rectifier: its message against the score vector, plus the bias. -/
theorem preScore_apply (e : Fin 800000) :
    preScore a0 a1 a2 a3 a4 a5 a6 a7 a8 (ix2 e (0 : Fin 1))
      = ∑ k : Fin 128, msgs a0 a1 a2 a3 a4 a5 a6 (ix2 e k) * a7 (ix2 k (0 : Fin 1)) + a8 (ix1 (0 : Fin 1)) := by
  unfold preScore
  rw [addf_apply, dot3_apply, bcast_one_e_apply]

/-- The leaky rectifier at an index: the reference selects on `≥ 0`, which gives the specification's rectifier. -/
theorem leaky_apply (z : FVec Ideal S800000x1 .f32) (i : S800000x1.Idx) :
    Cert.ReferenceIdeal.Hand.leaky z i = Cert.Spec.leaky (z i) := by
  unfold Cert.ReferenceIdeal.Hand.leaky
  rw [select_apply, cmpf_apply, mulf_apply, bcast_scalar_e1_apply, bcast_scalar_e1_apply, constant_apply, constant_apply,
    Ideal.ofBits_zero_f32, Ideal.cmpf_def]
  show Scalar.select (BitVec.ofBool (decide ((0 : EReal) ≤ z i))) (z i) (Cert.Spec.wSlope * z i) = _
  rw [select_ofBool, Cert.Spec.leaky_ge]

/-- THE SCORE OF EDGE e. -/
theorem score_apply (e : Fin 800000) :
    score a0 a1 a2 a3 a4 a5 a6 a7 a8 (ix2 e (0 : Fin 1))
      = Cert.Spec.scoreRow (fun k => msgs a0 a1 a2 a3 a4 a5 a6 (ix2 e k)) (fun k => a7 (ix2 k (0 : Fin 1)))
          (a8 (ix1 (0 : Fin 1))) := by
  unfold score Cert.Spec.scoreRow
  rw [leaky_apply, preScore_apply]

/-- The one reduced index with edge e put back is (e, 0). -/
theorem lift_edge (h : S800000x1.Reduces [0] S1) (e : Fin 800000) :
    h.lift (ix1 (0 : Fin 1)) e = ix2 e (0 : Fin 1) := by
  funext a
  match a with
  | ⟨0, _⟩ => rfl
  | ⟨1, _⟩ => rfl

/-- THE GREATEST SCORE: the fold of the maximum from −∞ over the edges, once more against −∞ — the supremum. -/
theorem smax_apply :
    smax a0 a1 a2 a3 a4 a5 a6 a7 a8 (ix1 (0 : Fin 1))
      = Finset.univ.sup fun e : Fin 800000 => score a0 a1 a2 a3 a4 a5 a6 a7 a8 (ix2 e (0 : Fin 1)) := by
  unfold smax
  rw [maximumf_apply, bcast_scalar_1_apply, constant_apply,
    Host.reduce_eq_fold_single FloatOps.maximumf _ _ reducesTo_S800000x1_S1_d0 (by decide : S800000x1.Reduces [0] S1) h_S_,
    constant_apply]
  show max Cert.Spec.wNegInf (Finset.fold max Cert.Spec.wNegInf _ (Finset.univ : Finset (Fin 800000))) = _
  rw [Cert.Spec.wNegInf_eq, max_bot_left]
  exact congrArg (fun f => Finset.fold max ⊥ f (Finset.univ : Finset (Fin 800000)))
    (funext fun e => congrArg (score a0 a1 a2 a3 a4 a5 a6 a7 a8) (lift_edge _ e))

/-- The exponential of edge e's score less the greatest. -/
theorem expd_apply (e : Fin 800000) :
    expd a0 a1 a2 a3 a4 a5 a6 a7 a8 (ix2 e (0 : Fin 1))
      = Ideal.exp (score a0 a1 a2 a3 a4 a5 a6 a7 a8 (ix2 e (0 : Fin 1)) - smax a0 a1 a2 a3 a4 a5 a6 a7 a8 (ix1 (0 : Fin 1))) := by
  unfold expd
  rw [hostExp_apply', subf_apply, bcast_one_e_apply]

/-- THE SUM OF THE EXPONENTIALS. -/
theorem ssum_apply :
    ssum a0 a1 a2 a3 a4 a5 a6 a7 a8 (ix1 (0 : Fin 1))
      = ∑ e : Fin 800000, Ideal.exp (score a0 a1 a2 a3 a4 a5 a6 a7 a8 (ix2 e (0 : Fin 1)) - smax a0 a1 a2 a3 a4 a5 a6 a7 a8 (ix1 (0 : Fin 1))) := by
  unfold ssum
  show Ideal.hostReduceAdd reducesTo_S800000x1_S1_d0 (expd a0 a1 a2 a3 a4 a5 a6 a7 a8) (Ideal.ofBits .f32 0x00000000#32)
      (ix1 (0 : Fin 1)) = _
  rw [Ideal.hostReduceAdd_single reducesTo_S800000x1_S1_d0 (by decide : S800000x1.Reduces [0] S1),
    Ideal.ofBits_zero_f32, zero_add]
  exact Finset.sum_congr rfl fun e _ =>
    (congrArg (expd a0 a1 a2 a3 a4 a5 a6 a7 a8) (lift_edge _ e)).trans (expd_apply a0 a1 a2 a3 a4 a5 a6 a7 a8 e)

/-- The attention weight of edge e. -/
theorem attn_apply (e : Fin 800000) :
    attn a0 a1 a2 a3 a4 a5 a6 a7 a8 (ix2 e (0 : Fin 1))
      = Ideal.div (Ideal.exp (score a0 a1 a2 a3 a4 a5 a6 a7 a8 (ix2 e (0 : Fin 1)) - smax a0 a1 a2 a3 a4 a5 a6 a7 a8 (ix1 (0 : Fin 1))))
          (ssum a0 a1 a2 a3 a4 a5 a6 a7 a8 (ix1 (0 : Fin 1))) := by
  unfold attn
  rw [hostDivf_apply', bcast_one_e_apply, expd_apply]

/-- THE WEIGHTED MESSAGE OF EDGE e AT j. -/
theorem weighted_apply (e : Fin 800000) (j : Fin 128) :
    weighted a0 a1 a2 a3 a4 a5 a6 a7 a8 (ix2 e j)
      = msgs a0 a1 a2 a3 a4 a5 a6 (ix2 e j)
        * Ideal.div (Ideal.exp (score a0 a1 a2 a3 a4 a5 a6 a7 a8 (ix2 e (0 : Fin 1)) - smax a0 a1 a2 a3 a4 a5 a6 a7 a8 (ix1 (0 : Fin 1))))
            (ssum a0 a1 a2 a3 a4 a5 a6 a7 a8 (ix1 (0 : Fin 1))) := by
  unfold weighted
  rw [mulf_apply, bcast_col_e_apply, attn_apply]

end Attention

end Cert.ReferenceIdeal.Hand

end
-- ==== Proof.Ref.Read.lean ====
/-
  The reference's stages read at an index, together: the messages and the attention stages (ReadEdge, ReadAttn)
  and the normalized result (ReadNorm).
-/
import proofs.«137429_j68822555951393_1_alg».proof.Proof.Ref.ReadNorm
import proofs.«137429_j68822555951393_1_alg».proof.Proof.Ref.ReadAttn
-- ==== Proof.Tiles.lean ====
/-
  The 800000 edges as 200 tiles of 4000: edge `4000 * t + p` is entry `p` of tile `t`. A sum over all edges is the
  sum over the tiles of the sums within them, and a supremum over all edges the supremum of the tiles' suprema.
-/
import Mathlib.Algebra.BigOperators.Fin
import Mathlib.Data.EReal.Basic
import Mathlib.Logic.Equiv.Fin.Basic

namespace Cert.Alg

/-- The tile and the place within it of an edge. -/
theorem edge_split (e : Fin 800000) : e.val / 4000 < 200 ∧ e.val % 4000 < 4000 ∧ 4000 * (e.val / 4000) + e.val % 4000 = e.val := by
  have := e.isLt
  refine ⟨by omega, by omega, by omega⟩

/-- A sum over the edges, tile by tile. -/
theorem sum_tiles {M : Type} [AddCommMonoid M] (f : Fin 800000 → M) (g : ℕ → Fin 4000 → M)
    (hg : ∀ (t : ℕ) (ht : t < 200) (p : Fin 4000), g t p = f ⟨4000 * t + p.val, by omega⟩) :
    ∑ e, f e = ∑ t ∈ Finset.range 200, ∑ p, g t p := by
  rw [Finset.sum_range (fun t => ∑ p, g t p)]
  rw [← Fintype.sum_prod_type' (fun (t : Fin 200) (p : Fin 4000) => g t.val p)]
  refine (Fintype.sum_equiv (finProdFinEquiv (m := 200) (n := 4000)) (fun x => g x.1.val x.2) f fun x => ?_).symm
  rw [hg x.1.val x.1.isLt x.2]
  congr 1
  apply Fin.ext
  simp [finProdFinEquiv]
  omega

/-- A supremum over the edges, tile by tile. -/
theorem sup_tiles (f : Fin 800000 → EReal) (g : ℕ → Fin 4000 → EReal)
    (hg : ∀ (t : ℕ) (ht : t < 200) (p : Fin 4000), g t p = f ⟨4000 * t + p.val, by omega⟩) :
    Finset.univ.sup f = (Finset.range 200).sup (fun t => Finset.univ.sup (g t)) := by
  apply le_antisymm
  · refine Finset.sup_le fun e _ => ?_
    obtain ⟨h1, h2, h3⟩ := edge_split e
    have he : f e = g (e.val / 4000) ⟨e.val % 4000, h2⟩ := by
      rw [hg _ h1]; congr 1; exact Fin.ext h3.symm
    rw [he]
    exact le_trans (Finset.le_sup (f := g (e.val / 4000)) (Finset.mem_univ _))
      (Finset.le_sup (f := fun t => Finset.univ.sup (g t)) (Finset.mem_range.mpr h1))
  · refine Finset.sup_le fun t ht => Finset.sup_le fun p _ => ?_
    rw [hg t (Finset.mem_range.mp ht) p]
    exact Finset.le_sup (Finset.mem_univ _)

end Cert.Alg
-- ==== Proof.SpecReal.lean ====
/-
  Every intermediate value of an edge's row is a real number when the inputs are: sums, differences, products and
  maxima of reals are reals, and so is the leaky rectifier of a real (its slope is a real). This is what lets the
  softmax normaliser be computed in two different orders: the exponentials' algebra is the reals'.
-/
import proofs.«137429_j68822555951393_1_alg».proof.Proof.Spec

noncomputable section

namespace Cert.Spec

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (Cert.Alg.coe_max a b).symm⟩
theorem IsReal.zero : IsReal 0 := ⟨0, EReal.coe_zero.symm⟩
theorem IsReal.sum {κ : Type} (J : Finset κ) (f : κ → EReal) (h : ∀ j ∈ J, IsReal (f j)) : IsReal (∑ j ∈ J, f j) := by
  classical
  induction J using Finset.induction_on with
  | empty => simpa using IsReal.zero
  | insert a s ha ih =>
    rw [Finset.sum_insert ha]
    exact (h a (Finset.mem_insert_self a s)).add (ih fun j hj => h j (Finset.mem_insert_of_mem hj))

/-- The leaky slope is a real. -/
theorem wSlope_real : IsReal wSlope := by
  have h1 : wSlope ≠ ⊤ := by simp [wSlope, Ideal.ofBits, Ideal.ieee, -EReal.coe_mul]
  have h2 : wSlope ≠ ⊥ := by simp [wSlope, Ideal.ofBits, Ideal.ieee, -EReal.coe_mul]
  exact ⟨wSlope.toReal, (EReal.coe_toReal h1 h2).symm⟩

theorem leaky_real {x : EReal} (hx : IsReal x) : IsReal (leaky x) := by
  unfold leaky; split
  · exact hx
  · exact wSlope_real.mul hx

theorem catRow_real {hd hs : Fin 128 → EReal} {ea : Fin 64 → EReal} (h1 : ∀ k, IsReal (hd k)) (h2 : ∀ k, IsReal (hs k))
    (h3 : ∀ k, IsReal (ea k)) (l : Fin 320) : IsReal (catRow hd hs ea l) := by
  unfold catRow; split
  · exact h1 _
  · split
    · exact (h2 _).sub (h1 _)
    · exact h3 _
theorem hidRow_real {x : Fin 320 → EReal} {W1 : Fin 320 → Fin 128 → EReal} {b1 : Fin 128 → EReal}
    (hx : ∀ l, IsReal (x l)) (hW : ∀ l k, IsReal (W1 l k)) (hb : ∀ k, IsReal (b1 k)) (k : Fin 128) : IsReal (hidRow x W1 b1 k) :=
  ((IsReal.sum _ _ fun l _ => (hx l).mul (hW l k)).add (hb k)).max IsReal.zero
theorem msgRow_real {h : Fin 128 → EReal} {W2 : Fin 128 → Fin 128 → EReal} {b2 : Fin 128 → EReal}
    (hh : ∀ k, IsReal (h k)) (hW : ∀ k j, IsReal (W2 k j)) (hb : ∀ j, IsReal (b2 j)) (j : Fin 128) : IsReal (msgRow h W2 b2 j) :=
  (IsReal.sum _ _ fun k _ => (hh k).mul (hW k j)).add (hb j)
theorem scoreRow_real {μ Wa : Fin 128 → EReal} {ba : EReal} (hμ : ∀ k, IsReal (μ k)) (hW : ∀ k, IsReal (Wa k)) (hb : IsReal ba) :
    IsReal (scoreRow μ Wa ba) :=
  leaky_real ((IsReal.sum _ _ fun k _ => (hμ k).mul (hW k)).add hb)

end Cert.Spec

end
-- ==== Proof.Online.lean ====
/-
  The softmax normaliser computed tile by tile is the one computed over all edges at once: for real scores the running
  maximum after the last of the 200 tiles is the maximum over all 800000 edges, and the running sum is the sum of
  `exp (s e - M)` over all of them.
-/
import proofs.«137429_j68822555951393_1_alg».proof.Proof.Alg
import proofs.«137429_j68822555951393_1_alg».proof.Proof.Tiles
import proofs.«137429_j68822555951393_1_alg».proof.Proof.SpecReal

noncomputable section

namespace Cert.Alg

open Idealize.ShloMosaic Cert.Spec

theorem online_eq (s : Fin 800000 → EReal) (g : ℕ → Fin 4000 → EReal)
    (hg : ∀ (t : ℕ) (ht : t < 200) (p : Fin 4000), g t p = s ⟨4000 * t + p.val, by omega⟩)
    (hr : ∀ t p, IsReal (g t p)) :
    (run g 199).1 = Finset.univ.sup s ∧ (run g 199).2 = ∑ e, Ideal.exp (s e - Finset.univ.sup s) := by
  choose r hr' using hr
  have hgr : g = fun t p => (r t p : EReal) := funext fun t => funext fun p => hr' t p
  obtain ⟨M, h1, h2, h3⟩ := run_spec r 199
  have hsup : Finset.univ.sup s = (M : EReal) := by
    rw [sup_tiles s g hg, hgr, h2]; rfl
  rw [hsup]
  constructor
  · rw [hgr]; exact h1
  · rw [hgr, h3, coe_sum]
    rw [sum_tiles (fun e => Ideal.exp (s e - (M : EReal))) (fun t p => Ideal.exp (g t p - (M : EReal)))
      (fun t ht p => by rw [hg t ht p])]
    refine Finset.sum_congr rfl fun t _ => ?_
    rw [coe_sum]
    refine Finset.sum_congr rfl fun p _ => ?_
    rw [hr' t p, exp_sub_coe]

end Cert.Alg

end
-- ==== Proof.Finite.lean ====
/-
  Under the precondition every float argument's every entry is a real number: the precondition is the conjunction,
  one conjunct per float argument, of "every entry is below +∞ in absolute value"; an extended real whose absolute
  value `max x (-x)` is below `+∞` is neither infinity.
-/
import proofs.«137429_j68822555951393_1_alg».proof.Pre_finite_inputs
import proofs.«137429_j68822555951393_1_alg».proof.Proof.Gen.Pre_finite_inputs
import proofs.«137429_j68822555951393_1_alg».proof.Proof.SpecReal
import Idealize.ShloMosaic.Lib.ReduceAll
import Idealize.ShloMosaic.Lib.ValueIdx

set_option maxRecDepth 16384

noncomputable section

namespace Cert.Finite

open Idealize.ShloMosaic Cert.Pre_finite_inputs Idealize.ShloMosaic.ValueIdx Cert.Spec

instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is below `+∞` is a real. -/
theorem real_of_abs_lt_top (x : EReal) (h : Ideal.cmp .olt (max x (-x)) ⊤ = 1#1) : IsReal x := by
  have hlt : max x (-x) < ⊤ := by
    by_contra hc
    simp [Ideal.cmp, hc] at h
  have h1 : x ≠ ⊤ := fun e => by subst e; simp at hlt
  have h2 : x ≠ ⊥ := fun e => by subst e; simp at hlt
  exact ⟨x.toReal, (EReal.coe_toReal h1 h2).symm⟩

/-- A reduction by `and` of "below +∞ in absolute value" that is 1 says every entry is a real. -/
theorem reals_of_all {s : Shape} {axes : List (Fin s.rank)} (x inf : FVec Ideal s .f32) (hinf : ∀ i, inf i = ⊤)
    (h : s.ReducesTo axes S_) (hu : 0 < S_.numel)
    (e : Host.reduce IntOp.andi (cmpf .olt (Host.absf x) inf) (constantI S_ 1 1#1) h hu ix0 = 1#1) (i : s.Idx) : IsReal (x i) := by
  have hi := Host.reduce_andi_all (cmpf .olt (Host.absf x) inf) (constantI S_ 1 1#1) h hu ix0 e i
  refine real_of_abs_lt_top (x i) ?_
  rw [← hinf i]; exact hi

/-- A conjunction of two one-entry truth values that is 1 has both 1. -/
theorem and_split (A B : IVec S_ 1) (e : andi A B ix0 = 1#1) : A ix0 = 1#1 ∧ B ix0 = 1#1 :=
  IntOp.andi_eq_one.mp e

/-- Under the precondition every float argument is real entry by entry. -/
theorem reals_of_pre [Facts] (a0 : FVec Ideal S50000x128 .f32) (a1 : IVec S2x800000 32) (a2 : FVec Ideal S800000x64 .f32)
    (a3 : FVec Ideal S320x128 .f32) (a4 : FVec Ideal S128 .f32) (a5 : FVec Ideal S128x128 .f32) (a6 : FVec Ideal S128 .f32)
    (a7 : FVec Ideal S128x1 .f32) (a8 : FVec Ideal S1 .f32) (a9 a10 : FVec Ideal S128 .f32)
    (h : fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i)) := by
  have h0 := congrFun h ix0
  dsimp only [fn, fn_part1, fn_part2] at h0
  obtain ⟨h1, e10⟩ := and_split _ _ h0
  obtain ⟨h2, e9⟩ := and_split _ _ h1
  obtain ⟨h3, e8⟩ := and_split _ _ h2
  obtain ⟨h4, e7⟩ := and_split _ _ h3
  obtain ⟨h5, e6⟩ := and_split _ _ h4
  obtain ⟨h6, e5⟩ := and_split _ _ h5
  obtain ⟨h7, e4⟩ := and_split _ _ h6
  obtain ⟨h8, e3⟩ := and_split _ _ h7
  obtain ⟨e0, e2⟩ := and_split _ _ h8
  exact ⟨reals_of_all a0 _ (fun _ => inf_word) _ _ e0, reals_of_all a2 _ (fun _ => inf_word) _ _ e2,
    reals_of_all a3 _ (fun _ => inf_word) _ _ e3, reals_of_all a4 _ (fun _ => inf_word) _ _ e4,
    reals_of_all a5 _ (fun _ => inf_word) _ _ e5, reals_of_all a6 _ (fun _ => inf_word) _ _ e6,
    reals_of_all a7 _ (fun _ => inf_word) _ _ e7, reals_of_all a8 _ (fun _ => inf_word) _ _ e8,
    reals_of_all a9 _ (fun _ => inf_word) _ _ e9, reals_of_all a10 _ (fun _ => inf_word) _ _ e10⟩

end Cert.Finite

end
-- ==== Proof.Bridge.Real.lean ====
/- Every entry of the reference's gathered rows, of its messages and of its attention scores is a real number when the
   arguments' entries are: a gathered entry is an entry of the node array, and a message and a score are built from the
   gathered rows, the edge features and the weights by sums, differences, products, maxima and the leaky rectifier. -/
import proofs.«137429_j68822555951393_1_alg».proof.Proof.SpecReal
import proofs.«137429_j68822555951393_1_alg».proof.Proof.Ref.ReadEdge

noncomputable section

namespace Cert.Bridge

open Cert.ReferenceIdeal Cert.ReferenceIdeal.Hand Idealize.ShloMosaic Idealize.ShloMosaic.ValueIdx

variable (a0 : FVec Ideal S50000x128 .f32) (a1 : IVec S2x800000 32) (a2 : FVec Ideal S800000x64 .f32)
  (a3 : FVec Ideal S320x128 .f32) (a4 : FVec Ideal S128 .f32) (a5 : FVec Ideal S128x128 .f32) (a6 : FVec Ideal S128 .f32)
  (a7 : FVec Ideal S128x1 .f32) (a8 : FVec Ideal S1 .f32)

/-- A row gathered at the first index row is a row of the node array: its entries are real. -/
theorem hSrc_real (h0 : ∀ i, Cert.Spec.IsReal (a0 i)) (e : Fin 800000) (k : Fin 128) :
    Cert.Spec.IsReal (Cert.ReferenceIdeal.Hand.hSrc a0 a1 (ix2 e k)) := by
  unfold Cert.ReferenceIdeal.Hand.hSrc Host.gather
  exact h0 _

/-- The same at the second index row. -/
theorem hDst_real (h0 : ∀ i, Cert.Spec.IsReal (a0 i)) (e : Fin 800000) (k : Fin 128) :
    Cert.Spec.IsReal (Cert.ReferenceIdeal.Hand.hDst a0 a1 (ix2 e k)) := by
  unfold Cert.ReferenceIdeal.Hand.hDst Host.gather
  exact h0 _

/-- An edge's message is real: the message row of the hidden row of the concatenated input row, all of real entries. -/
theorem msgs_real (h0 : ∀ i, Cert.Spec.IsReal (a0 i)) (h2 : ∀ i, Cert.Spec.IsReal (a2 i)) (h3 : ∀ i, Cert.Spec.IsReal (a3 i))
    (h4 : ∀ i, Cert.Spec.IsReal (a4 i)) (h5 : ∀ i, Cert.Spec.IsReal (a5 i)) (h6 : ∀ i, Cert.Spec.IsReal (a6 i))
    (e : Fin 800000) (j : Fin 128) :
    Cert.Spec.IsReal (Cert.ReferenceIdeal.Hand.msgs a0 a1 a2 a3 a4 a5 a6 (ix2 e j)) := by
  rw [msgs_apply]
  exact Cert.Spec.msgRow_real
    (fun k => Cert.Spec.hidRow_real
      (fun l => Cert.Spec.catRow_real (fun k => hDst_real a0 a1 h0 e k) (fun k => hSrc_real a0 a1 h0 e k) (fun k => h2 _) l)
      (fun l k => h3 _) (fun k => h4 _) k)
    (fun k j => h5 _) (fun j => h6 _) j

/-- An edge's attention score is real. -/
theorem score_real (h0 : ∀ i, Cert.Spec.IsReal (a0 i)) (h2 : ∀ i, Cert.Spec.IsReal (a2 i)) (h3 : ∀ i, Cert.Spec.IsReal (a3 i))
    (h4 : ∀ i, Cert.Spec.IsReal (a4 i)) (h5 : ∀ i, Cert.Spec.IsReal (a5 i)) (h6 : ∀ i, Cert.Spec.IsReal (a6 i))
    (h7 : ∀ i, Cert.Spec.IsReal (a7 i)) (h8 : ∀ i, Cert.Spec.IsReal (a8 i)) (e : Fin 800000) :
    Cert.Spec.IsReal (Cert.Spec.scoreRow (fun k => Cert.ReferenceIdeal.Hand.msgs a0 a1 a2 a3 a4 a5 a6 (ix2 e k))
      (fun k => a7 (ix2 k (0 : Fin 1))) (a8 (ix1 (0 : Fin 1)))) :=
  Cert.Spec.scoreRow_real (fun k => msgs_real a0 a1 a2 a3 a4 a5 a6 h0 h2 h3 h4 h5 h6 e k) (fun k => h7 _) (h8 _)

end Cert.Bridge

end
-- ==== Proof.KI.Pay2.lean ====
/- The stored value of the residual-and-normalisation kernel, read at an index, on the extended reals: row `p` of the
   block value is the layer normalisation of the row `x p + agg p` with scale `γ` and shift `β`.
   The body takes a row's mean as a lane sum kept as a one-column array, divided by 128 and spread back over the 128
   lanes; the variance the same way from the squared centred row. -/
import proofs.«137429_j68822555951393_1_alg».proof.Proof.Gen.KernelIdeal.Skeleton
import proofs.«137429_j68822555951393_1_alg».proof.Proof.Spec
import proofs.«137429_j68822555951393_1_alg».proof.Proof.KI.Layout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic
open Idealize.ShloMosaic.ValueIdx

/-! ## The body's intermediate arrays -/

/-- The block of summed rows `x + agg` (the aggregate passes through a cast to its own shape first). -/
def rows2 (v0 v1 : Vec Ideal S5000x128 .f32) : FVec Ideal S5000x128 .f32 :=
  addf v0 (shapeCast S5000x128 v1 shapeCasts_S5000x128_S5000x128)

theorem rows2_apply (v0 v1 : Vec Ideal S5000x128 .f32) (i : S5000x128.Idx) : rows2 v0 v1 i = v0 i + v1 i := by
  show v0 i + shapeCast S5000x128 v1 shapeCasts_S5000x128_S5000x128 i = _
  rw [shapeCast_self]

/-- The column of row means of a block, the body's way: lane sum, kept as one column, divided by 128. -/
def meanCol2 (x : FVec Ideal S5000x128 .f32) : FVec Ideal S5000x1 .f32 :=
  divf (shapeCast S5000x1 (multiReduction .add [1] S5000 x 0x00000000#32 reduces_S5000x128_S5000 (.inl rfl) rfl) shapeCasts_S5000_S5000x1)
    (broadcast S5000x1 (Scalar.ofBits .f32 0x43000000#32))

/-- The block with each row's mean taken off. -/
def centred2 (x : FVec Ideal S5000x128 .f32) : FVec Ideal S5000x128 .f32 :=
  subf x (broadcastTo S5000x128 (meanCol2 x) broadcasts_S5000x1_S5000x128)

/-- The column of means at row `p` is the mean of row `p`. -/
theorem meanCol2_apply (x : FVec Ideal S5000x128 .f32) (p : Fin 5000) (u : Fin 1) :
    meanCol2 x (ix2 p u) = Cert.Spec.mean (fun k => x (ix2 p k)) := by
  show Ideal.div (shapeCast S5000x1 (multiReduction .add [1] S5000 x 0x00000000#32 reduces_S5000x128_S5000 (.inl rfl) rfl) shapeCasts_S5000_S5000x1 (ix2 p u))
      (Ideal.ofBits .f32 0x43000000#32) = Ideal.div (∑ k : Fin 128, x (ix2 p k)) Cert.Spec.w128
  refine congrArg (fun s => Ideal.div s (Ideal.ofBits .f32 0x43000000#32)) ?_
  exact (shapeCast_a_a1_apply _ shapeCasts_S5000_S5000x1 p u).trans (laneSum_apply x reduces_S5000x128_S5000 (.inl rfl) rfl p)

/-- The centred block at `(p, q)`. -/
theorem centred2_apply (x : FVec Ideal S5000x128 .f32) (p : Fin 5000) (q : Fin 128) :
    centred2 x (ix2 p q) = x (ix2 p q) - Cert.Spec.mean (fun k => x (ix2 p k)) := by
  show x (ix2 p q) - broadcastTo S5000x128 (meanCol2 x) broadcasts_S5000x1_S5000x128 (ix2 p q) = _
  rw [broadcastTo_a1_ab_apply (meanCol2 x) broadcasts_S5000x1_S5000x128 p q, meanCol2_apply]

/-! ## The stored value at an index -/

/-- The stored value is the body's chain of operations over those intermediates. -/
theorem k2_pay1_eq (v0 v1 : Vec Ideal S5000x128 .f32) (v20 v24 : Vec Ideal S1x128 .f32) :
    k2_pay1 v0 v1 v20 v24
      = addf (mulf (mulf (centred2 (rows2 v0 v1))
            (broadcastTo S5000x128
              (rsqrt (addf (meanCol2 (mulf (centred2 (rows2 v0 v1))
                  (centred2 (rows2 v0 v1))))
                (broadcast S5000x1 (Scalar.ofBits .f32 0x3727C5AC#32))))
              broadcasts_S5000x1_S5000x128))
          (broadcastTo S5000x128 (shapeCast S1x128 v20 shapeCasts_S1x128_S1x128) broadcasts_S1x128_S5000x128))
        (broadcastTo S5000x128 (shapeCast S1x128 v24 shapeCasts_S1x128_S1x128) broadcasts_S1x128_S5000x128) := rfl

/-- Row `p`, lane `q` of the stored value: the layer normalisation of the row `v0 p + v1 p`, scaled by `v20` and shifted by
    `v24`. -/
theorem k2_pay1_apply (v0 v1 : Vec Ideal S5000x128 .f32) (v20 v24 : Vec Ideal S1x128 .f32) (p : Fin 5000) (q : Fin 128) :
    k2_pay1 v0 v1 v20 v24 (ix2 p q)
      = Cert.Spec.lnRow (fun k => v0 (ix2 p k) + v1 (ix2 p k)) (fun k => v20 (ix2 (0 : Fin 1) k)) (fun k => v24 (ix2 (0 : Fin 1) k)) q := by
  rw [k2_pay1_eq]
  -- the summed rows
  have hrow : ∀ k : Fin 128, rows2 v0 v1 (ix2 p k) = v0 (ix2 p k) + v1 (ix2 p k) := fun k => rows2_apply v0 v1 _
  generalize rows2 v0 v1 = w at hrow ⊢
  have hw : (fun k => w (ix2 p k)) = fun k => v0 (ix2 p k) + v1 (ix2 p k) := funext hrow
  -- the variance column at row `p`
  have hvar : meanCol2 (mulf (centred2 w) (centred2 w)) (ix2 p (0 : Fin 1)) = Cert.Spec.var (fun k => w (ix2 p k)) := by
    rw [meanCol2_apply]
    show Cert.Spec.mean (fun k => centred2 w (ix2 p k) * centred2 w (ix2 p k)) = _
    simp only [centred2_apply]
    rfl
  show (centred2 w (ix2 p q)
        * broadcastTo S5000x128 (rsqrt (addf (meanCol2 (mulf (centred2 w) (centred2 w))) (broadcast S5000x1 (Scalar.ofBits .f32 0x3727C5AC#32)))) broadcasts_S5000x1_S5000x128 (ix2 p q))
      * broadcastTo S5000x128 (shapeCast S1x128 v20 shapeCasts_S1x128_S1x128) broadcasts_S1x128_S5000x128 (ix2 p q)
      + broadcastTo S5000x128 (shapeCast S1x128 v24 shapeCasts_S1x128_S1x128) broadcasts_S1x128_S5000x128 (ix2 p q) = _
  rw [broadcastTo_a1_ab_apply _ broadcasts_S5000x1_S5000x128 p q,
    broadcastTo_1b_ab_apply _ broadcasts_S1x128_S5000x128 p q, broadcastTo_1b_ab_apply _ broadcasts_S1x128_S5000x128 p q,
    shapeCast_self, shapeCast_self, centred2_apply]
  show (w (ix2 p q) - Cert.Spec.mean (fun k => w (ix2 p k)))
        * Ideal.rsqrt (meanCol2 (mulf (centred2 w) (centred2 w)) (ix2 p (0 : Fin 1)) + Ideal.ofBits .f32 0x3727C5AC#32)
      * v20 (ix2 (0 : Fin 1) q) + v24 (ix2 (0 : Fin 1) q) = _
  rw [hvar, hw, hrow q]
  rfl

end Cert.KernelIdeal.Hand

end
-- ==== Proof.KI.Out2.lean ====
/- Region 2's output array after the region, read at an index, on the extended reals: row `n` of the array is the layer
   normalisation of the row `x n + agg n` of the two arrays the region reads block by block, with the scale and shift rows
   it reads whole. An element of block `t` of a window sits in the window's array at block index × block size plus its
   coordinate inside the block; the two row windows move with the grid point, the scale and shift windows stay at block 0. -/
import proofs.«137429_j68822555951393_1_alg».proof.Proof.KI.Val2
import proofs.«137429_j68822555951393_1_alg».proof.Proof.KI.Pay2

noncomputable section

namespace Cert.KernelIdeal.Hand

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The arrays the region reads, as the region finds them, at their index types -/

/-- The node array. -/
abbrev X2 (c : Dev nD) : S50000x128.Idx → EReal := V c main_arg0
/-- The aggregate array. -/
abbrev AGG2 (c : Dev nD) : S50000x128.Idx → EReal := V c main_v31
/-- The scale row. -/
abbrev GAM2 (c : Dev nD) : S1x128.Idx → EReal := V c main_v32
/-- The shift row. -/
abbrev BET2 (c : Dev nD) : S1x128.Idx → EReal := V c main_v33

/-! ## The input windows' block indices, decided over the 10 points -/

theorem idx2_in : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0)

/-! ## The input blocks read at an index -/

/-- Row `r` of block `t` of the node array is row `5000·t + r` of the array. -/
theorem iblk2_0_apply (c : Dev nD) (t : Fin cfg2.N) (r : Fin 5000) (k : Fin 128) (n : Fin 50000) (hn : n.val = t.val * 5000 + r.val) :
    iblk2 V c 0 t (ix2 r k) = X2 V c (ix2 n k) := by
  obtain ⟨e0, e1, -⟩ := idx2_in t
  show X2 V c (((cfg2.win 0).blk t).view.emb (ix2 r k)) = _
  refine congrArg (X2 V c) (funext fun a => Fin.ext ?_)
  match a with
  | ⟨0, _⟩ => show win2_0.index t (0 : Fin 2) * 5000 + 1 * r.val = n.val; rw [e0]; omega
  | ⟨1, _⟩ => show win2_0.index t (1 : Fin 2) * 128 + 1 * k.val = k.val; rw [e1]; omega

/-- The same of the aggregate array. -/
theorem iblk2_1_apply (c : Dev nD) (t : Fin cfg2.N) (r : Fin 5000) (k : Fin 128) (n : Fin 50000) (hn : n.val = t.val * 5000 + r.val) :
    iblk2 V c 1 t (ix2 r k) = AGG2 V c (ix2 n k) := by
  obtain ⟨-, -, e0, e1, -⟩ := idx2_in t
  show AGG2 V c (((cfg2.win 1).blk t).view.emb (ix2 r k)) = _
  refine congrArg (AGG2 V c) (funext fun a => Fin.ext ?_)
  match a with
  | ⟨0, _⟩ => show win2_1.index t (0 : Fin 2) * 5000 + 1 * r.val = n.val; rw [e0]; omega
  | ⟨1, _⟩ => show win2_1.index t (1 : Fin 2) * 128 + 1 * k.val = k.val; rw [e1]; omega

/-- The scale row's one block is the whole row, at every point. -/
theorem iblk2_2_apply (c : Dev nD) (t : Fin cfg2.N) (k : Fin 128) :
    iblk2 V c 2 t (ix2 (0 : Fin 1) k) = GAM2 V c (ix2 (0 : Fin 1) k) := by
  obtain ⟨-, -, -, -, e0, e1, -⟩ := idx2_in t
  show GAM2 V c (((cfg2.win 2).blk t).view.emb (ix2 (0 : Fin 1) k)) = _
  refine congrArg (GAM2 V c) (funext fun a => Fin.ext ?_)
  match a with
  | ⟨0, _⟩ => show win2_2.index t (0 : Fin 2) * 1 + 1 * 0 = 0; rw [e0]
  | ⟨1, _⟩ => show win2_2.index t (1 : Fin 2) * 128 + 1 * k.val = k.val; rw [e1]; omega

/-- The same of the shift row. -/
theorem iblk2_3_apply (c : Dev nD) (t : Fin cfg2.N) (k : Fin 128) :
    iblk2 V c 3 t (ix2 (0 : Fin 1) k) = BET2 V c (ix2 (0 : Fin 1) k) := by
  obtain ⟨-, -, -, -, -, -, e0, e1⟩ := idx2_in t
  show BET2 V c (((cfg2.win 3).blk t).view.emb (ix2 (0 : Fin 1) k)) = _
  refine congrArg (BET2 V c) (funext fun a => Fin.ext ?_)
  match a with
  | ⟨0, _⟩ => show win2_3.index t (0 : Fin 2) * 1 + 1 * 0 = 0; rw [e0]
  | ⟨1, _⟩ => show win2_3.index t (1 : Fin 2) * 128 + 1 * k.val = k.val; rw [e1]; omega

/-! ## The array at an index -/

/-- Row `n`, lane `q` of the array after the region. -/
theorem G2_apply (c : Dev nD) (n : Fin 50000) (q : Fin 128) :
    G2 V c (ix2 n q)
      = Cert.Spec.lnRow (fun k => X2 V c (ix2 n k) + AGG2 V c (ix2 n k))
          (fun k => GAM2 V c (ix2 (0 : Fin 1) k)) (fun k => BET2 V c (ix2 (0 : Fin 1) k)) q := by
  have hn : n.val < 50000 := n.isLt
  have ht : n.val / 5000 < cfg2.N := by show n.val / 5000 < grid2.N; rw [N_2]; omega
  have hdm : n.val = (⟨n.val / 5000, ht⟩ : Fin cfg2.N).val * 5000 + (⟨n.val % 5000, Nat.mod_lt _ (by decide)⟩ : Fin 5000).val := by
    show n.val = n.val / 5000 * 5000 + n.val % 5000; omega
  rw [G2_at V c ⟨n.val / 5000, ht⟩ (ix2 (⟨n.val % 5000, Nat.mod_lt _ (by decide)⟩ : Fin 5000) q) (ix2 n q) hdm rfl]
  unfold blockOut2
  rw [k2_pay1_apply]
  simp only [iblk2_0_apply V c _ _ _ n hdm, iblk2_1_apply V c _ _ _ n hdm, iblk2_2_apply, iblk2_3_apply]

end Cert.KernelIdeal.Hand

end
-- ==== Proof.Bridge.Norm.lean ====
/-
  The last step. A node's row — its own row plus the scatter-add's row — is normalised by the kernel as
  `(v - μ₀) * rsqrt (σ² + ε) * γ + β` and by the reference as `(v - μ₀) / sqrt (σ² + ε) * γ + β`; these agree since
  `σ² + ε > 0`. The scatter-add is the same host operation on both sides, so the two aggregates agree as soon as the
  weighted messages they add up do.
-/
import proofs.«137429_j68822555951393_1_alg».proof.Proof.KI.Chain
import proofs.«137429_j68822555951393_1_alg».proof.Proof.KI.Out2
import proofs.«137429_j68822555951393_1_alg».proof.Proof.Ref.ReadNorm
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.Spec

variable (m : (ℓ : Loc nD τ sig) → Buf (Elt Ideal) ℓ) (ρ : Dev nD → PrngReg) (c : Dev nD)

/-- The kernel's result is the reference's, given that the weighted messages agree. -/
theorem norm_eq (hw : G1 (Ent3 m ρ) c = Cert.ReferenceIdeal.Hand.weighted (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    G2 (Ent5 m ρ) c = Cert.ReferenceIdeal.Hand.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨n, q, rfl⟩ : ∃ (n : Fin 50000) (q : Fin 128), i = ix2 n q := ⟨i 0, i 1, eq_ix2 i⟩
  rw [G2_apply, Cert.ReferenceIdeal.Hand.refOut_apply, lnRowRef_eq]
  have hX : X2 (Ent5 m ρ) c = (m ((c : Thread nD τ).loc main_arg0)) := ent5_arg0 m ρ c
  have hA : AGG2 (Ent5 m ρ) c = Cert.ReferenceIdeal.Hand.agg (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
    show Ent5 m ρ c main_v31 = _
    rw [ent5_v31, hw]; rfl
  have hG : ∀ k : Fin 128, GAM2 (Ent5 m ρ) c (ix2 (0 : Fin 1) k) = (m ((c : Thread nD τ).loc main_arg9)) (ix1 k) := fun k => by
    show (Ent5 m ρ c main_v32) (ix2 (0 : Fin 1) k) = _
    rw [ent5_v32]; exact shapeCast_a_1a_apply _ _ 0 k
  have hB : ∀ k : Fin 128, BET2 (Ent5 m ρ) c (ix2 (0 : Fin 1) k) = (m ((c : Thread nD τ).loc main_arg10)) (ix1 k) := fun k => by
    show (Ent5 m ρ c main_v33) (ix2 (0 : Fin 1) k) = _
    rw [ent5_v33]; exact shapeCast_a_1a_apply _ _ 0 k
  rw [hX, hA]
  simp only [hG, hB]

end Cert.Bridge

end
-- ==== Proof.Bridge.Weighted.lean ====
/-
  The weighted messages. Both programs compute every edge's message row by the same sums, and its score by the same
  rectifier; the kernel's first region accumulates the softmax normaliser tile by tile, its second recomputes each
  score from the stored message and weights the message by `exp (s - M) / L`. With real scores the accumulated pair
  `(M, L)` is the reference's global maximum and sum, so the weights, and the weighted messages, are the reference's.
-/
import proofs.«137429_j68822555951393_1_alg».proof.Proof.KI.Chain
import proofs.«137429_j68822555951393_1_alg».proof.Proof.KI.Out0
import proofs.«137429_j68822555951393_1_alg».proof.Proof.KI.Out1
import proofs.«137429_j68822555951393_1_alg».proof.Proof.Ref.Read
import proofs.«137429_j68822555951393_1_alg».proof.Proof.Online
import proofs.«137429_j68822555951393_1_alg».proof.Proof.Finite
import proofs.«137429_j68822555951393_1_alg».proof.Proof.Bridge.Real
import proofs.«137429_j68822555951393_1_alg».proof.Proof.Bridge.Norm
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.Spec

variable (m : (ℓ : Loc nD τ sig) → Buf (Elt Ideal) ℓ) (ρ : Dev nD → PrngReg) (c : Dev nD)

/-- The messages region 0 stores are the reference's. -/
theorem msgs_eq (e : Fin 800000) (j : Fin 128) :
    G0 (Ent1 m ρ) c (ix2 e j) = Cert.ReferenceIdeal.Hand.msgs (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 e j) := by
  rw [G0_spec, Cert.ReferenceIdeal.Hand.msgs_apply]
  have hHD : HD0 (Ent1 m ρ) c = Cert.ReferenceIdeal.Hand.hDst (F := Ideal) (m ((c : Thread nD τ).loc main_arg0)) (m ((c : Thread nD τ).loc main_arg1)) := by
    show Ent1 m ρ c main_v17 = _
    rw [ent1_v17]; rfl
  have hHS : HS0 (Ent1 m ρ) c = Cert.ReferenceIdeal.Hand.hSrc (F := Ideal) (m ((c : Thread nD τ).loc main_arg0)) (m ((c : Thread nD τ).loc main_arg1)) := by
    show Ent1 m ρ c main_v10 = _
    rw [ent1_v10]; rfl
  have hEA : EA0 (Ent1 m ρ) c = (m ((c : Thread nD τ).loc main_arg2)) := ent1_arg2 m ρ c
  have hW1 : W10 (Ent1 m ρ) c = (m ((c : Thread nD τ).loc main_arg3)) := ent1_arg3 m ρ c
  have hW2 : W20 (Ent1 m ρ) c = (m ((c : Thread nD τ).loc main_arg5)) := ent1_arg5 m ρ c
  have hB1 : ∀ k : Fin 128, B10 (Ent1 m ρ) c (ix2 (0 : Fin 1) k) = (m ((c : Thread nD τ).loc main_arg4)) (ix1 k) := fun k => by
    show (Ent1 m ρ c main_v18) (ix2 (0 : Fin 1) k) = _
    rw [ent1_v18]; exact shapeCast_a_1a_apply _ _ 0 k
  have hB2 : ∀ k : Fin 128, B20 (Ent1 m ρ) c (ix2 (0 : Fin 1) k) = (m ((c : Thread nD τ).loc main_arg6)) (ix1 k) := fun k => by
    show (Ent1 m ρ c main_v19) (ix2 (0 : Fin 1) k) = _
    rw [ent1_v19]; exact shapeCast_a_1a_apply _ _ 0 k
  rw [hHD, hHS, hEA, hW1, hW2]
  simp only [hB1, hB2]

/-- The score region 1 recomputes from a stored message row is the reference's. -/
theorem score_eq (e : Fin 800000) :
    scoreRow (fun k => MSG1 (Ent3 m ρ) c (ix2 e k)) (fun k => WA1 (Ent3 m ρ) c (ix2 k (0 : Fin 1))) (BA1 (Ent3 m ρ) c (ix2 (0 : Fin 1) (0 : Fin 1)))
      = Cert.ReferenceIdeal.Hand.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 e (0 : Fin 1)) := by
  rw [Cert.ReferenceIdeal.Hand.score_apply]
  have hM : MSG1 (Ent3 m ρ) c = G0 (Ent1 m ρ) c := ent3_v21_0 m ρ c
  have hW : WA1 (Ent3 m ρ) c = (m ((c : Thread nD τ).loc main_arg7)) := ent3_arg7 m ρ c
  have hB : BA1 (Ent3 m ρ) c (ix2 (0 : Fin 1) (0 : Fin 1)) = (m ((c : Thread nD τ).loc main_arg8)) (ix1 (0 : Fin 1)) := by
    show (Ent3 m ρ c main_v22) (ix2 (0 : Fin 1) (0 : Fin 1)) = _
    rw [ent3_v22]; exact shapeCast_a_1a_apply _ _ 0 0
  rw [hM, hW, hB]
  simp only [msgs_eq m ρ c]

/-- The scores region 0 accumulates over, tile by tile, are the reference's. -/
theorem scoreK_eq (t : ℕ) (ht : t < 200) (p : Fin 4000) :
    scoreK (Ent1 m ρ) c t p = Cert.ReferenceIdeal.Hand.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (⟨4000 * t + p.val, by omega⟩ : Fin 800000) (0 : Fin 1)) := by
  unfold scoreK
  rw [dif_pos ht, Cert.ReferenceIdeal.Hand.score_apply]
  have hW : WA0 (Ent1 m ρ) c = (m ((c : Thread nD τ).loc main_arg7)) := ent1_arg7 m ρ c
  have hB : BA0 (Ent1 m ρ) c (ix2 (0 : Fin 1) (0 : Fin 1)) = (m ((c : Thread nD τ).loc main_arg8)) (ix1 (0 : Fin 1)) := by
    show (Ent1 m ρ c main_v20) (ix2 (0 : Fin 1) (0 : Fin 1)) = _
    rw [ent1_v20]; exact shapeCast_a_1a_apply _ _ 0 0
  rw [hW, hB]
  simp only [msgs_eq m ρ c]

/-- The statistics region 0 leaves are the reference's maximum and sum. -/
theorem stats_eq (hreal : ∀ e : Fin 800000, IsReal (Cert.ReferenceIdeal.Hand.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 e (0 : Fin 1)))) :
    stat0 (Ent1 m ρ) c (ix2 (0 : Fin 1) (0 : Fin 2)) = Cert.ReferenceIdeal.Hand.smax (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix1 (0 : Fin 1))
      ∧ stat0 (Ent1 m ρ) c (ix2 (0 : Fin 1) (1 : Fin 2)) = Cert.ReferenceIdeal.Hand.ssum (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix1 (0 : Fin 1)) := by
  have hr : ∀ t p, IsReal (scoreK (Ent1 m ρ) c t p) := fun t p => by
    by_cases ht : t < 200
    · rw [scoreK_eq m ρ c t ht p]; exact hreal _
    · unfold scoreK; rw [dif_neg ht]; exact IsReal.zero
  obtain ⟨h1, h2⟩ := Cert.Alg.online_eq (fun e => Cert.ReferenceIdeal.Hand.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 e (0 : Fin 1))) (scoreK (Ent1 m ρ) c) (scoreK_eq m ρ c) hr
  constructor
  · rw [stat0_fst, h1, Cert.ReferenceIdeal.Hand.smax_apply]
  · rw [stat0_snd, h2, Cert.ReferenceIdeal.Hand.ssum_apply, Cert.ReferenceIdeal.Hand.smax_apply]

/-- The weighted messages region 1 leaves are the reference's. -/
theorem weighted_eq (hreal : ∀ e : Fin 800000, IsReal (Cert.ReferenceIdeal.Hand.score (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 e (0 : Fin 1)))) :
    G1 (Ent3 m ρ) c = Cert.ReferenceIdeal.Hand.weighted (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨e, q, rfl⟩ : ∃ (e : Fin 800000) (q : Fin 128), i = ix2 e q := ⟨i 0, i 1, eq_ix2 i⟩
  rw [G1_apply, Cert.ReferenceIdeal.Hand.weighted_apply, score_eq m ρ c e]
  have hM : MSG1 (Ent3 m ρ) c (ix2 e q) = Cert.ReferenceIdeal.Hand.msgs (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 e q) := by
    rw [show MSG1 (Ent3 m ρ) c = G0 (Ent1 m ρ) c from ent3_v21_0 m ρ c]
    exact msgs_eq m ρ c e q
  have hS : STATS1 (Ent3 m ρ) c = stat0 (Ent1 m ρ) c := ent3_v21_1 m ρ c
  obtain ⟨s1, s2⟩ := stats_eq m ρ c hreal
  rw [hM, hS, s1, s2]

/-- THE BRIDGE: under the precondition the kernel's result array is the reference's result. -/
theorem kernel_eq_ref [Cert.Pre_finite_inputs.Facts]
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = fun _ => 1#1) :
    (dat2 (Ent5 m ρ) c).arrAt 4 cfg2.N = Cert.ReferenceIdeal.Hand.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h0, h2, h3, h4, h5, h6, h7, h8, h9, h10⟩ := Cert.Finite.reals_of_pre _ _ _ _ _ _ _ _ _ _ _ hpre
  rw [result_eq]
  refine norm_eq m ρ c (weighted_eq m ρ c fun e => ?_)
  rw [Cert.ReferenceIdeal.Hand.score_apply]
  exact score_real _ _ _ _ _ _ _ _ _ h0 h2 h3 h4 h5 h6 h7 h8 e

end Cert.Bridge

end
-- ==== Proof.lean ====
/-
  The claim: both kernel programs and the reference run to the end without a fault and leave their arguments as
  they found them; the idealized kernel is the kernel's own text read on the extended reals (the ideal pass rewrote
  nothing); and the idealized kernel and the idealized reference, run from memories that agree on the arguments,
  end with the same result.

  The kernel's run follows the buffers through three stretches of host operations and three kernel regions
  (Proof/K/Run.lean, Proof/KI/Run.lean); the reference's run is its ninety operations in order (Proof/Ref/Run.lean).
  That the two results are one function of the arguments is Proof/Bridge.lean: the message network is the same sums
  term by term; the softmax statistics accumulated tile by tile are the global maximum and sum (for real scores, which
  finite inputs give); the scatter-add is the same host operation on equal arrays; and multiplying by a reciprocal
  square root is dividing by the square root of a positive number.
-/
import proofs.«137429_j68822555951393_1_alg».proof.Defs
import proofs.«137429_j68822555951393_1_alg».proof.Proof.Gen.Kernel
import proofs.«137429_j68822555951393_1_alg».proof.Proof.Gen.KernelIdeal
import proofs.«137429_j68822555951393_1_alg».proof.Proof.Gen.ReferenceIdeal
import proofs.«137429_j68822555951393_1_alg».proof.Proof.Gen.Pre_finite_inputs
import proofs.«137429_j68822555951393_1_alg».proof.Proof.K.Run
import proofs.«137429_j68822555951393_1_alg».proof.Proof.KI.Run
import proofs.«137429_j68822555951393_1_alg».proof.Proof.Ref.Run
import proofs.«137429_j68822555951393_1_alg».proof.Proof.Bridge.Weighted
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)
theorem preserves : Cert.preserves_Kernel_KernelIdeal := trivial

/-- Run from memories that agree on the arguments, the idealized kernel ends with its last region's output array in
    the result buffer and the idealized reference with its operations' composed term there; under the precondition the
    two are one function of the arguments. -/
theorem algebraic : Cert.algebraic_KernelIdeal_ReferenceIdeal := by
  intro m ρ m' ρ' hpre hagree
  refine ⟨fun c => (Cert.KernelIdeal.Hand.dat2 (Cert.KernelIdeal.Hand.Ent5 m ρ) c).arrAt 4 Cert.KernelIdeal.cfg2.N,
    Cert.KernelIdeal.Hand.run_result m ρ, ?_⟩
  refine (θ_run Cert.ReferenceIdeal.defs _ _).mono (fun r h c => ⟨(h c).1.trans ?_, (h c).2⟩)
    (Cert.ReferenceIdeal.Hand.run (F := Ideal) m' ρ')
  obtain ⟨e0, e1, e2, e3, e4, e5, e6, e7, e8, e9, e10⟩ := hagree c
  rw [e0, e1, e2, e3, e4, e5, e6, e7, e8, e9, e10]
  exact (Cert.Bridge.kernel_eq_ref m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
